-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024 : Shape := ⟨1, ![1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S4x2048x1024 .f32) (main_arg1 : FVec F S1024 .f32) (main_arg2 : FVec F S1024x1024 .f32) (main_arg3 : FVec F S1024x1024 .f32) (main_arg4 : FVec F S1024x1024 .f32) (main_arg5 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S4x2048x1024 : Shape := ⟨3, ![4, 2048, 1024]⟩
abbrev S1024 : Shape := ⟨1, ![1024]⟩
abbrev S1024x1024 : Shape := ⟨2, ![1024, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S1x1024x1024 : Shape := ⟨3, ![1, 1024, 1024]⟩
abbrev S1024x1 : Shape := ⟨2, ![1024, 1]⟩
abbrev S1024x512 : Shape := ⟨2, ![1024, 512]⟩

abbrev nBuf : Space → Nat
  | .hbm => 18
  | .vmem => 24
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S4x2048x1024, .bf16⟩
  | .hbm, ⟨15, _⟩ => ⟨S4x2048x1024, .bf16⟩
  | .hbm, ⟨16, _⟩ => ⟨S4x2048x1024, .bf16⟩
  | .hbm, ⟨17, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1024x1024, .bf16⟩
  | .local _ .vmem, ⟨19, _⟩ => ⟨S1x1024x1024, .f32⟩
  | .local _ .vmem, ⟨20, _⟩ => ⟨S1x1024x1024, .f32⟩
  | .local _ .vmem, ⟨21, _⟩ => ⟨S1024x1, .f32⟩
  | .local _ .vmem, ⟨22, _⟩ => ⟨S1024x1, .f32⟩
  | .local _ .vmem, ⟨23, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem4_1 : DmaSem sig := 20

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨3, ![4, 2, 4], ![false, false, false]⟩

def k1_cond2 (i : grid1.Coords) : BitVec 1 :=
  let arg2 : BitVec 32 := BitVec.ofNat 32 (i 2).val
  let c3_i32 : BitVec 32 := 3#32
  let v40 : BitVec 1 := Scalar.cmpi .eq arg2 c3_i32
  let v41 : BitVec 32 := Scalar.extui v40
  let c0_i32_26 : BitVec 32 := 0#32
  let v42 : BitVec 1 := Scalar.cmpi .ne v41 c0_i32_26
  v42

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S1x1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  transposes_S1024x1024_S1024x1024_1_0 : S1024x1024.Transposes [1, 0] S1024x1024
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  broadcasts_S512x1_S512x1024 : S512x1.Broadcasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  shapeCasts_S1024x1024_S1x1024x1024 : S1024x1024.ShapeCasts S1x1024x1024
  dot_S512x1024_S1024x1024_S512x1024_1_0_0_1_n_n_wf : DotDims.WF S512x1024 S1024x1024 S512x1024 [1] [0] [0] [1] [] []
  dot_S1024x1024_S512x1024_S1024x512_1_1_0_0_n_n_wf : DotDims.WF S1024x1024 S512x1024 S1024x512 [1] [1] [0] [0] [] []
  dot_S1024x512_S512x1024_S1024x1024_1_0_0_1_n_n_wf : DotDims.WF S1024x512 S512x1024 S1024x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S4x2048x1024.size a
  hwx0_5 : ∀ i : grid0.Coords, EltTy.bits .bf16 = 32 ∨ (Rect.block (s := S4x2048x1024) S1x512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S4x2048x1024.size a
  hwx0_6 : ∀ i : grid0.Coords, EltTy.bits .bf16 = 32 ∨ (Rect.block (s := S4x2048x1024) S1x512x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S4x2048x1024.size a
  hwx0_7 : ∀ i : grid0.Coords, EltTy.bits .bf16 = 32 ∨ (Rect.block (s := S4x2048x1024) S1x512x1024.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x2048x1024.size a
  hwx1_0 : ∀ i : grid1.Coords, EltTy.bits .bf16 = 32 ∨ (Rect.block (s := S4x2048x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S4x2048x1024.size a
  hwx1_1 : ∀ i : grid1.Coords, EltTy.bits .bf16 = 32 ∨ (Rect.block (s := S4x2048x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x2048x1024.size a
  hwx1_2 : ∀ i : grid1.Coords, EltTy.bits .bf16 = 32 ∨ (Rect.block (s := S4x2048x1024) S1x512x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x1024.size a ≤ S4x2048x1024.size a
  hwx1_4 : ∀ i : grid1.Coords, EltTy.bits .f32 = 32 ∨ (Rect.block (s := S4x2048x1024) S1x1024x1024.size (cc1_transform_4 i) (hinb1_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8_0) S1x512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_1) S1x512x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_2) S1x512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v8_0) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_1) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8_2) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024 : Shape := ⟨1, ![1024]⟩
abbrev S1024x1024 : Shape := ⟨2, ![1024, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x2048 : Shape := ⟨3, ![4, 2048, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S4x2048x1024, .f32⟩
  | .hbm, ⟨13, _⟩ => ⟨S4x2048x1024, .f32⟩
  | .hbm, ⟨14, _⟩ => ⟨S4x2048x1024, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x1024, .f32⟩
  | .hbm, ⟨22, _⟩ => ⟨S4x2048x1024, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S4x2048x1, .f32⟩
  | .hbm, ⟨27, _⟩ => ⟨S4x2048x1024, .f32⟩
  | .hbm, ⟨28, _⟩ => ⟨S4x2048x1024, .f32⟩
  | .hbm, ⟨29, _⟩ => ⟨S1x1x1024, .f32⟩
  | .hbm, ⟨30, _⟩ => ⟨S4x2048x1024, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S4x2048x2048, .f32⟩
  | .hbm, ⟨36, _⟩ => ⟨S_, .f32⟩
  | .hbm, ⟨37, _⟩ => ⟨S4x2048, .f32⟩
  | .hbm, ⟨38, _⟩ => ⟨S_, .f32⟩
  | .hbm, ⟨39, _⟩ => ⟨S4x2048, .f32⟩
  | .hbm, ⟨40, _⟩ => ⟨S4x2048, .f32⟩
  | .hbm, ⟨41, _⟩ => ⟨S4x2048x1, .f32⟩
  | .hbm, ⟨42, _⟩ => ⟨S4x2048x2048, .f32⟩
  | .hbm, ⟨43, _⟩ => ⟨S4x2048x2048, .f32⟩
  | .hbm, ⟨44, _⟩ => ⟨S4x2048x2048, .f32⟩
  | .hbm, ⟨45, _⟩ => ⟨S_, .f32⟩
  | .hbm, ⟨46, _⟩ => ⟨S4x2048, .f32⟩
  | .hbm, ⟨47, _⟩ => ⟨S4x2048x1, .f32⟩
  | .hbm, ⟨48, _⟩ => ⟨S4x2048x2048, .f32⟩
  | .hbm, ⟨49, _⟩ => ⟨S4x2048x2048, .f32⟩
  | .hbm, ⟨50, _⟩ => ⟨S4x2048x1024, .f32⟩
  | .hbm, ⟨51, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]

class Facts₀ : Prop where
  reducesTo_S4x2048x1024_S4x2048_d2 : S4x2048x1024.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  reducesTo_S4x2048x2048_S4x2048_d2 : S4x2048x2048.ReducesTo [2] S4x2048
  bcast_S_S4x2048 : S_.BroadcastsInDim S4x2048 (![] : Fin 0 → Fin S4x2048.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.BitsRegion0.lean ====
/-
  The first pallas_call (layer normalisation and the three projections), as the pipeline library sees it.

  A grid point (b, i) reads rows 512 i .. 512 i + 511 of batch b of x, the whole scale vector and the
  three whole transposed weight matrices, and writes the same rows of q, k and v.  This module states,
  for arbitrary contents V of the device's buffers at the region's entry, what each output window's
  staging buffer holds after the body at a point — the stores the body's run ends with, over the
  point's input blocks —, proves the body's triple by symbolic execution, and packages both as the
  pipeline library's proof data with its body obligation.  The body keeps nothing between points.
-/
import proofs.«143834_j38010460570082_2_alg».proof.Proof.Gen.Kernel.Launch
import proofs.«143834_j38010460570082_2_alg».proof.Proof.Gen.Kernel.Skeleton
import proofs.«143834_j38010460570082_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window w's block at point t, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not:
    an input not fetched at a point has the block index of the point before. -/

theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

theorem found0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

theorem found0_3 {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

theorem found0_4 {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

/-! ## The body's run -/

/-- One staging buffer of each output window, through which its contents are stated. -/
abbrev VO0_5 : View sig .tc .vmem S1x512x1024 .bf16 := (Memref.whole cc0_stg5_0 : Memref sig .tc .vmem S1x512x1024 .bf16).view
abbrev VO0_6 : View sig .tc .vmem S1x512x1024 .bf16 := (Memref.whole cc0_stg6_0 : Memref sig .tc .vmem S1x512x1024 .bf16).view
abbrev VO0_7 : View sig .tc .vmem S1x512x1024 .bf16 := (Memref.whole cc0_stg7_0 : Memref sig .tc .vmem S1x512x1024 .bf16).view

set_option maxHeartbeats 4000000 in
/-- The stores the body ends with in each output's staging memref, with the proof that on whole staging
    memrefs — the inputs' at their contents, the outputs' at anything — the body runs to the continuation
    holding the inputs' as they were and each output's with those stores written. -/
noncomputable def bodyRun0 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x512x1024 .bf16) (harg7 : arg7.IsWhole) (arg8 : Memref sig .tc .vmem S1x512x1024 .bf16) (harg8 : arg8.IsWhole) (arg9 : Memref sig .tc .vmem S1x512x1024 .bf16) (harg9 : arg9.IsWhole)
    (x0 : Vec F S1x512x1024 .f32) (x1 : Vec F S1024 .f32) (x2 : Vec F S1024x1024 .bf16) (x3 : Vec F S1024x1024 .bf16) (x4 : Vec F S1024x1024 .bf16) :
    Σ' (L5 : List (View.Piece (Elt F) S1x512x1024 .bf16)) (L6 : List (View.Piece (Elt F) S1x512x1024 .bf16)), { L7 : List (View.Piece (Elt F) S1x512x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f L7)) -∗ K ⟨⟩))
          ⊢ wp frame (wpE (defs₀ (F := F)) Variants.none c none) E (cc0_ln_qkv_kernel i arg2 harg2 arg3 harg3 arg4 harg4 arg5 harg5 arg6 harg6 arg7 harg7 arg8 harg8 arg9 harg9) K } := by
  refine ⟨?_, ?_, ?_, fun E K => ?run⟩
  case run =>
    simp only [cc0_ln_qkv_kernel_eq_skeleton]; unfold cc0_ln_qkv_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf2
    obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact H7

end Region0

section Region0b

variable (V : (c : Dev nD) → (b : Ref sig .tc) → Buf (Elt F) ((c : Thread nD τ).loc b))

/-! ## What the body leaves in each output window's buffer -/

/-- The body's stores into output window 5 tile its block, so they cover it. -/
theorem cover0_5 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x512x1024 .bf16) (harg7 : arg7.IsWhole) (arg8 : Memref sig .tc .vmem S1x512x1024 .bf16) (harg8 : arg8.IsWhole) (arg9 : Memref sig .tc .vmem S1x512x1024 .bf16) (harg9 : arg9.IsWhole)
    (x0 : Vec F S1x512x1024 .f32) (x1 : Vec F S1024 .f32) (x2 : Vec F S1024x1024 .bf16) (x3 : Vec F S1024x1024 .bf16) (x4 : Vec F S1024x1024 .bf16) (y : S1x512x1024.Idx) :
    ∃ pc ∈ (bodyRun0 c i arg2 harg2 arg3 harg3 arg4 harg4 arg5 harg5 arg6 harg6 arg7 harg7 arg8 harg8 arg9 harg9 x0 x1 x2 x3 x4).1, y ∈ pc.1.set :=
  View.cover_of_tiledL (bodyRun0 c i arg2 harg2 arg3 harg3 arg4 harg4 arg5 harg5 arg6 harg6 arg7 harg7 arg8 harg8 arg9 harg9 x0 x1 x2 x3 x4).1 S1x512x1024.size (by sl_kernel_rfl) y

/-- What the body leaves in output window 5's staging buffer: its stores read back. -/
def out0_5 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x512x1024 .bf16) (harg7 : arg7.IsWhole) (arg8 : Memref sig .tc .vmem S1x512x1024 .bf16) (harg8 : arg8.IsWhole) (arg9 : Memref sig .tc .vmem S1x512x1024 .bf16) (harg9 : arg9.IsWhole)
    (x0 : Vec F S1x512x1024 .f32) (x1 : Vec F S1024 .f32) (x2 : Vec F S1024x1024 .bf16) (x3 : Vec F S1024x1024 .bf16) (x4 : Vec F S1024x1024 .bf16) : Vec F S1x512x1024 .bf16 :=
  VO0_5.read (Elt F) (VO0_5.writes (Elt F) VO0_5.junk (bodyRun0 c i arg2 harg2 arg3 harg3 arg4 harg4 arg5 harg5 arg6 harg6 arg7 harg7 arg8 harg8 arg9 harg9 x0 x1 x2 x3 x4).1)

/-- The body's stores into output window 6 tile its block, so they cover it. -/
theorem cover0_6 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x512x1024 .bf16) (harg7 : arg7.IsWhole) (arg8 : Memref sig .tc .vmem S1x512x1024 .bf16) (harg8 : arg8.IsWhole) (arg9 : Memref sig .tc .vmem S1x512x1024 .bf16) (harg9 : arg9.IsWhole)
    (x0 : Vec F S1x512x1024 .f32) (x1 : Vec F S1024 .f32) (x2 : Vec F S1024x1024 .bf16) (x3 : Vec F S1024x1024 .bf16) (x4 : Vec F S1024x1024 .bf16) (y : S1x512x1024.Idx) :
    ∃ pc ∈ (bodyRun0 c i arg2 harg2 arg3 harg3 arg4 harg4 arg5 harg5 arg6 harg6 arg7 harg7 arg8 harg8 arg9 harg9 x0 x1 x2 x3 x4).2.1, y ∈ pc.1.set :=
  View.cover_of_tiledL (bodyRun0 c i arg2 harg2 arg3 harg3 arg4 harg4 arg5 harg5 arg6 harg6 arg7 harg7 arg8 harg8 arg9 harg9 x0 x1 x2 x3 x4).2.1 S1x512x1024.size (by sl_kernel_rfl) y

/-- What the body leaves in output window 6's staging buffer: its stores read back. -/
def out0_6 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x512x1024 .bf16) (harg7 : arg7.IsWhole) (arg8 : Memref sig .tc .vmem S1x512x1024 .bf16) (harg8 : arg8.IsWhole) (arg9 : Memref sig .tc .vmem S1x512x1024 .bf16) (harg9 : arg9.IsWhole)
    (x0 : Vec F S1x512x1024 .f32) (x1 : Vec F S1024 .f32) (x2 : Vec F S1024x1024 .bf16) (x3 : Vec F S1024x1024 .bf16) (x4 : Vec F S1024x1024 .bf16) : Vec F S1x512x1024 .bf16 :=
  VO0_6.read (Elt F) (VO0_6.writes (Elt F) VO0_6.junk (bodyRun0 c i arg2 harg2 arg3 harg3 arg4 harg4 arg5 harg5 arg6 harg6 arg7 harg7 arg8 harg8 arg9 harg9 x0 x1 x2 x3 x4).2.1)

/-- The body's stores into output window 7 tile its block, so they cover it. -/
theorem cover0_7 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x512x1024 .bf16) (harg7 : arg7.IsWhole) (arg8 : Memref sig .tc .vmem S1x512x1024 .bf16) (harg8 : arg8.IsWhole) (arg9 : Memref sig .tc .vmem S1x512x1024 .bf16) (harg9 : arg9.IsWhole)
    (x0 : Vec F S1x512x1024 .f32) (x1 : Vec F S1024 .f32) (x2 : Vec F S1024x1024 .bf16) (x3 : Vec F S1024x1024 .bf16) (x4 : Vec F S1024x1024 .bf16) (y : S1x512x1024.Idx) :
    ∃ pc ∈ (bodyRun0 c i arg2 harg2 arg3 harg3 arg4 harg4 arg5 harg5 arg6 harg6 arg7 harg7 arg8 harg8 arg9 harg9 x0 x1 x2 x3 x4).2.2.1, y ∈ pc.1.set :=
  View.cover_of_tiledL (bodyRun0 c i arg2 harg2 arg3 harg3 arg4 harg4 arg5 harg5 arg6 harg6 arg7 harg7 arg8 harg8 arg9 harg9 x0 x1 x2 x3 x4).2.2.1 S1x512x1024.size (by sl_kernel_rfl) y

/-- What the body leaves in output window 7's staging buffer: its stores read back. -/
def out0_7 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x512x1024 .bf16) (harg7 : arg7.IsWhole) (arg8 : Memref sig .tc .vmem S1x512x1024 .bf16) (harg8 : arg8.IsWhole) (arg9 : Memref sig .tc .vmem S1x512x1024 .bf16) (harg9 : arg9.IsWhole)
    (x0 : Vec F S1x512x1024 .f32) (x1 : Vec F S1024 .f32) (x2 : Vec F S1024x1024 .bf16) (x3 : Vec F S1024x1024 .bf16) (x4 : Vec F S1024x1024 .bf16) : Vec F S1x512x1024 .bf16 :=
  VO0_7.read (Elt F) (VO0_7.writes (Elt F) VO0_7.junk (bodyRun0 c i arg2 harg2 arg3 harg3 arg4 harg4 arg5 harg5 arg6 harg6 arg7 harg7 arg8 harg8 arg9 harg9 x0 x1 x2 x3 x4).2.2.1)

/-! ## The pipeline's proof data -/

/-- Each window's current staging memref at point t, as the pipeline passes it, and its wholeness. -/
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x1024 .bf16 := win0_7.stage (cfg0.slots t 7)
abbrev hs0_7 (t : Fin cfg0.N) : (ms0_7 t).IsWhole := hstage0_7 ((cfg0.slots t 7).cast nbuf0_7)

/-- The proof data of the first pipeline on core c: the arrays as the region finds them; after the body at
    point t each input's buffer at its block and each output's at the body's stores over the input blocks;
    the invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => out0_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (blk0 V c 0 t) (blk0 V c 1 t) (blk0 V c 2 t) (blk0 V c 3 t) (blk0 V c 4 t)
    | ⟨6, _⟩ => out0_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (blk0 V c 0 t) (blk0 V c 1 t) (blk0 V c 2 t) (blk0 V c 3 t) (blk0 V c 4 t)
    | ⟨7, _⟩ => out0_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (blk0 V c 0 t) (blk0 V c 1 t) (blk0 V c 2 t) (blk0 V c 3 t) (blk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = out0_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (blk0 V c 0 t) (blk0 V c 1 t) (blk0 V c 2 t) (blk0 V c 3 t) (blk0 V c 4 t) := by dsimp only [dat0]
theorem after0_6 (c : Dev nD) (t : Fin cfg0.N) : (dat0 V c).after 6 t = out0_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (blk0 V c 0 t) (blk0 V c 1 t) (blk0 V c 2 t) (blk0 V c 3 t) (blk0 V c 4 t) := by dsimp only [dat0]
theorem after0_7 (c : Dev nD) (t : Fin cfg0.N) : (dat0 V c).after 7 t = out0_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (blk0 V c 0 t) (blk0 V c 1 t) (blk0 V c 2 t) (blk0 V c 3 t) (blk0 V c 4 t) := by dsimp only [dat0]

theorem before0_0 (c : Dev nD) (t : Fin cfg0.N) (d) : (dat0 V c).before 0 t d = blk0 V c 0 t :=
  found0_0 V (dat0 V c) (A_eq0 V c 0) (after0_0 V c) t d
theorem before0_1 (c : Dev nD) (t : Fin cfg0.N) (d) : (dat0 V c).before 1 t d = blk0 V c 1 t :=
  found0_1 V (dat0 V c) (A_eq0 V c 1) (after0_1 V c) t d
theorem before0_2 (c : Dev nD) (t : Fin cfg0.N) (d) : (dat0 V c).before 2 t d = blk0 V c 2 t :=
  found0_2 V (dat0 V c) (A_eq0 V c 2) (after0_2 V c) t d
theorem before0_3 (c : Dev nD) (t : Fin cfg0.N) (d) : (dat0 V c).before 3 t d = blk0 V c 3 t :=
  found0_3 V (dat0 V c) (A_eq0 V c 3) (after0_3 V c) t d
theorem before0_4 (c : Dev nD) (t : Fin cfg0.N) (d) : (dat0 V c).before 4 t d = blk0 V c 4 t :=
  found0_4 V (dat0 V c) (A_eq0 V c 4) (after0_4 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 4000000 in
/-- The body at any point: the inputs' memrefs hold their blocks, so the run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  unfold out0_5 out0_6 out0_7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((bodyRun0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (blk0 V c 0 t) (blk0 V c 1 t) (blk0 V c 2 t) (blk0 V c 3 t) (blk0 V c 4 t)).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, ⟨%e5, H5⟩, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_5 c _ _ _ _ _ _ _ _ _ _ _ _ _ _ _ _ _ _ _ _ _ _)
  isplitl [H6]
  · unfold owns; iexists _; isplitr
    swap; · iexact H6
    ipureintro; exact View.read_writes_of_cover _ _ _ _ _ (cover0_6 c _ _ _ _ _ _ _ _ _ _ _ _ _ _ _ _ _ _ _ _ _ _)
  unfold owns; iexists _; isplitr
  swap; · iexact H7
  ipureintro; exact View.read_writes_of_cover _ _ _ _ _ (cover0_7 c _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0b

end Cert.Kernel.Hand

end
-- ==== Proof.BitsRegion1Defs.lean ====
/-
  The second pallas_call (blocked attention with the output projection), as the pipeline library sees
  it: what the three ways through its body share.

  The grid is (batch, query tile, key tile), the key tile innermost.  A point reads a query tile of
  1024 rows, a key tile and a value tile of 512 rows each and the whole transposed output weight.  Three
  scratch buffers — the running maximum, the running normalizer and the running numerator of every
  query row — are reset at key tile 0, updated at every key tile, and at key tile 3 divided and
  projected into the output tile, which is written back there and idle at the other points.  So a
  point is in one of three cases by its key tile: 0, 1 or 2, 3.  Here: the two branch conditions in
  closed form over the grid, where the output window is idle, the memrefs at a point, and the scoped
  buffers listed.
-/
import proofs.«143834_j38010460570082_2_alg».proof.Proof.Gen.Kernel.Launch
import proofs.«143834_j38010460570082_2_alg».proof.Proof.Gen.Kernel.Skeleton
import proofs.«143834_j38010460570082_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The windows' blocks -/

/-- Window w's block at point t, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not. -/

theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

theorem found1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

theorem found1_3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

end Region1

/-! ## The body's branch conditions -/

/-- The reset's condition: the key tile is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The finish's condition: the key tile is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from key tile 3 the output window is idle and not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At key tile 3 it is live. -/
theorem liveAt1_4 : ∀ t : Fin cfg1.N, cond1_1 (grid1.coords t) → cfg1.idle 4 (grid1.coords t) = false := by decide +kernel

/-! ## The memrefs at a point -/

abbrev VO1_4 : View sig .tc .vmem S1x1024x1024 .f32 := (Memref.whole cc1_stg4_0 : Memref sig .tc .vmem S1x1024x1024 .f32).view
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x1024 .f32 := win1_4.stage (cfg1.slots t 4)
abbrev hs1_4 (t : Fin cfg1.N) : (ms1_4 t).IsWhole := hstage1_4 ((cfg1.slots t 4).cast nbuf1_4)
/-- The scratch operands: whole scoped buffers of the kernel's own. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

/-- The region's rest with the scratch operands as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.Hand

end
-- ==== Proof.BitsRegion1RunA.lean ====
/-
  The second pallas_call's body run whole at key tile 0: the reset is taken, the finish is not.
-/
import proofs.«143834_j38010460570082_2_alg».proof.Proof.BitsRegion1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 8000000 in
/-- The stores the body ends with in the scratch buffers at key tile 0: the reset is taken, the finish is not, with the proof that on whole
    memrefs — the inputs' at their contents, the output's handed back untouched, the scratch at anything —
    the body runs to the continuation holding the inputs' as they were and the written buffers with those stores. -/
noncomputable def bodyRun1_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1024x1024 .bf16) :
    Σ' (LS0 : List (View.Piece (Elt F) S1024x1 .f32)) (LS1 : List (View.Piece (Elt F) S1024x1 .f32)), { LS2 : List (View.Piece (Elt F) S1024x1024 .f32) //
      ∀ (xi4 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1_attn_out_kernel i arg3 harg3 arg4 harg4 arg5 harg5 arg6 harg6 arg7 harg7 arg8 harg8 arg9 harg9 arg10 harg10) K } := by
  refine ⟨?_, ?_, ?_, fun xi4 E K => ?run⟩
  case run =>
    simp only [cc1_attn_out_kernel_eq_skeleton]; unfold cc1_attn_out_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.Kernel.Hand

end
-- ==== Proof.BitsRegion1RunB.lean ====
/-
  The second pallas_call's body run whole at key tiles 1 and 2: neither the reset nor the finish is taken.
-/
import proofs.«143834_j38010460570082_2_alg».proof.Proof.BitsRegion1RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 8000000 in
/-- The stores the body ends with in the scratch buffers at key tiles 1 and 2: neither the reset nor the finish is taken, with the proof that on whole
    memrefs — the inputs' at their contents, the output's handed back untouched, the scratch at what the point before left —
    the body runs to the continuation holding the inputs' as they were and the written buffers with those stores. -/
noncomputable def bodyRun1_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) :
    Σ' (LS0 : List (View.Piece (Elt F) S1024x1 .f32)) (LS1 : List (View.Piece (Elt F) S1024x1 .f32)), { LS2 : List (View.Piece (Elt F) S1024x1024 .f32) //
      ∀ (xi4 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1_attn_out_kernel i arg3 harg3 arg4 harg4 arg5 harg5 arg6 harg6 arg7 harg7 arg8 harg8 arg9 harg9 arg10 harg10) K } := by
  refine ⟨?_, ?_, ?_, fun xi4 E K => ?run⟩
  case run =>
    simp only [cc1_attn_out_kernel_eq_skeleton]; unfold cc1_attn_out_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.Kernel.Hand

end
-- ==== Proof.BitsRegion1RunC.lean ====
/-
  The second pallas_call's body run whole at key tile 3: the reset is not taken, the finish is.
-/
import proofs.«143834_j38010460570082_2_alg».proof.Proof.BitsRegion1RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 8000000 in
/-- The stores the body ends with in the scratch buffers and the output tile at key tile 3: the reset is not taken, the finish is, with the proof that on whole
    memrefs — the inputs' at their contents, the output's at anything, the scratch at what the point before left —
    the body runs to the continuation holding the inputs' as they were and the written buffers with those stores. -/
noncomputable def bodyRun1_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) :
    Σ' (L4 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1_attn_out_kernel i arg3 harg3 arg4 harg4 arg5 harg5 arg6 harg6 arg7 harg7 arg8 harg8 arg9 harg9 arg10 harg10) K } := by
  refine ⟨?_, ?_, ?_, ?_, fun E K => ?run⟩
  case run =>
    simp only [cc1_attn_out_kernel_eq_skeleton]; unfold cc1_attn_out_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    iexists _; iexact HS2

end Cert.Kernel.Hand

end
-- ==== Proof.BitsRegion1.lean ====
/-
  The second pallas_call: what its scratch buffers hold after every grid point, the pipeline library's
  proof data, and the body obligation.

  After a point at key tile 0 the scratch buffers hold what the reset-and-update run leaves; after a point
  at key tile 1, 2 or 3 what the update run leaves over the contents the point before left.  The output
  tile after a point at key tile 3 is what the finishing run stores, over the same previous contents.
  The region's invariant before a point is the scoped rest with the three scratch buffers at those
  contents (before the first point: at anything).
-/
import proofs.«143834_j38010460570082_2_alg».proof.Proof.BitsRegion1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-! ## What each case leaves: its stores cover the buffers they go to, and are read back -/

theorem scover1_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1024x1024 .bf16) (y : S1024x1.Idx) :
    ∃ pc ∈ (bodyRun1_A c i arg3 harg3 arg4 harg4 arg5 harg5 arg6 harg6 arg7 harg7 arg8 harg8 arg9 harg9 arg10 harg10 hc0 hc1 x0 x1 x2 x3).1, y ∈ pc.1.set :=
  View.cover_of_tiledL (bodyRun1_A c i arg3 harg3 arg4 harg4 arg5 harg5 arg6 harg6 arg7 harg7 arg8 harg8 arg9 harg9 arg10 harg10 hc0 hc1 x0 x1 x2 x3).1 S1024x1.size (by sl_kernel_rfl) y

def sout1_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1024x1024 .bf16) : Vec F S1024x1 .f32 :=
  VS1_0.read (Elt F) (VS1_0.writes (Elt F) VS1_0.junk (bodyRun1_A c i arg3 harg3 arg4 harg4 arg5 harg5 arg6 harg6 arg7 harg7 arg8 harg8 arg9 harg9 arg10 harg10 hc0 hc1 x0 x1 x2 x3).1)

theorem scover1_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1024x1024 .bf16) (y : S1024x1.Idx) :
    ∃ pc ∈ (bodyRun1_A c i arg3 harg3 arg4 harg4 arg5 harg5 arg6 harg6 arg7 harg7 arg8 harg8 arg9 harg9 arg10 harg10 hc0 hc1 x0 x1 x2 x3).2.1, y ∈ pc.1.set :=
  View.cover_of_tiledL (bodyRun1_A c i arg3 harg3 arg4 harg4 arg5 harg5 arg6 harg6 arg7 harg7 arg8 harg8 arg9 harg9 arg10 harg10 hc0 hc1 x0 x1 x2 x3).2.1 S1024x1.size (by sl_kernel_rfl) y

def sout1_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1024x1024 .bf16) : Vec F S1024x1 .f32 :=
  VS1_1.read (Elt F) (VS1_1.writes (Elt F) VS1_1.junk (bodyRun1_A c i arg3 harg3 arg4 harg4 arg5 harg5 arg6 harg6 arg7 harg7 arg8 harg8 arg9 harg9 arg10 harg10 hc0 hc1 x0 x1 x2 x3).2.1)

theorem scover1_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1024x1024 .bf16) (y : S1024x1024.Idx) :
    ∃ pc ∈ (bodyRun1_A c i arg3 harg3 arg4 harg4 arg5 harg5 arg6 harg6 arg7 harg7 arg8 harg8 arg9 harg9 arg10 harg10 hc0 hc1 x0 x1 x2 x3).2.2.1, y ∈ pc.1.set :=
  View.cover_of_tiledL (bodyRun1_A c i arg3 harg3 arg4 harg4 arg5 harg5 arg6 harg6 arg7 harg7 arg8 harg8 arg9 harg9 arg10 harg10 hc0 hc1 x0 x1 x2 x3).2.2.1 S1024x1024.size (by sl_kernel_rfl) y

def sout1_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1024x1024 .bf16) : Vec F S1024x1024 .f32 :=
  VS1_2.read (Elt F) (VS1_2.writes (Elt F) VS1_2.junk (bodyRun1_A c i arg3 harg3 arg4 harg4 arg5 harg5 arg6 harg6 arg7 harg7 arg8 harg8 arg9 harg9 arg10 harg10 hc0 hc1 x0 x1 x2 x3).2.2.1)

theorem scover1_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) (y : S1024x1.Idx) :
    ∃ pc ∈ (bodyRun1_B c i arg3 harg3 arg4 harg4 arg5 harg5 arg6 harg6 arg7 harg7 arg8 harg8 arg9 harg9 arg10 harg10 hc0 hc1 x0 x1 x2 x3 xs0 xs1 xs2).1, y ∈ pc.1.set :=
  View.cover_of_tiledL (bodyRun1_B c i arg3 harg3 arg4 harg4 arg5 harg5 arg6 harg6 arg7 harg7 arg8 harg8 arg9 harg9 arg10 harg10 hc0 hc1 x0 x1 x2 x3 xs0 xs1 xs2).1 S1024x1.size (by sl_kernel_rfl) y

def sout1_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (bodyRun1_B c i arg3 harg3 arg4 harg4 arg5 harg5 arg6 harg6 arg7 harg7 arg8 harg8 arg9 harg9 arg10 harg10 hc0 hc1 x0 x1 x2 x3 xs0 xs1 xs2).1)

theorem scover1_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) (y : S1024x1.Idx) :
    ∃ pc ∈ (bodyRun1_B c i arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (bodyRun1_B c i arg3 harg3 arg4 harg4 arg5 harg5 arg6 harg6 arg7 harg7 arg8 harg8 arg9 harg9 arg10 harg10 hc0 hc1 x0 x1 x2 x3 xs0 xs1 xs2).2.1 S1024x1.size (by sl_kernel_rfl) y

def sout1_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (bodyRun1_B c i arg3 harg3 arg4 harg4 arg5 harg5 arg6 harg6 arg7 harg7 arg8 harg8 arg9 harg9 arg10 harg10 hc0 hc1 x0 x1 x2 x3 xs0 xs1 xs2).2.1)

theorem scover1_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) (y : S1024x1024.Idx) :
    ∃ pc ∈ (bodyRun1_B c i arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (bodyRun1_B c i arg3 harg3 arg4 harg4 arg5 harg5 arg6 harg6 arg7 harg7 arg8 harg8 arg9 harg9 arg10 harg10 hc0 hc1 x0 x1 x2 x3 xs0 xs1 xs2).2.2.1 S1024x1024.size (by sl_kernel_rfl) y

def sout1_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (bodyRun1_B c i arg3 harg3 arg4 harg4 arg5 harg5 arg6 harg6 arg7 harg7 arg8 harg8 arg9 harg9 arg10 harg10 hc0 hc1 x0 x1 x2 x3 xs0 xs1 xs2).2.2.1)

theorem scover1_C_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) (y : S1024x1.Idx) :
    ∃ pc ∈ (bodyRun1_C c i arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (bodyRun1_C c i arg3 harg3 arg4 harg4 arg5 harg5 arg6 harg6 arg7 harg7 arg8 harg8 arg9 harg9 arg10 harg10 hc0 hc1 x0 x1 x2 x3 xs0 xs1 xs2).2.1 S1024x1.size (by sl_kernel_rfl) y

def sout1_C_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (bodyRun1_C c i arg3 harg3 arg4 harg4 arg5 harg5 arg6 harg6 arg7 harg7 arg8 harg8 arg9 harg9 arg10 harg10 hc0 hc1 x0 x1 x2 x3 xs0 xs1 xs2).2.1)

theorem scover1_C_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) (y : S1024x1.Idx) :
    ∃ pc ∈ (bodyRun1_C c i arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (bodyRun1_C c i arg3 harg3 arg4 harg4 arg5 harg5 arg6 harg6 arg7 harg7 arg8 harg8 arg9 harg9 arg10 harg10 hc0 hc1 x0 x1 x2 x3 xs0 xs1 xs2).2.2.1 S1024x1.size (by sl_kernel_rfl) y

def sout1_C_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (bodyRun1_C c i arg3 harg3 arg4 harg4 arg5 harg5 arg6 harg6 arg7 harg7 arg8 harg8 arg9 harg9 arg10 harg10 hc0 hc1 x0 x1 x2 x3 xs0 xs1 xs2).2.2.1)

theorem scover1_C_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) (y : S1024x1024.Idx) :
    ∃ pc ∈ (bodyRun1_C c i arg3 harg3 arg4 harg4 arg5 harg5 arg6 harg6 arg7 harg7 arg8 harg8 arg9 harg9 arg10 harg10 hc0 hc1 x0 x1 x2 x3 xs0 xs1 xs2).2.2.2.1, y ∈ pc.1.set :=
  View.cover_of_tiledL (bodyRun1_C c i arg3 harg3 arg4 harg4 arg5 harg5 arg6 harg6 arg7 harg7 arg8 harg8 arg9 harg9 arg10 harg10 hc0 hc1 x0 x1 x2 x3 xs0 xs1 xs2).2.2.2.1 S1024x1024.size (by sl_kernel_rfl) y

def sout1_C_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (bodyRun1_C c i arg3 harg3 arg4 harg4 arg5 harg5 arg6 harg6 arg7 harg7 arg8 harg8 arg9 harg9 arg10 harg10 hc0 hc1 x0 x1 x2 x3 xs0 xs1 xs2).2.2.2.1)

theorem cover1_C_4 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) (y : S1x1024x1024.Idx) :
    ∃ pc ∈ (bodyRun1_C c i arg3 harg3 arg4 harg4 arg5 harg5 arg6 harg6 arg7 harg7 arg8 harg8 arg9 harg9 arg10 harg10 hc0 hc1 x0 x1 x2 x3 xs0 xs1 xs2).1, y ∈ pc.1.set :=
  View.cover_of_tiledL (bodyRun1_C c i arg3 harg3 arg4 harg4 arg5 harg5 arg6 harg6 arg7 harg7 arg8 harg8 arg9 harg9 arg10 harg10 hc0 hc1 x0 x1 x2 x3 xs0 xs1 xs2).1 S1x1024x1024.size (by sl_kernel_rfl) y

def out1_C_4 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) : Vec F S1x1024x1024 .f32 :=
  VO1_4.read (Elt F) (VO1_4.writes (Elt F) VO1_4.junk (bodyRun1_C c i arg3 harg3 arg4 harg4 arg5 harg5 arg6 harg6 arg7 harg7 arg8 harg8 arg9 harg9 arg10 harg10 hc0 hc1 x0 x1 x2 x3 xs0 xs1 xs2).1)

section Region1b

variable (V : (c : Dev nD) → (b : Ref sig .tc) → Buf (Elt F) ((c : Thread nD τ).loc b))

/-! ## The scratch buffers after each point -/

/-- What the three scratch buffers hold after the body at position n: at key tile 0 the first case's stores,
    else the later cases' over what position n - 1 left. -/
def stAt1 (c : Dev nD) : (n : ℕ) → n < cfg1.N → Vec F S1024x1 .f32 × Vec F S1024x1 .f32 × Vec F S1024x1024 .f32
  | 0, hn => (sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (blk1 V c 0 ⟨0, hn⟩) (blk1 V c 1 ⟨0, hn⟩) (blk1 V c 2 ⟨0, hn⟩) (blk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (blk1 V c 0 ⟨0, hn⟩) (blk1 V c 1 ⟨0, hn⟩) (blk1 V c 2 ⟨0, hn⟩) (blk1 V c 3 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (blk1 V c 0 ⟨0, hn⟩) (blk1 V c 1 ⟨0, hn⟩) (blk1 V c 2 ⟨0, hn⟩) (blk1 V c 3 ⟨0, hn⟩))
  | n + 1, hn =>
    if h0 : (n + 1) % 4 = 0 then
      if h1 : (n + 1) % 4 = 3 then
        False.elim (by omega)
      else
        (sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (blk1 V c 0 ⟨n + 1, hn⟩) (blk1 V c 1 ⟨n + 1, hn⟩) (blk1 V c 2 ⟨n + 1, hn⟩) (blk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (blk1 V c 0 ⟨n + 1, hn⟩) (blk1 V c 1 ⟨n + 1, hn⟩) (blk1 V c 2 ⟨n + 1, hn⟩) (blk1 V c 3 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (blk1 V c 0 ⟨n + 1, hn⟩) (blk1 V c 1 ⟨n + 1, hn⟩) (blk1 V c 2 ⟨n + 1, hn⟩) (blk1 V c 3 ⟨n + 1, hn⟩))
    else
      if h1 : (n + 1) % 4 = 3 then
        (sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (blk1 V c 0 ⟨n + 1, hn⟩) (blk1 V c 1 ⟨n + 1, hn⟩) (blk1 V c 2 ⟨n + 1, hn⟩) (blk1 V c 3 ⟨n + 1, hn⟩) (stAt1 c n (Nat.lt_of_succ_lt hn)).1 (stAt1 c n (Nat.lt_of_succ_lt hn)).2.1 (stAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (blk1 V c 0 ⟨n + 1, hn⟩) (blk1 V c 1 ⟨n + 1, hn⟩) (blk1 V c 2 ⟨n + 1, hn⟩) (blk1 V c 3 ⟨n + 1, hn⟩) (stAt1 c n (Nat.lt_of_succ_lt hn)).1 (stAt1 c n (Nat.lt_of_succ_lt hn)).2.1 (stAt1 c n (Nat.lt_of_succ_lt hn)).2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (blk1 V c 0 ⟨n + 1, hn⟩) (blk1 V c 1 ⟨n + 1, hn⟩) (blk1 V c 2 ⟨n + 1, hn⟩) (blk1 V c 3 ⟨n + 1, hn⟩) (stAt1 c n (Nat.lt_of_succ_lt hn)).1 (stAt1 c n (Nat.lt_of_succ_lt hn)).2.1 (stAt1 c n (Nat.lt_of_succ_lt hn)).2.2)
      else
        (sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (blk1 V c 0 ⟨n + 1, hn⟩) (blk1 V c 1 ⟨n + 1, hn⟩) (blk1 V c 2 ⟨n + 1, hn⟩) (blk1 V c 3 ⟨n + 1, hn⟩) (stAt1 c n (Nat.lt_of_succ_lt hn)).1 (stAt1 c n (Nat.lt_of_succ_lt hn)).2.1 (stAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (blk1 V c 0 ⟨n + 1, hn⟩) (blk1 V c 1 ⟨n + 1, hn⟩) (blk1 V c 2 ⟨n + 1, hn⟩) (blk1 V c 3 ⟨n + 1, hn⟩) (stAt1 c n (Nat.lt_of_succ_lt hn)).1 (stAt1 c n (Nat.lt_of_succ_lt hn)).2.1 (stAt1 c n (Nat.lt_of_succ_lt hn)).2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (blk1 V c 0 ⟨n + 1, hn⟩) (blk1 V c 1 ⟨n + 1, hn⟩) (blk1 V c 2 ⟨n + 1, hn⟩) (blk1 V c 3 ⟨n + 1, hn⟩) (stAt1 c n (Nat.lt_of_succ_lt hn)).1 (stAt1 c n (Nat.lt_of_succ_lt hn)).2.1 (stAt1 c n (Nat.lt_of_succ_lt hn)).2.2)

theorem stAt1_A (c : Dev nD) (t : Fin cfg1.N) (h0 : t.val % 4 = 0) (h1 : ¬t.val % 4 = 3) :
    stAt1 V c t.val t.isLt = (sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (blk1 V c 0 t) (blk1 V c 1 t) (blk1 V c 2 t) (blk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (blk1 V c 0 t) (blk1 V c 1 t) (blk1 V c 2 t) (blk1 V c 3 t), sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (blk1 V c 0 t) (blk1 V c 1 t) (blk1 V c 2 t) (blk1 V c 3 t)) := by
  obtain ⟨n, hn⟩ := t
  cases n with
  | zero => exact rfl
  | succ n => exact (dif_pos h0).trans ((dif_neg h1).trans rfl)

theorem stAt1_B (c : Dev nD) (t : Fin cfg1.N) (h0 : ¬t.val % 4 = 0) (h1 : ¬t.val % 4 = 3) :
    stAt1 V c t.val t.isLt = (sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (blk1 V c 0 t) (blk1 V c 1 t) (blk1 V c 2 t) (blk1 V c 3 t) (stAt1 V c (t.val - 1) (Nat.lt_of_le_of_lt (Nat.sub_le _ _) t.isLt)).1 (stAt1 V c (t.val - 1) (Nat.lt_of_le_of_lt (Nat.sub_le _ _) t.isLt)).2.1 (stAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (blk1 V c 0 t) (blk1 V c 1 t) (blk1 V c 2 t) (blk1 V c 3 t) (stAt1 V c (t.val - 1) (Nat.lt_of_le_of_lt (Nat.sub_le _ _) t.isLt)).1 (stAt1 V c (t.val - 1) (Nat.lt_of_le_of_lt (Nat.sub_le _ _) t.isLt)).2.1 (stAt1 V c (t.val - 1) (Nat.lt_of_le_of_lt (Nat.sub_le _ _) t.isLt)).2.2, sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (blk1 V c 0 t) (blk1 V c 1 t) (blk1 V c 2 t) (blk1 V c 3 t) (stAt1 V c (t.val - 1) (Nat.lt_of_le_of_lt (Nat.sub_le _ _) t.isLt)).1 (stAt1 V c (t.val - 1) (Nat.lt_of_le_of_lt (Nat.sub_le _ _) t.isLt)).2.1 (stAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem stAt1_C (c : Dev nD) (t : Fin cfg1.N) (h0 : ¬t.val % 4 = 0) (h1 : t.val % 4 = 3) :
    stAt1 V c t.val t.isLt = (sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (blk1 V c 0 t) (blk1 V c 1 t) (blk1 V c 2 t) (blk1 V c 3 t) (stAt1 V c (t.val - 1) (Nat.lt_of_le_of_lt (Nat.sub_le _ _) t.isLt)).1 (stAt1 V c (t.val - 1) (Nat.lt_of_le_of_lt (Nat.sub_le _ _) t.isLt)).2.1 (stAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (blk1 V c 0 t) (blk1 V c 1 t) (blk1 V c 2 t) (blk1 V c 3 t) (stAt1 V c (t.val - 1) (Nat.lt_of_le_of_lt (Nat.sub_le _ _) t.isLt)).1 (stAt1 V c (t.val - 1) (Nat.lt_of_le_of_lt (Nat.sub_le _ _) t.isLt)).2.1 (stAt1 V c (t.val - 1) (Nat.lt_of_le_of_lt (Nat.sub_le _ _) t.isLt)).2.2, sout1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (blk1 V c 0 t) (blk1 V c 1 t) (blk1 V c 2 t) (blk1 V c 3 t) (stAt1 V c (t.val - 1) (Nat.lt_of_le_of_lt (Nat.sub_le _ _) t.isLt)).1 (stAt1 V c (t.val - 1) (Nat.lt_of_le_of_lt (Nat.sub_le _ _) t.isLt)).2.1 (stAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- What the output tile's staging buffer holds after the body at point t: at key tile 3 the finishing run's
    stores over what the point before left in the scratch buffers; elsewhere nothing is stored and the
    value is never consulted. -/
def after4 (c : Dev nD) (t : Fin cfg1.N) : Vec F S1x1024x1024 .f32 :=
  if h1 : t.val % 4 = 3 then
    out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => by have h' := (hcond1_0 t).mp h; omega) ((hcond1_1 t).mpr h1) (blk1 V c 0 t) (blk1 V c 1 t) (blk1 V c 2 t) (blk1 V c 3 t) (stAt1 V c (t.val - 1) (Nat.lt_of_le_of_lt (Nat.sub_le _ _) t.isLt)).1 (stAt1 V c (t.val - 1) (Nat.lt_of_le_of_lt (Nat.sub_le _ _) t.isLt)).2.1 (stAt1 V c (t.val - 1) (Nat.lt_of_le_of_lt (Nat.sub_le _ _) t.isLt)).2.2
  else VO1_4.read (Elt F) VO1_4.junk

theorem after4_C (c : Dev nD) (t : Fin cfg1.N) (h0 : ¬t.val % 4 = 0) (h1 : t.val % 4 = 3) :
    after4 V c t = out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (blk1 V c 0 t) (blk1 V c 1 t) (blk1 V c 2 t) (blk1 V c 3 t) (stAt1 V c (t.val - 1) (Nat.lt_of_le_of_lt (Nat.sub_le _ _) t.isLt)).1 (stAt1 V c (t.val - 1) (Nat.lt_of_le_of_lt (Nat.sub_le _ _) t.isLt)).2.1 (stAt1 V c (t.val - 1) (Nat.lt_of_le_of_lt (Nat.sub_le _ _) t.isLt)).2.2 :=
  dif_pos h1

/-! ## The invariant -/

/-- Before position n: before the first point the scoped rest at anything; afterwards the scoped rest with the
    three scratch buffers at what the point before left. -/
def Phi1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ owns (c : Thread nD τ) scM1_0 fullShare (stAt1 V c n hn).1 ∗ owns (c : Thread nD τ) scM1_1 fullShare (stAt1 V c n hn).2.1 ∗ owns (c : Thread nD τ) scM1_2 fullShare (stAt1 V c n hn).2.2) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ owns (c : Thread nD τ) scM1_0 fullShare (stAt1 V c n hn).1 ∗ owns (c : Thread nD τ) scM1_1 fullShare (stAt1 V c n hn).2.1 ∗ owns (c : Thread nD τ) scM1_2 fullShare (stAt1 V c n hn).2.2) ∗ (∃ r, prngReg c r)) := rfl

theorem Phi1_pos (c : Dev nD) (n : ℕ) (h : n ≤ cfg1.N) (hz : n ≠ 0) :
    Phi1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ owns (c : Thread nD τ) scM1_0 fullShare (stAt1 V c (n - 1) (by omega)).1 ∗ owns (c : Thread nD τ) scM1_1 fullShare (stAt1 V c (n - 1) (by omega)).2.1 ∗ owns (c : Thread nD τ) scM1_2 fullShare (stAt1 V c (n - 1) (by omega)).2.2) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => after4 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = after4 V c t := by dsimp only [dat1]

theorem before1_0 (c : Dev nD) (t : Fin cfg1.N) (d) : (dat1 V c).before 0 t d = blk1 V c 0 t :=
  found1_0 V (dat1 V c) (A_eq1 V c 0) (after1_0 V c) t d
theorem before1_1 (c : Dev nD) (t : Fin cfg1.N) (d) : (dat1 V c).before 1 t d = blk1 V c 1 t :=
  found1_1 V (dat1 V c) (A_eq1 V c 1) (after1_1 V c) t d
theorem before1_2 (c : Dev nD) (t : Fin cfg1.N) (d) : (dat1 V c).before 2 t d = blk1 V c 2 t :=
  found1_2 V (dat1 V c) (A_eq1 V c 2) (after1_2 V c) t d
theorem before1_3 (c : Dev nD) (t : Fin cfg1.N) (d) : (dat1 V c).before 3 t d = blk1 V c 3 t :=
  found1_3 V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the inputs' memrefs hold their blocks; the closed forms say which case the point is
    in; the invariant hands the body the scratch buffers at what the point before left (at anything at the
    first point) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) t.isLt from rfl, Phi1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 4 = 0
  · have h1 : ¬t.val % 4 = 3 := by omega
    rw [Dat.leavesExact_idle (dat1 V c) 4 t (idleAt1_4 t (fun h => h1 ((hcond1_1 t).mp h))) (noFlush1_4 t (fun h => h1 ((hcond1_1 t).mp h)))]
    rw [stAt1_A V c t h0 h1]
    unfold sout1_A_0 sout1_A_1 sout1_A_2; (try dsimp only)
    by_cases hz : t.val = 0
    · skip
      rw [Phi1_castSucc V c t, Phi1_zero V c _ _ hz, PhiA1_eq]
      iintro ⟨⟨⟨HA0, HA1, HA2, HA3, HA4, HA5, HA6, HA7, HA8, HA9, HA10, HA11, HS0, HS1, HS2⟩, Hg⟩, Ho, ⟨%d0, H0⟩, ⟨%d1, H1⟩, ⟨%d2, H2⟩, ⟨%d3, H3⟩, ⟨%d4, H4⟩⟩
      iapply ((bodyRun1_A c (grid1.coords t) _ _ _ _ _ _ _ _ _ _ _ _ _ _ _ _ ((hcond1_0 t).mpr h0) (fun h => h1 ((hcond1_1 t).mp h)) (blk1 V c 0 t) (blk1 V c 1 t) (blk1 V c 2 t) (blk1 V c 3 t)).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HA0 HA1 HA2 HA3 HA4 HA5 HA6 HA7 HA8 HA9 HA10 HA11 HS0 HS1 HS2 Hg]
      · isplitl [HA0 HA1 HA2 HA3 HA4 HA5 HA6 HA7 HA8 HA9 HA10 HA11 HS0 HS1 HS2]
        · isplitl [HA0]; · iexact HA0
          isplitl [HA1]; · iexact HA1
          isplitl [HA2]; · iexact HA2
          isplitl [HA3]; · iexact HA3
          isplitl [HA4]; · iexact HA4
          isplitl [HA5]; · iexact HA5
          isplitl [HA6]; · iexact HA6
          isplitl [HA7]; · iexact HA7
          isplitl [HA8]; · iexact HA8
          isplitl [HA9]; · iexact HA9
          isplitl [HA10]; · iexact HA10
          isplitl [HA11]; · iexact HA11
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · skip
      rw [Phi1_castSucc V c t, Phi1_pos V c _ _ hz]
      iintro ⟨⟨⟨HA0, HA1, HA2, HA3, HA4, HA5, HA6, HA7, HA8, HA9, HA10, HA11, HS0, HS1, HS2⟩, Hg⟩, Ho, ⟨%d0, H0⟩, ⟨%d1, H1⟩, ⟨%d2, H2⟩, ⟨%d3, H3⟩, ⟨%d4, H4⟩⟩
      iapply ((bodyRun1_A c (grid1.coords t) _ _ _ _ _ _ _ _ _ _ _ _ _ _ _ _ ((hcond1_0 t).mpr h0) (fun h => h1 ((hcond1_1 t).mp h)) (blk1 V c 0 t) (blk1 V c 1 t) (blk1 V c 2 t) (blk1 V c 3 t)).2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%es0, HS0⟩, ⟨%es1, HS1⟩, ⟨%es2, HS2⟩⟩
      isplitl [HA0 HA1 HA2 HA3 HA4 HA5 HA6 HA7 HA8 HA9 HA10 HA11 HS0 HS1 HS2 Hg]
      · isplitl [HA0 HA1 HA2 HA3 HA4 HA5 HA6 HA7 HA8 HA9 HA10 HA11 HS0 HS1 HS2]
        · isplitl [HA0]; · iexact HA0
          isplitl [HA1]; · iexact HA1
          isplitl [HA2]; · iexact HA2
          isplitl [HA3]; · iexact HA3
          isplitl [HA4]; · iexact HA4
          isplitl [HA5]; · iexact HA5
          isplitl [HA6]; · iexact HA6
          isplitl [HA7]; · iexact HA7
          isplitl [HA8]; · iexact HA8
          isplitl [HA9]; · iexact HA9
          isplitl [HA10]; · iexact HA10
          isplitl [HA11]; · iexact HA11
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 4 = 3
    · rw [show (dat1 V c).leavesExact 4 t = owns (c : Thread nD τ) (ms1_4 t) fullShare ((dat1 V c).after 4 t) from by
        unfold Dat.leavesExact; rw [liveAt1_4 t ((hcond1_1 t).mpr h1)], after1_4, after4_C V c t h0 h1]
      rw [stAt1_C V c t h0 h1]
      unfold out1_C_4 sout1_C_0 sout1_C_1 sout1_C_2; (try dsimp only)
      rw [Phi1_castSucc V c t, Phi1_pos V c _ _ hz]
      iintro ⟨⟨⟨HA0, HA1, HA2, HA3, HA4, HA5, HA6, HA7, HA8, HA9, HA10, HA11, HS0, HS1, HS2⟩, Hg⟩, Ho, ⟨%d0, H0⟩, ⟨%d1, H1⟩, ⟨%d2, H2⟩, ⟨%d3, H3⟩, ⟨%d4, H4⟩⟩
      iapply ((bodyRun1_C c (grid1.coords t) _ _ _ _ _ _ _ _ _ _ _ _ _ _ _ _ (fun h => h0 ((hcond1_0 t).mp h)) ((hcond1_1 t).mpr h1) (blk1 V c 0 t) (blk1 V c 1 t) (blk1 V c 2 t) (blk1 V c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HA0 HA1 HA2 HA3 HA4 HA5 HA6 HA7 HA8 HA9 HA10 HA11 HS0 HS1 HS2 Hg]
      · isplitl [HA0 HA1 HA2 HA3 HA4 HA5 HA6 HA7 HA8 HA9 HA10 HA11 HS0 HS1 HS2]
        · isplitl [HA0]; · iexact HA0
          isplitl [HA1]; · iexact HA1
          isplitl [HA2]; · iexact HA2
          isplitl [HA3]; · iexact HA3
          isplitl [HA4]; · iexact HA4
          isplitl [HA5]; · iexact HA5
          isplitl [HA6]; · iexact HA6
          isplitl [HA7]; · iexact HA7
          isplitl [HA8]; · iexact HA8
          isplitl [HA9]; · iexact HA9
          isplitl [HA10]; · iexact HA10
          isplitl [HA11]; · iexact HA11
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _)
          unfold owns; iexists _; isplitr
          swap; · iexact HS2
          ipureintro; exact View.read_writes_of_cover _ _ _ _ _ (scover1_C_2 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [stAt1_B V c t h0 h1]
      unfold sout1_B_0 sout1_B_1 sout1_B_2; (try dsimp only)
      rw [Phi1_castSucc V c t, Phi1_pos V c _ _ hz]
      iintro ⟨⟨⟨HA0, HA1, HA2, HA3, HA4, HA5, HA6, HA7, HA8, HA9, HA10, HA11, HS0, HS1, HS2⟩, Hg⟩, Ho, ⟨%d0, H0⟩, ⟨%d1, H1⟩, ⟨%d2, H2⟩, ⟨%d3, H3⟩, ⟨%d4, H4⟩⟩
      iapply ((bodyRun1_B c (grid1.coords t) _ _ _ _ _ _ _ _ _ _ _ _ _ _ _ _ (fun h => h0 ((hcond1_0 t).mp h)) (fun h => h1 ((hcond1_1 t).mp h)) (blk1 V c 0 t) (blk1 V c 1 t) (blk1 V c 2 t) (blk1 V c 3 t) _ _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HA0 HA1 HA2 HA3 HA4 HA5 HA6 HA7 HA8 HA9 HA10 HA11 HS0 HS1 HS2 Hg]
      · isplitl [HA0 HA1 HA2 HA3 HA4 HA5 HA6 HA7 HA8 HA9 HA10 HA11 HS0 HS1 HS2]
        · isplitl [HA0]; · iexact HA0
          isplitl [HA1]; · iexact HA1
          isplitl [HA2]; · iexact HA2
          isplitl [HA3]; · iexact HA3
          isplitl [HA4]; · iexact HA4
          isplitl [HA5]; · iexact HA5
          isplitl [HA6]; · iexact HA6
          isplitl [HA7]; · iexact HA7
          isplitl [HA8]; · iexact HA8
          isplitl [HA9]; · iexact HA9
          isplitl [HA10]; · iexact HA10
          isplitl [HA11]; · iexact HA11
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives the scoped rest back: the scratch buffers' contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 32 := N_1; omega), PhiA1_eq]
  iintro ⟨⟨HA0, HA1, HA2, HA3, HA4, HA5, HA6, HA7, HA8, HA9, HA10, HA11, HS0, HS1, HS2⟩, Hg⟩
  isplitl [HA0 HA1 HA2 HA3 HA4 HA5 HA6 HA7 HA8 HA9 HA10 HA11 HS0 HS1 HS2]
  · isplitl [HA0]; · iexact HA0
    isplitl [HA1]; · iexact HA1
    isplitl [HA2]; · iexact HA2
    isplitl [HA3]; · iexact HA3
    isplitl [HA4]; · iexact HA4
    isplitl [HA5]; · iexact HA5
    isplitl [HA6]; · iexact HA6
    isplitl [HA7]; · iexact HA7
    isplitl [HA8]; · iexact HA8
    isplitl [HA9]; · iexact HA9
    isplitl [HA10]; · iexact HA10
    isplitl [HA11]; · iexact HA11
    isplitl [HS0]; · iexists _; iexact HS0
    isplitl [HS1]; · iexists _; iexact HS1
    iexists _; iexact HS2
  iexact Hg

end Region1b

end Cert.Kernel.Hand

end
-- ==== Proof.BitsRun.lean ====
/-
  The whole program run: eight host operations (each weight transposed and narrowed), the first pallas_call,
  the second.  The contents of the device's unscoped buffers are followed from the launch through the three
  segments: after the host operations; after the first call, its arrays at what its write-backs leave; after
  the second likewise.  Every weakly fair execution terminates without a fault with every unscoped buffer at
  the last of these.  Read at the argument arrays that is the launch contents (no host operation and no
  region writes one); read at the result it is the second call's output array after its last write-back.
-/
import proofs.«143834_j38010460570082_2_alg».proof.Proof.BitsRegion0
import proofs.«143834_j38010460570082_2_alg».proof.Proof.BitsRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
/-- After the host operations (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second call's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first pallas_call over the thread state: entered from every unscoped buffer at the contents before it,
    left at the contents after it; its arrays split out of the unscoped buffers and put back at the exit
    contents; the generator register into the region's invariant and out; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state: entered from every unscoped buffer at the contents before it,
    left at the contents after it; its arrays split out of the unscoped buffers and put back at the exit
    contents; the generator register into the region's invariant and out; nothing owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- Every argument array ends as launched, and the result array ends at what the second call's write-backs leave. -/
theorem run_value : θ_run defs (onTc (τ := τ) (main (F := F))) ⟨m, fun _ => 0, ρ⟩ (fun r => ∀ c : Dev nD,
      r.2.mem ((c.tc : Thread nD τ).loc main_v9) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v9 (by decide))).trans (W3_arr m ρ c 4),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run_all m ρ)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run_value m ρ)

end Cert.Kernel.Hand

end
-- ==== Proof.IdealRegion0.lean ====
/-
  The first pallas_call (layer normalisation and the three projections), as the pipeline library sees it.

  A grid point (b, i) reads rows 512 i .. 512 i + 511 of batch b of x, the whole scale vector and the
  three whole transposed weight matrices, and writes the same rows of q, k and v.  This module states,
  for arbitrary contents V of the device's buffers at the region's entry, what each output window's
  staging buffer holds after the body at a point — the stores the body's run ends with, over the
  point's input blocks —, proves the body's triple by symbolic execution, and packages both as the
  pipeline library's proof data with its body obligation.  The body keeps nothing between points.
-/
import proofs.«143834_j38010460570082_2_alg».proof.Proof.Gen.KernelIdeal.Launch
import proofs.«143834_j38010460570082_2_alg».proof.Proof.Gen.KernelIdeal.Skeleton
import proofs.«143834_j38010460570082_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window w's block at point t, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not:
    an input not fetched at a point has the block index of the point before. -/

theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

theorem found0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

theorem found0_3 {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

theorem found0_4 {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

/-! ## The body's run -/

/-- One staging buffer of each output window, through which its contents are stated. -/
abbrev VO0_5 : View sig .tc .vmem S1x512x1024 .bf16 := (Memref.whole cc0_stg5_0 : Memref sig .tc .vmem S1x512x1024 .bf16).view
abbrev VO0_6 : View sig .tc .vmem S1x512x1024 .bf16 := (Memref.whole cc0_stg6_0 : Memref sig .tc .vmem S1x512x1024 .bf16).view
abbrev VO0_7 : View sig .tc .vmem S1x512x1024 .bf16 := (Memref.whole cc0_stg7_0 : Memref sig .tc .vmem S1x512x1024 .bf16).view

set_option maxHeartbeats 4000000 in
/-- The stores the body ends with in each output's staging memref, with the proof that on whole staging
    memrefs — the inputs' at their contents, the outputs' at anything — the body runs to the continuation
    holding the inputs' as they were and each output's with those stores written. -/
noncomputable def bodyRun0 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x512x1024 .bf16) (harg7 : arg7.IsWhole) (arg8 : Memref sig .tc .vmem S1x512x1024 .bf16) (harg8 : arg8.IsWhole) (arg9 : Memref sig .tc .vmem S1x512x1024 .bf16) (harg9 : arg9.IsWhole)
    (x0 : Vec F S1x512x1024 .f32) (x1 : Vec F S1024 .f32) (x2 : Vec F S1024x1024 .bf16) (x3 : Vec F S1024x1024 .bf16) (x4 : Vec F S1024x1024 .bf16) :
    Σ' (L5 : List (View.Piece (Elt F) S1x512x1024 .bf16)) (L6 : List (View.Piece (Elt F) S1x512x1024 .bf16)), { L7 : List (View.Piece (Elt F) S1x512x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f L7)) -∗ K ⟨⟩))
          ⊢ wp frame (wpE (defs₀ (F := F)) Variants.none c none) E (cc0_ln_qkv_kernel i arg2 harg2 arg3 harg3 arg4 harg4 arg5 harg5 arg6 harg6 arg7 harg7 arg8 harg8 arg9 harg9) K } := by
  refine ⟨?_, ?_, ?_, fun E K => ?run⟩
  case run =>
    simp only [cc0_ln_qkv_kernel_eq_skeleton]; unfold cc0_ln_qkv_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf2
    obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact H7

end Region0

section Region0b

variable (V : (c : Dev nD) → (b : Ref sig .tc) → Buf (Elt F) ((c : Thread nD τ).loc b))

/-! ## What the body leaves in each output window's buffer -/

/-- The body's stores into output window 5 tile its block, so they cover it. -/
theorem cover0_5 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x512x1024 .bf16) (harg7 : arg7.IsWhole) (arg8 : Memref sig .tc .vmem S1x512x1024 .bf16) (harg8 : arg8.IsWhole) (arg9 : Memref sig .tc .vmem S1x512x1024 .bf16) (harg9 : arg9.IsWhole)
    (x0 : Vec F S1x512x1024 .f32) (x1 : Vec F S1024 .f32) (x2 : Vec F S1024x1024 .bf16) (x3 : Vec F S1024x1024 .bf16) (x4 : Vec F S1024x1024 .bf16) (y : S1x512x1024.Idx) :
    ∃ pc ∈ (bodyRun0 c i arg2 harg2 arg3 harg3 arg4 harg4 arg5 harg5 arg6 harg6 arg7 harg7 arg8 harg8 arg9 harg9 x0 x1 x2 x3 x4).1, y ∈ pc.1.set :=
  View.cover_of_tiledL (bodyRun0 c i arg2 harg2 arg3 harg3 arg4 harg4 arg5 harg5 arg6 harg6 arg7 harg7 arg8 harg8 arg9 harg9 x0 x1 x2 x3 x4).1 S1x512x1024.size (by sl_kernel_rfl) y

/-- What the body leaves in output window 5's staging buffer: its stores read back. -/
def out0_5 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x512x1024 .bf16) (harg7 : arg7.IsWhole) (arg8 : Memref sig .tc .vmem S1x512x1024 .bf16) (harg8 : arg8.IsWhole) (arg9 : Memref sig .tc .vmem S1x512x1024 .bf16) (harg9 : arg9.IsWhole)
    (x0 : Vec F S1x512x1024 .f32) (x1 : Vec F S1024 .f32) (x2 : Vec F S1024x1024 .bf16) (x3 : Vec F S1024x1024 .bf16) (x4 : Vec F S1024x1024 .bf16) : Vec F S1x512x1024 .bf16 :=
  VO0_5.read (Elt F) (VO0_5.writes (Elt F) VO0_5.junk (bodyRun0 c i arg2 harg2 arg3 harg3 arg4 harg4 arg5 harg5 arg6 harg6 arg7 harg7 arg8 harg8 arg9 harg9 x0 x1 x2 x3 x4).1)

/-- The body's stores into output window 6 tile its block, so they cover it. -/
theorem cover0_6 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x512x1024 .bf16) (harg7 : arg7.IsWhole) (arg8 : Memref sig .tc .vmem S1x512x1024 .bf16) (harg8 : arg8.IsWhole) (arg9 : Memref sig .tc .vmem S1x512x1024 .bf16) (harg9 : arg9.IsWhole)
    (x0 : Vec F S1x512x1024 .f32) (x1 : Vec F S1024 .f32) (x2 : Vec F S1024x1024 .bf16) (x3 : Vec F S1024x1024 .bf16) (x4 : Vec F S1024x1024 .bf16) (y : S1x512x1024.Idx) :
    ∃ pc ∈ (bodyRun0 c i arg2 harg2 arg3 harg3 arg4 harg4 arg5 harg5 arg6 harg6 arg7 harg7 arg8 harg8 arg9 harg9 x0 x1 x2 x3 x4).2.1, y ∈ pc.1.set :=
  View.cover_of_tiledL (bodyRun0 c i arg2 harg2 arg3 harg3 arg4 harg4 arg5 harg5 arg6 harg6 arg7 harg7 arg8 harg8 arg9 harg9 x0 x1 x2 x3 x4).2.1 S1x512x1024.size (by sl_kernel_rfl) y

/-- What the body leaves in output window 6's staging buffer: its stores read back. -/
def out0_6 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x512x1024 .bf16) (harg7 : arg7.IsWhole) (arg8 : Memref sig .tc .vmem S1x512x1024 .bf16) (harg8 : arg8.IsWhole) (arg9 : Memref sig .tc .vmem S1x512x1024 .bf16) (harg9 : arg9.IsWhole)
    (x0 : Vec F S1x512x1024 .f32) (x1 : Vec F S1024 .f32) (x2 : Vec F S1024x1024 .bf16) (x3 : Vec F S1024x1024 .bf16) (x4 : Vec F S1024x1024 .bf16) : Vec F S1x512x1024 .bf16 :=
  VO0_6.read (Elt F) (VO0_6.writes (Elt F) VO0_6.junk (bodyRun0 c i arg2 harg2 arg3 harg3 arg4 harg4 arg5 harg5 arg6 harg6 arg7 harg7 arg8 harg8 arg9 harg9 x0 x1 x2 x3 x4).2.1)

/-- The body's stores into output window 7 tile its block, so they cover it. -/
theorem cover0_7 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x512x1024 .bf16) (harg7 : arg7.IsWhole) (arg8 : Memref sig .tc .vmem S1x512x1024 .bf16) (harg8 : arg8.IsWhole) (arg9 : Memref sig .tc .vmem S1x512x1024 .bf16) (harg9 : arg9.IsWhole)
    (x0 : Vec F S1x512x1024 .f32) (x1 : Vec F S1024 .f32) (x2 : Vec F S1024x1024 .bf16) (x3 : Vec F S1024x1024 .bf16) (x4 : Vec F S1024x1024 .bf16) (y : S1x512x1024.Idx) :
    ∃ pc ∈ (bodyRun0 c i arg2 harg2 arg3 harg3 arg4 harg4 arg5 harg5 arg6 harg6 arg7 harg7 arg8 harg8 arg9 harg9 x0 x1 x2 x3 x4).2.2.1, y ∈ pc.1.set :=
  View.cover_of_tiledL (bodyRun0 c i arg2 harg2 arg3 harg3 arg4 harg4 arg5 harg5 arg6 harg6 arg7 harg7 arg8 harg8 arg9 harg9 x0 x1 x2 x3 x4).2.2.1 S1x512x1024.size (by sl_kernel_rfl) y

/-- What the body leaves in output window 7's staging buffer: its stores read back. -/
def out0_7 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x512x1024 .bf16) (harg7 : arg7.IsWhole) (arg8 : Memref sig .tc .vmem S1x512x1024 .bf16) (harg8 : arg8.IsWhole) (arg9 : Memref sig .tc .vmem S1x512x1024 .bf16) (harg9 : arg9.IsWhole)
    (x0 : Vec F S1x512x1024 .f32) (x1 : Vec F S1024 .f32) (x2 : Vec F S1024x1024 .bf16) (x3 : Vec F S1024x1024 .bf16) (x4 : Vec F S1024x1024 .bf16) : Vec F S1x512x1024 .bf16 :=
  VO0_7.read (Elt F) (VO0_7.writes (Elt F) VO0_7.junk (bodyRun0 c i arg2 harg2 arg3 harg3 arg4 harg4 arg5 harg5 arg6 harg6 arg7 harg7 arg8 harg8 arg9 harg9 x0 x1 x2 x3 x4).2.2.1)

/-! ## The pipeline's proof data -/

/-- Each window's current staging memref at point t, as the pipeline passes it, and its wholeness. -/
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x1024 .bf16 := win0_7.stage (cfg0.slots t 7)
abbrev hs0_7 (t : Fin cfg0.N) : (ms0_7 t).IsWhole := hstage0_7 ((cfg0.slots t 7).cast nbuf0_7)

/-- The proof data of the first pipeline on core c: the arrays as the region finds them; after the body at
    point t each input's buffer at its block and each output's at the body's stores over the input blocks;
    the invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => out0_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (blk0 V c 0 t) (blk0 V c 1 t) (blk0 V c 2 t) (blk0 V c 3 t) (blk0 V c 4 t)
    | ⟨6, _⟩ => out0_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (blk0 V c 0 t) (blk0 V c 1 t) (blk0 V c 2 t) (blk0 V c 3 t) (blk0 V c 4 t)
    | ⟨7, _⟩ => out0_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (blk0 V c 0 t) (blk0 V c 1 t) (blk0 V c 2 t) (blk0 V c 3 t) (blk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = out0_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (blk0 V c 0 t) (blk0 V c 1 t) (blk0 V c 2 t) (blk0 V c 3 t) (blk0 V c 4 t) := by dsimp only [dat0]
theorem after0_6 (c : Dev nD) (t : Fin cfg0.N) : (dat0 V c).after 6 t = out0_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (blk0 V c 0 t) (blk0 V c 1 t) (blk0 V c 2 t) (blk0 V c 3 t) (blk0 V c 4 t) := by dsimp only [dat0]
theorem after0_7 (c : Dev nD) (t : Fin cfg0.N) : (dat0 V c).after 7 t = out0_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (blk0 V c 0 t) (blk0 V c 1 t) (blk0 V c 2 t) (blk0 V c 3 t) (blk0 V c 4 t) := by dsimp only [dat0]

theorem before0_0 (c : Dev nD) (t : Fin cfg0.N) (d) : (dat0 V c).before 0 t d = blk0 V c 0 t :=
  found0_0 V (dat0 V c) (A_eq0 V c 0) (after0_0 V c) t d
theorem before0_1 (c : Dev nD) (t : Fin cfg0.N) (d) : (dat0 V c).before 1 t d = blk0 V c 1 t :=
  found0_1 V (dat0 V c) (A_eq0 V c 1) (after0_1 V c) t d
theorem before0_2 (c : Dev nD) (t : Fin cfg0.N) (d) : (dat0 V c).before 2 t d = blk0 V c 2 t :=
  found0_2 V (dat0 V c) (A_eq0 V c 2) (after0_2 V c) t d
theorem before0_3 (c : Dev nD) (t : Fin cfg0.N) (d) : (dat0 V c).before 3 t d = blk0 V c 3 t :=
  found0_3 V (dat0 V c) (A_eq0 V c 3) (after0_3 V c) t d
theorem before0_4 (c : Dev nD) (t : Fin cfg0.N) (d) : (dat0 V c).before 4 t d = blk0 V c 4 t :=
  found0_4 V (dat0 V c) (A_eq0 V c 4) (after0_4 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 4000000 in
/-- The body at any point: the inputs' memrefs hold their blocks, so the run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  unfold out0_5 out0_6 out0_7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((bodyRun0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (blk0 V c 0 t) (blk0 V c 1 t) (blk0 V c 2 t) (blk0 V c 3 t) (blk0 V c 4 t)).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, ⟨%e5, H5⟩, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_5 c _ _ _ _ _ _ _ _ _ _ _ _ _ _ _ _ _ _ _ _ _ _)
  isplitl [H6]
  · unfold owns; iexists _; isplitr
    swap; · iexact H6
    ipureintro; exact View.read_writes_of_cover _ _ _ _ _ (cover0_6 c _ _ _ _ _ _ _ _ _ _ _ _ _ _ _ _ _ _ _ _ _ _)
  unfold owns; iexists _; isplitr
  swap; · iexact H7
  ipureintro; exact View.read_writes_of_cover _ _ _ _ _ (cover0_7 c _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0b

end Cert.KernelIdeal.Hand

end
-- ==== Proof.IdealRegion1Defs.lean ====
/-
  The second pallas_call (blocked attention with the output projection), as the pipeline library sees
  it: what the three ways through its body share.

  The grid is (batch, query tile, key tile), the key tile innermost.  A point reads a query tile of
  1024 rows, a key tile and a value tile of 512 rows each and the whole transposed output weight.  Three
  scratch buffers — the running maximum, the running normalizer and the running numerator of every
  query row — are reset at key tile 0, updated at every key tile, and at key tile 3 divided and
  projected into the output tile, which is written back there and idle at the other points.  So a
  point is in one of three cases by its key tile: 0, 1 or 2, 3.  Here: the two branch conditions in
  closed form over the grid, where the output window is idle, the memrefs at a point, and the scoped
  buffers listed.
-/
import proofs.«143834_j38010460570082_2_alg».proof.Proof.Gen.KernelIdeal.Launch
import proofs.«143834_j38010460570082_2_alg».proof.Proof.Gen.KernelIdeal.Skeleton
import proofs.«143834_j38010460570082_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The windows' blocks -/

/-- Window w's block at point t, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not. -/

theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

theorem found1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

theorem found1_3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

end Region1

/-! ## The body's branch conditions -/

/-- The reset's condition: the key tile is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The finish's condition: the key tile is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from key tile 3 the output window is idle and not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At key tile 3 it is live. -/
theorem liveAt1_4 : ∀ t : Fin cfg1.N, cond1_1 (grid1.coords t) → cfg1.idle 4 (grid1.coords t) = false := by decide +kernel

/-! ## The memrefs at a point -/

abbrev VO1_4 : View sig .tc .vmem S1x1024x1024 .f32 := (Memref.whole cc1_stg4_0 : Memref sig .tc .vmem S1x1024x1024 .f32).view
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x1024 .f32 := win1_4.stage (cfg1.slots t 4)
abbrev hs1_4 (t : Fin cfg1.N) : (ms1_4 t).IsWhole := hstage1_4 ((cfg1.slots t 4).cast nbuf1_4)
/-- The scratch operands: whole scoped buffers of the kernel's own. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

/-- The region's rest with the scratch operands as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.Hand

end
-- ==== Proof.IdealRegion1RunA.lean ====
/-
  The second pallas_call's body run whole at key tile 0: the reset is taken, the finish is not.
-/
import proofs.«143834_j38010460570082_2_alg».proof.Proof.IdealRegion1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 8000000 in
/-- The stores the body ends with in the scratch buffers at key tile 0: the reset is taken, the finish is not, with the proof that on whole
    memrefs — the inputs' at their contents, the output's handed back untouched, the scratch at anything —
    the body runs to the continuation holding the inputs' as they were and the written buffers with those stores. -/
noncomputable def bodyRun1_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1024x1024 .bf16) :
    Σ' (LS0 : List (View.Piece (Elt F) S1024x1 .f32)) (LS1 : List (View.Piece (Elt F) S1024x1 .f32)), { LS2 : List (View.Piece (Elt F) S1024x1024 .f32) //
      ∀ (xi4 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1_attn_out_kernel i arg3 harg3 arg4 harg4 arg5 harg5 arg6 harg6 arg7 harg7 arg8 harg8 arg9 harg9 arg10 harg10) K } := by
  refine ⟨?_, ?_, ?_, fun xi4 E K => ?run⟩
  case run =>
    simp only [cc1_attn_out_kernel_eq_skeleton]; unfold cc1_attn_out_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.KernelIdeal.Hand

end
-- ==== Proof.IdealRegion1RunB.lean ====
/-
  The second pallas_call's body run whole at key tiles 1 and 2: neither the reset nor the finish is taken.
-/
import proofs.«143834_j38010460570082_2_alg».proof.Proof.IdealRegion1RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 8000000 in
/-- The stores the body ends with in the scratch buffers at key tiles 1 and 2: neither the reset nor the finish is taken, with the proof that on whole
    memrefs — the inputs' at their contents, the output's handed back untouched, the scratch at what the point before left —
    the body runs to the continuation holding the inputs' as they were and the written buffers with those stores. -/
noncomputable def bodyRun1_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) :
    Σ' (LS0 : List (View.Piece (Elt F) S1024x1 .f32)) (LS1 : List (View.Piece (Elt F) S1024x1 .f32)), { LS2 : List (View.Piece (Elt F) S1024x1024 .f32) //
      ∀ (xi4 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1_attn_out_kernel i arg3 harg3 arg4 harg4 arg5 harg5 arg6 harg6 arg7 harg7 arg8 harg8 arg9 harg9 arg10 harg10) K } := by
  refine ⟨?_, ?_, ?_, fun xi4 E K => ?run⟩
  case run =>
    simp only [cc1_attn_out_kernel_eq_skeleton]; unfold cc1_attn_out_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.KernelIdeal.Hand

end
-- ==== Proof.IdealRegion1RunC.lean ====
/-
  The second pallas_call's body run whole at key tile 3: the reset is not taken, the finish is.
-/
import proofs.«143834_j38010460570082_2_alg».proof.Proof.IdealRegion1RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 8000000 in
/-- The stores the body ends with in the scratch buffers and the output tile at key tile 3: the reset is not taken, the finish is, with the proof that on whole
    memrefs — the inputs' at their contents, the output's at anything, the scratch at what the point before left —
    the body runs to the continuation holding the inputs' as they were and the written buffers with those stores. -/
noncomputable def bodyRun1_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) :
    Σ' (L4 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1_attn_out_kernel i arg3 harg3 arg4 harg4 arg5 harg5 arg6 harg6 arg7 harg7 arg8 harg8 arg9 harg9 arg10 harg10) K } := by
  refine ⟨?_, ?_, ?_, ?_, fun E K => ?run⟩
  case run =>
    simp only [cc1_attn_out_kernel_eq_skeleton]; unfold cc1_attn_out_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    iexists _; iexact HS2

end Cert.KernelIdeal.Hand

end
-- ==== Proof.IdealRegion1.lean ====
/-
  The second pallas_call: what its scratch buffers hold after every grid point, the pipeline library's
  proof data, and the body obligation.

  After a point at key tile 0 the scratch buffers hold what the reset-and-update run leaves; after a point
  at key tile 1, 2 or 3 what the update run leaves over the contents the point before left.  The output
  tile after a point at key tile 3 is what the finishing run stores, over the same previous contents.
  The region's invariant before a point is the scoped rest with the three scratch buffers at those
  contents (before the first point: at anything).
-/
import proofs.«143834_j38010460570082_2_alg».proof.Proof.IdealRegion1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! ## What each case leaves: its stores cover the buffers they go to, and are read back -/

theorem scover1_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1024x1024 .bf16) (y : S1024x1.Idx) :
    ∃ pc ∈ (bodyRun1_A c i arg3 harg3 arg4 harg4 arg5 harg5 arg6 harg6 arg7 harg7 arg8 harg8 arg9 harg9 arg10 harg10 hc0 hc1 x0 x1 x2 x3).1, y ∈ pc.1.set :=
  View.cover_of_tiledL (bodyRun1_A c i arg3 harg3 arg4 harg4 arg5 harg5 arg6 harg6 arg7 harg7 arg8 harg8 arg9 harg9 arg10 harg10 hc0 hc1 x0 x1 x2 x3).1 S1024x1.size (by sl_kernel_rfl) y

def sout1_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1024x1024 .bf16) : Vec F S1024x1 .f32 :=
  VS1_0.read (Elt F) (VS1_0.writes (Elt F) VS1_0.junk (bodyRun1_A c i arg3 harg3 arg4 harg4 arg5 harg5 arg6 harg6 arg7 harg7 arg8 harg8 arg9 harg9 arg10 harg10 hc0 hc1 x0 x1 x2 x3).1)

theorem scover1_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1024x1024 .bf16) (y : S1024x1.Idx) :
    ∃ pc ∈ (bodyRun1_A c i arg3 harg3 arg4 harg4 arg5 harg5 arg6 harg6 arg7 harg7 arg8 harg8 arg9 harg9 arg10 harg10 hc0 hc1 x0 x1 x2 x3).2.1, y ∈ pc.1.set :=
  View.cover_of_tiledL (bodyRun1_A c i arg3 harg3 arg4 harg4 arg5 harg5 arg6 harg6 arg7 harg7 arg8 harg8 arg9 harg9 arg10 harg10 hc0 hc1 x0 x1 x2 x3).2.1 S1024x1.size (by sl_kernel_rfl) y

def sout1_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1024x1024 .bf16) : Vec F S1024x1 .f32 :=
  VS1_1.read (Elt F) (VS1_1.writes (Elt F) VS1_1.junk (bodyRun1_A c i arg3 harg3 arg4 harg4 arg5 harg5 arg6 harg6 arg7 harg7 arg8 harg8 arg9 harg9 arg10 harg10 hc0 hc1 x0 x1 x2 x3).2.1)

theorem scover1_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1024x1024 .bf16) (y : S1024x1024.Idx) :
    ∃ pc ∈ (bodyRun1_A c i arg3 harg3 arg4 harg4 arg5 harg5 arg6 harg6 arg7 harg7 arg8 harg8 arg9 harg9 arg10 harg10 hc0 hc1 x0 x1 x2 x3).2.2.1, y ∈ pc.1.set :=
  View.cover_of_tiledL (bodyRun1_A c i arg3 harg3 arg4 harg4 arg5 harg5 arg6 harg6 arg7 harg7 arg8 harg8 arg9 harg9 arg10 harg10 hc0 hc1 x0 x1 x2 x3).2.2.1 S1024x1024.size (by sl_kernel_rfl) y

def sout1_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1024x1024 .bf16) : Vec F S1024x1024 .f32 :=
  VS1_2.read (Elt F) (VS1_2.writes (Elt F) VS1_2.junk (bodyRun1_A c i arg3 harg3 arg4 harg4 arg5 harg5 arg6 harg6 arg7 harg7 arg8 harg8 arg9 harg9 arg10 harg10 hc0 hc1 x0 x1 x2 x3).2.2.1)

theorem scover1_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) (y : S1024x1.Idx) :
    ∃ pc ∈ (bodyRun1_B c i arg3 harg3 arg4 harg4 arg5 harg5 arg6 harg6 arg7 harg7 arg8 harg8 arg9 harg9 arg10 harg10 hc0 hc1 x0 x1 x2 x3 xs0 xs1 xs2).1, y ∈ pc.1.set :=
  View.cover_of_tiledL (bodyRun1_B c i arg3 harg3 arg4 harg4 arg5 harg5 arg6 harg6 arg7 harg7 arg8 harg8 arg9 harg9 arg10 harg10 hc0 hc1 x0 x1 x2 x3 xs0 xs1 xs2).1 S1024x1.size (by sl_kernel_rfl) y

def sout1_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (bodyRun1_B c i arg3 harg3 arg4 harg4 arg5 harg5 arg6 harg6 arg7 harg7 arg8 harg8 arg9 harg9 arg10 harg10 hc0 hc1 x0 x1 x2 x3 xs0 xs1 xs2).1)

theorem scover1_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) (y : S1024x1.Idx) :
    ∃ pc ∈ (bodyRun1_B c i arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (bodyRun1_B c i arg3 harg3 arg4 harg4 arg5 harg5 arg6 harg6 arg7 harg7 arg8 harg8 arg9 harg9 arg10 harg10 hc0 hc1 x0 x1 x2 x3 xs0 xs1 xs2).2.1 S1024x1.size (by sl_kernel_rfl) y

def sout1_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (bodyRun1_B c i arg3 harg3 arg4 harg4 arg5 harg5 arg6 harg6 arg7 harg7 arg8 harg8 arg9 harg9 arg10 harg10 hc0 hc1 x0 x1 x2 x3 xs0 xs1 xs2).2.1)

theorem scover1_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) (y : S1024x1024.Idx) :
    ∃ pc ∈ (bodyRun1_B c i arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (bodyRun1_B c i arg3 harg3 arg4 harg4 arg5 harg5 arg6 harg6 arg7 harg7 arg8 harg8 arg9 harg9 arg10 harg10 hc0 hc1 x0 x1 x2 x3 xs0 xs1 xs2).2.2.1 S1024x1024.size (by sl_kernel_rfl) y

def sout1_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (bodyRun1_B c i arg3 harg3 arg4 harg4 arg5 harg5 arg6 harg6 arg7 harg7 arg8 harg8 arg9 harg9 arg10 harg10 hc0 hc1 x0 x1 x2 x3 xs0 xs1 xs2).2.2.1)

theorem scover1_C_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) (y : S1024x1.Idx) :
    ∃ pc ∈ (bodyRun1_C c i arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (bodyRun1_C c i arg3 harg3 arg4 harg4 arg5 harg5 arg6 harg6 arg7 harg7 arg8 harg8 arg9 harg9 arg10 harg10 hc0 hc1 x0 x1 x2 x3 xs0 xs1 xs2).2.1 S1024x1.size (by sl_kernel_rfl) y

def sout1_C_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (bodyRun1_C c i arg3 harg3 arg4 harg4 arg5 harg5 arg6 harg6 arg7 harg7 arg8 harg8 arg9 harg9 arg10 harg10 hc0 hc1 x0 x1 x2 x3 xs0 xs1 xs2).2.1)

theorem scover1_C_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) (y : S1024x1.Idx) :
    ∃ pc ∈ (bodyRun1_C c i arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (bodyRun1_C c i arg3 harg3 arg4 harg4 arg5 harg5 arg6 harg6 arg7 harg7 arg8 harg8 arg9 harg9 arg10 harg10 hc0 hc1 x0 x1 x2 x3 xs0 xs1 xs2).2.2.1 S1024x1.size (by sl_kernel_rfl) y

def sout1_C_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (bodyRun1_C c i arg3 harg3 arg4 harg4 arg5 harg5 arg6 harg6 arg7 harg7 arg8 harg8 arg9 harg9 arg10 harg10 hc0 hc1 x0 x1 x2 x3 xs0 xs1 xs2).2.2.1)

theorem scover1_C_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) (y : S1024x1024.Idx) :
    ∃ pc ∈ (bodyRun1_C c i arg3 harg3 arg4 harg4 arg5 harg5 arg6 harg6 arg7 harg7 arg8 harg8 arg9 harg9 arg10 harg10 hc0 hc1 x0 x1 x2 x3 xs0 xs1 xs2).2.2.2.1, y ∈ pc.1.set :=
  View.cover_of_tiledL (bodyRun1_C c i arg3 harg3 arg4 harg4 arg5 harg5 arg6 harg6 arg7 harg7 arg8 harg8 arg9 harg9 arg10 harg10 hc0 hc1 x0 x1 x2 x3 xs0 xs1 xs2).2.2.2.1 S1024x1024.size (by sl_kernel_rfl) y

def sout1_C_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (bodyRun1_C c i arg3 harg3 arg4 harg4 arg5 harg5 arg6 harg6 arg7 harg7 arg8 harg8 arg9 harg9 arg10 harg10 hc0 hc1 x0 x1 x2 x3 xs0 xs1 xs2).2.2.2.1)

theorem cover1_C_4 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) (y : S1x1024x1024.Idx) :
    ∃ pc ∈ (bodyRun1_C c i arg3 harg3 arg4 harg4 arg5 harg5 arg6 harg6 arg7 harg7 arg8 harg8 arg9 harg9 arg10 harg10 hc0 hc1 x0 x1 x2 x3 xs0 xs1 xs2).1, y ∈ pc.1.set :=
  View.cover_of_tiledL (bodyRun1_C c i arg3 harg3 arg4 harg4 arg5 harg5 arg6 harg6 arg7 harg7 arg8 harg8 arg9 harg9 arg10 harg10 hc0 hc1 x0 x1 x2 x3 xs0 xs1 xs2).1 S1x1024x1024.size (by sl_kernel_rfl) y

def out1_C_4 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) : Vec F S1x1024x1024 .f32 :=
  VO1_4.read (Elt F) (VO1_4.writes (Elt F) VO1_4.junk (bodyRun1_C c i arg3 harg3 arg4 harg4 arg5 harg5 arg6 harg6 arg7 harg7 arg8 harg8 arg9 harg9 arg10 harg10 hc0 hc1 x0 x1 x2 x3 xs0 xs1 xs2).1)

section Region1b

variable (V : (c : Dev nD) → (b : Ref sig .tc) → Buf (Elt F) ((c : Thread nD τ).loc b))

/-! ## The scratch buffers after each point -/

/-- What the three scratch buffers hold after the body at position n: at key tile 0 the first case's stores,
    else the later cases' over what position n - 1 left. -/
def stAt1 (c : Dev nD) : (n : ℕ) → n < cfg1.N → Vec F S1024x1 .f32 × Vec F S1024x1 .f32 × Vec F S1024x1024 .f32
  | 0, hn => (sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (blk1 V c 0 ⟨0, hn⟩) (blk1 V c 1 ⟨0, hn⟩) (blk1 V c 2 ⟨0, hn⟩) (blk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (blk1 V c 0 ⟨0, hn⟩) (blk1 V c 1 ⟨0, hn⟩) (blk1 V c 2 ⟨0, hn⟩) (blk1 V c 3 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (blk1 V c 0 ⟨0, hn⟩) (blk1 V c 1 ⟨0, hn⟩) (blk1 V c 2 ⟨0, hn⟩) (blk1 V c 3 ⟨0, hn⟩))
  | n + 1, hn =>
    if h0 : (n + 1) % 4 = 0 then
      if h1 : (n + 1) % 4 = 3 then
        False.elim (by omega)
      else
        (sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (blk1 V c 0 ⟨n + 1, hn⟩) (blk1 V c 1 ⟨n + 1, hn⟩) (blk1 V c 2 ⟨n + 1, hn⟩) (blk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (blk1 V c 0 ⟨n + 1, hn⟩) (blk1 V c 1 ⟨n + 1, hn⟩) (blk1 V c 2 ⟨n + 1, hn⟩) (blk1 V c 3 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (blk1 V c 0 ⟨n + 1, hn⟩) (blk1 V c 1 ⟨n + 1, hn⟩) (blk1 V c 2 ⟨n + 1, hn⟩) (blk1 V c 3 ⟨n + 1, hn⟩))
    else
      if h1 : (n + 1) % 4 = 3 then
        (sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (blk1 V c 0 ⟨n + 1, hn⟩) (blk1 V c 1 ⟨n + 1, hn⟩) (blk1 V c 2 ⟨n + 1, hn⟩) (blk1 V c 3 ⟨n + 1, hn⟩) (stAt1 c n (Nat.lt_of_succ_lt hn)).1 (stAt1 c n (Nat.lt_of_succ_lt hn)).2.1 (stAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (blk1 V c 0 ⟨n + 1, hn⟩) (blk1 V c 1 ⟨n + 1, hn⟩) (blk1 V c 2 ⟨n + 1, hn⟩) (blk1 V c 3 ⟨n + 1, hn⟩) (stAt1 c n (Nat.lt_of_succ_lt hn)).1 (stAt1 c n (Nat.lt_of_succ_lt hn)).2.1 (stAt1 c n (Nat.lt_of_succ_lt hn)).2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (blk1 V c 0 ⟨n + 1, hn⟩) (blk1 V c 1 ⟨n + 1, hn⟩) (blk1 V c 2 ⟨n + 1, hn⟩) (blk1 V c 3 ⟨n + 1, hn⟩) (stAt1 c n (Nat.lt_of_succ_lt hn)).1 (stAt1 c n (Nat.lt_of_succ_lt hn)).2.1 (stAt1 c n (Nat.lt_of_succ_lt hn)).2.2)
      else
        (sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (blk1 V c 0 ⟨n + 1, hn⟩) (blk1 V c 1 ⟨n + 1, hn⟩) (blk1 V c 2 ⟨n + 1, hn⟩) (blk1 V c 3 ⟨n + 1, hn⟩) (stAt1 c n (Nat.lt_of_succ_lt hn)).1 (stAt1 c n (Nat.lt_of_succ_lt hn)).2.1 (stAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (blk1 V c 0 ⟨n + 1, hn⟩) (blk1 V c 1 ⟨n + 1, hn⟩) (blk1 V c 2 ⟨n + 1, hn⟩) (blk1 V c 3 ⟨n + 1, hn⟩) (stAt1 c n (Nat.lt_of_succ_lt hn)).1 (stAt1 c n (Nat.lt_of_succ_lt hn)).2.1 (stAt1 c n (Nat.lt_of_succ_lt hn)).2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (blk1 V c 0 ⟨n + 1, hn⟩) (blk1 V c 1 ⟨n + 1, hn⟩) (blk1 V c 2 ⟨n + 1, hn⟩) (blk1 V c 3 ⟨n + 1, hn⟩) (stAt1 c n (Nat.lt_of_succ_lt hn)).1 (stAt1 c n (Nat.lt_of_succ_lt hn)).2.1 (stAt1 c n (Nat.lt_of_succ_lt hn)).2.2)

theorem stAt1_A (c : Dev nD) (t : Fin cfg1.N) (h0 : t.val % 4 = 0) (h1 : ¬t.val % 4 = 3) :
    stAt1 V c t.val t.isLt = (sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (blk1 V c 0 t) (blk1 V c 1 t) (blk1 V c 2 t) (blk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (blk1 V c 0 t) (blk1 V c 1 t) (blk1 V c 2 t) (blk1 V c 3 t), sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (blk1 V c 0 t) (blk1 V c 1 t) (blk1 V c 2 t) (blk1 V c 3 t)) := by
  obtain ⟨n, hn⟩ := t
  cases n with
  | zero => exact rfl
  | succ n => exact (dif_pos h0).trans ((dif_neg h1).trans rfl)

theorem stAt1_B (c : Dev nD) (t : Fin cfg1.N) (h0 : ¬t.val % 4 = 0) (h1 : ¬t.val % 4 = 3) :
    stAt1 V c t.val t.isLt = (sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (blk1 V c 0 t) (blk1 V c 1 t) (blk1 V c 2 t) (blk1 V c 3 t) (stAt1 V c (t.val - 1) (Nat.lt_of_le_of_lt (Nat.sub_le _ _) t.isLt)).1 (stAt1 V c (t.val - 1) (Nat.lt_of_le_of_lt (Nat.sub_le _ _) t.isLt)).2.1 (stAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (blk1 V c 0 t) (blk1 V c 1 t) (blk1 V c 2 t) (blk1 V c 3 t) (stAt1 V c (t.val - 1) (Nat.lt_of_le_of_lt (Nat.sub_le _ _) t.isLt)).1 (stAt1 V c (t.val - 1) (Nat.lt_of_le_of_lt (Nat.sub_le _ _) t.isLt)).2.1 (stAt1 V c (t.val - 1) (Nat.lt_of_le_of_lt (Nat.sub_le _ _) t.isLt)).2.2, sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (blk1 V c 0 t) (blk1 V c 1 t) (blk1 V c 2 t) (blk1 V c 3 t) (stAt1 V c (t.val - 1) (Nat.lt_of_le_of_lt (Nat.sub_le _ _) t.isLt)).1 (stAt1 V c (t.val - 1) (Nat.lt_of_le_of_lt (Nat.sub_le _ _) t.isLt)).2.1 (stAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem stAt1_C (c : Dev nD) (t : Fin cfg1.N) (h0 : ¬t.val % 4 = 0) (h1 : t.val % 4 = 3) :
    stAt1 V c t.val t.isLt = (sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (blk1 V c 0 t) (blk1 V c 1 t) (blk1 V c 2 t) (blk1 V c 3 t) (stAt1 V c (t.val - 1) (Nat.lt_of_le_of_lt (Nat.sub_le _ _) t.isLt)).1 (stAt1 V c (t.val - 1) (Nat.lt_of_le_of_lt (Nat.sub_le _ _) t.isLt)).2.1 (stAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (blk1 V c 0 t) (blk1 V c 1 t) (blk1 V c 2 t) (blk1 V c 3 t) (stAt1 V c (t.val - 1) (Nat.lt_of_le_of_lt (Nat.sub_le _ _) t.isLt)).1 (stAt1 V c (t.val - 1) (Nat.lt_of_le_of_lt (Nat.sub_le _ _) t.isLt)).2.1 (stAt1 V c (t.val - 1) (Nat.lt_of_le_of_lt (Nat.sub_le _ _) t.isLt)).2.2, sout1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (blk1 V c 0 t) (blk1 V c 1 t) (blk1 V c 2 t) (blk1 V c 3 t) (stAt1 V c (t.val - 1) (Nat.lt_of_le_of_lt (Nat.sub_le _ _) t.isLt)).1 (stAt1 V c (t.val - 1) (Nat.lt_of_le_of_lt (Nat.sub_le _ _) t.isLt)).2.1 (stAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- What the output tile's staging buffer holds after the body at point t: at key tile 3 the finishing run's
    stores over what the point before left in the scratch buffers; elsewhere nothing is stored and the
    value is never consulted. -/
def after4 (c : Dev nD) (t : Fin cfg1.N) : Vec F S1x1024x1024 .f32 :=
  if h1 : t.val % 4 = 3 then
    out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => by have h' := (hcond1_0 t).mp h; omega) ((hcond1_1 t).mpr h1) (blk1 V c 0 t) (blk1 V c 1 t) (blk1 V c 2 t) (blk1 V c 3 t) (stAt1 V c (t.val - 1) (Nat.lt_of_le_of_lt (Nat.sub_le _ _) t.isLt)).1 (stAt1 V c (t.val - 1) (Nat.lt_of_le_of_lt (Nat.sub_le _ _) t.isLt)).2.1 (stAt1 V c (t.val - 1) (Nat.lt_of_le_of_lt (Nat.sub_le _ _) t.isLt)).2.2
  else VO1_4.read (Elt F) VO1_4.junk

theorem after4_C (c : Dev nD) (t : Fin cfg1.N) (h0 : ¬t.val % 4 = 0) (h1 : t.val % 4 = 3) :
    after4 V c t = out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (blk1 V c 0 t) (blk1 V c 1 t) (blk1 V c 2 t) (blk1 V c 3 t) (stAt1 V c (t.val - 1) (Nat.lt_of_le_of_lt (Nat.sub_le _ _) t.isLt)).1 (stAt1 V c (t.val - 1) (Nat.lt_of_le_of_lt (Nat.sub_le _ _) t.isLt)).2.1 (stAt1 V c (t.val - 1) (Nat.lt_of_le_of_lt (Nat.sub_le _ _) t.isLt)).2.2 :=
  dif_pos h1

/-! ## The invariant -/

/-- Before position n: before the first point the scoped rest at anything; afterwards the scoped rest with the
    three scratch buffers at what the point before left. -/
def Phi1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ owns (c : Thread nD τ) scM1_0 fullShare (stAt1 V c n hn).1 ∗ owns (c : Thread nD τ) scM1_1 fullShare (stAt1 V c n hn).2.1 ∗ owns (c : Thread nD τ) scM1_2 fullShare (stAt1 V c n hn).2.2) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ owns (c : Thread nD τ) scM1_0 fullShare (stAt1 V c n hn).1 ∗ owns (c : Thread nD τ) scM1_1 fullShare (stAt1 V c n hn).2.1 ∗ owns (c : Thread nD τ) scM1_2 fullShare (stAt1 V c n hn).2.2) ∗ (∃ r, prngReg c r)) := rfl

theorem Phi1_pos (c : Dev nD) (n : ℕ) (h : n ≤ cfg1.N) (hz : n ≠ 0) :
    Phi1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ owns (c : Thread nD τ) scM1_0 fullShare (stAt1 V c (n - 1) (by omega)).1 ∗ owns (c : Thread nD τ) scM1_1 fullShare (stAt1 V c (n - 1) (by omega)).2.1 ∗ owns (c : Thread nD τ) scM1_2 fullShare (stAt1 V c (n - 1) (by omega)).2.2) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => after4 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = after4 V c t := by dsimp only [dat1]

theorem before1_0 (c : Dev nD) (t : Fin cfg1.N) (d) : (dat1 V c).before 0 t d = blk1 V c 0 t :=
  found1_0 V (dat1 V c) (A_eq1 V c 0) (after1_0 V c) t d
theorem before1_1 (c : Dev nD) (t : Fin cfg1.N) (d) : (dat1 V c).before 1 t d = blk1 V c 1 t :=
  found1_1 V (dat1 V c) (A_eq1 V c 1) (after1_1 V c) t d
theorem before1_2 (c : Dev nD) (t : Fin cfg1.N) (d) : (dat1 V c).before 2 t d = blk1 V c 2 t :=
  found1_2 V (dat1 V c) (A_eq1 V c 2) (after1_2 V c) t d
theorem before1_3 (c : Dev nD) (t : Fin cfg1.N) (d) : (dat1 V c).before 3 t d = blk1 V c 3 t :=
  found1_3 V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the inputs' memrefs hold their blocks; the closed forms say which case the point is
    in; the invariant hands the body the scratch buffers at what the point before left (at anything at the
    first point) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) t.isLt from rfl, Phi1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 4 = 0
  · have h1 : ¬t.val % 4 = 3 := by omega
    rw [Dat.leavesExact_idle (dat1 V c) 4 t (idleAt1_4 t (fun h => h1 ((hcond1_1 t).mp h))) (noFlush1_4 t (fun h => h1 ((hcond1_1 t).mp h)))]
    rw [stAt1_A V c t h0 h1]
    unfold sout1_A_0 sout1_A_1 sout1_A_2; (try dsimp only)
    by_cases hz : t.val = 0
    · skip
      rw [Phi1_castSucc V c t, Phi1_zero V c _ _ hz, PhiA1_eq]
      iintro ⟨⟨⟨HA0, HA1, HA2, HA3, HA4, HA5, HA6, HA7, HA8, HA9, HA10, HA11, HS0, HS1, HS2⟩, Hg⟩, Ho, ⟨%d0, H0⟩, ⟨%d1, H1⟩, ⟨%d2, H2⟩, ⟨%d3, H3⟩, ⟨%d4, H4⟩⟩
      iapply ((bodyRun1_A c (grid1.coords t) _ _ _ _ _ _ _ _ _ _ _ _ _ _ _ _ ((hcond1_0 t).mpr h0) (fun h => h1 ((hcond1_1 t).mp h)) (blk1 V c 0 t) (blk1 V c 1 t) (blk1 V c 2 t) (blk1 V c 3 t)).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HA0 HA1 HA2 HA3 HA4 HA5 HA6 HA7 HA8 HA9 HA10 HA11 HS0 HS1 HS2 Hg]
      · isplitl [HA0 HA1 HA2 HA3 HA4 HA5 HA6 HA7 HA8 HA9 HA10 HA11 HS0 HS1 HS2]
        · isplitl [HA0]; · iexact HA0
          isplitl [HA1]; · iexact HA1
          isplitl [HA2]; · iexact HA2
          isplitl [HA3]; · iexact HA3
          isplitl [HA4]; · iexact HA4
          isplitl [HA5]; · iexact HA5
          isplitl [HA6]; · iexact HA6
          isplitl [HA7]; · iexact HA7
          isplitl [HA8]; · iexact HA8
          isplitl [HA9]; · iexact HA9
          isplitl [HA10]; · iexact HA10
          isplitl [HA11]; · iexact HA11
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · skip
      rw [Phi1_castSucc V c t, Phi1_pos V c _ _ hz]
      iintro ⟨⟨⟨HA0, HA1, HA2, HA3, HA4, HA5, HA6, HA7, HA8, HA9, HA10, HA11, HS0, HS1, HS2⟩, Hg⟩, Ho, ⟨%d0, H0⟩, ⟨%d1, H1⟩, ⟨%d2, H2⟩, ⟨%d3, H3⟩, ⟨%d4, H4⟩⟩
      iapply ((bodyRun1_A c (grid1.coords t) _ _ _ _ _ _ _ _ _ _ _ _ _ _ _ _ ((hcond1_0 t).mpr h0) (fun h => h1 ((hcond1_1 t).mp h)) (blk1 V c 0 t) (blk1 V c 1 t) (blk1 V c 2 t) (blk1 V c 3 t)).2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%es0, HS0⟩, ⟨%es1, HS1⟩, ⟨%es2, HS2⟩⟩
      isplitl [HA0 HA1 HA2 HA3 HA4 HA5 HA6 HA7 HA8 HA9 HA10 HA11 HS0 HS1 HS2 Hg]
      · isplitl [HA0 HA1 HA2 HA3 HA4 HA5 HA6 HA7 HA8 HA9 HA10 HA11 HS0 HS1 HS2]
        · isplitl [HA0]; · iexact HA0
          isplitl [HA1]; · iexact HA1
          isplitl [HA2]; · iexact HA2
          isplitl [HA3]; · iexact HA3
          isplitl [HA4]; · iexact HA4
          isplitl [HA5]; · iexact HA5
          isplitl [HA6]; · iexact HA6
          isplitl [HA7]; · iexact HA7
          isplitl [HA8]; · iexact HA8
          isplitl [HA9]; · iexact HA9
          isplitl [HA10]; · iexact HA10
          isplitl [HA11]; · iexact HA11
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 4 = 3
    · rw [show (dat1 V c).leavesExact 4 t = owns (c : Thread nD τ) (ms1_4 t) fullShare ((dat1 V c).after 4 t) from by
        unfold Dat.leavesExact; rw [liveAt1_4 t ((hcond1_1 t).mpr h1)], after1_4, after4_C V c t h0 h1]
      rw [stAt1_C V c t h0 h1]
      unfold out1_C_4 sout1_C_0 sout1_C_1 sout1_C_2; (try dsimp only)
      rw [Phi1_castSucc V c t, Phi1_pos V c _ _ hz]
      iintro ⟨⟨⟨HA0, HA1, HA2, HA3, HA4, HA5, HA6, HA7, HA8, HA9, HA10, HA11, HS0, HS1, HS2⟩, Hg⟩, Ho, ⟨%d0, H0⟩, ⟨%d1, H1⟩, ⟨%d2, H2⟩, ⟨%d3, H3⟩, ⟨%d4, H4⟩⟩
      iapply ((bodyRun1_C c (grid1.coords t) _ _ _ _ _ _ _ _ _ _ _ _ _ _ _ _ (fun h => h0 ((hcond1_0 t).mp h)) ((hcond1_1 t).mpr h1) (blk1 V c 0 t) (blk1 V c 1 t) (blk1 V c 2 t) (blk1 V c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HA0 HA1 HA2 HA3 HA4 HA5 HA6 HA7 HA8 HA9 HA10 HA11 HS0 HS1 HS2 Hg]
      · isplitl [HA0 HA1 HA2 HA3 HA4 HA5 HA6 HA7 HA8 HA9 HA10 HA11 HS0 HS1 HS2]
        · isplitl [HA0]; · iexact HA0
          isplitl [HA1]; · iexact HA1
          isplitl [HA2]; · iexact HA2
          isplitl [HA3]; · iexact HA3
          isplitl [HA4]; · iexact HA4
          isplitl [HA5]; · iexact HA5
          isplitl [HA6]; · iexact HA6
          isplitl [HA7]; · iexact HA7
          isplitl [HA8]; · iexact HA8
          isplitl [HA9]; · iexact HA9
          isplitl [HA10]; · iexact HA10
          isplitl [HA11]; · iexact HA11
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _)
          unfold owns; iexists _; isplitr
          swap; · iexact HS2
          ipureintro; exact View.read_writes_of_cover _ _ _ _ _ (scover1_C_2 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [stAt1_B V c t h0 h1]
      unfold sout1_B_0 sout1_B_1 sout1_B_2; (try dsimp only)
      rw [Phi1_castSucc V c t, Phi1_pos V c _ _ hz]
      iintro ⟨⟨⟨HA0, HA1, HA2, HA3, HA4, HA5, HA6, HA7, HA8, HA9, HA10, HA11, HS0, HS1, HS2⟩, Hg⟩, Ho, ⟨%d0, H0⟩, ⟨%d1, H1⟩, ⟨%d2, H2⟩, ⟨%d3, H3⟩, ⟨%d4, H4⟩⟩
      iapply ((bodyRun1_B c (grid1.coords t) _ _ _ _ _ _ _ _ _ _ _ _ _ _ _ _ (fun h => h0 ((hcond1_0 t).mp h)) (fun h => h1 ((hcond1_1 t).mp h)) (blk1 V c 0 t) (blk1 V c 1 t) (blk1 V c 2 t) (blk1 V c 3 t) _ _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HA0 HA1 HA2 HA3 HA4 HA5 HA6 HA7 HA8 HA9 HA10 HA11 HS0 HS1 HS2 Hg]
      · isplitl [HA0 HA1 HA2 HA3 HA4 HA5 HA6 HA7 HA8 HA9 HA10 HA11 HS0 HS1 HS2]
        · isplitl [HA0]; · iexact HA0
          isplitl [HA1]; · iexact HA1
          isplitl [HA2]; · iexact HA2
          isplitl [HA3]; · iexact HA3
          isplitl [HA4]; · iexact HA4
          isplitl [HA5]; · iexact HA5
          isplitl [HA6]; · iexact HA6
          isplitl [HA7]; · iexact HA7
          isplitl [HA8]; · iexact HA8
          isplitl [HA9]; · iexact HA9
          isplitl [HA10]; · iexact HA10
          isplitl [HA11]; · iexact HA11
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives the scoped rest back: the scratch buffers' contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 32 := N_1; omega), PhiA1_eq]
  iintro ⟨⟨HA0, HA1, HA2, HA3, HA4, HA5, HA6, HA7, HA8, HA9, HA10, HA11, HS0, HS1, HS2⟩, Hg⟩
  isplitl [HA0 HA1 HA2 HA3 HA4 HA5 HA6 HA7 HA8 HA9 HA10 HA11 HS0 HS1 HS2]
  · isplitl [HA0]; · iexact HA0
    isplitl [HA1]; · iexact HA1
    isplitl [HA2]; · iexact HA2
    isplitl [HA3]; · iexact HA3
    isplitl [HA4]; · iexact HA4
    isplitl [HA5]; · iexact HA5
    isplitl [HA6]; · iexact HA6
    isplitl [HA7]; · iexact HA7
    isplitl [HA8]; · iexact HA8
    isplitl [HA9]; · iexact HA9
    isplitl [HA10]; · iexact HA10
    isplitl [HA11]; · iexact HA11
    isplitl [HS0]; · iexists _; iexact HS0
    isplitl [HS1]; · iexists _; iexact HS1
    iexists _; iexact HS2
  iexact Hg

end Region1b

end Cert.KernelIdeal.Hand

end
-- ==== Proof.IdealRun.lean ====
/-
  The whole program run: eight host operations (each weight transposed and narrowed), the first pallas_call,
  the second.  The contents of the device's unscoped buffers are followed from the launch through the three
  segments: after the host operations; after the first call, its arrays at what its write-backs leave; after
  the second likewise.  Every weakly fair execution terminates without a fault with every unscoped buffer at
  the last of these.  Read at the argument arrays that is the launch contents (no host operation and no
  region writes one); read at the result it is the second call's output array after its last write-back.
-/
import proofs.«143834_j38010460570082_2_alg».proof.Proof.IdealRegion0
import proofs.«143834_j38010460570082_2_alg».proof.Proof.IdealRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
/-- After the host operations (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second call's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first pallas_call over the thread state: entered from every unscoped buffer at the contents before it,
    left at the contents after it; its arrays split out of the unscoped buffers and put back at the exit
    contents; the generator register into the region's invariant and out; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state: entered from every unscoped buffer at the contents before it,
    left at the contents after it; its arrays split out of the unscoped buffers and put back at the exit
    contents; the generator register into the region's invariant and out; nothing owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- Every argument array ends as launched, and the result array ends at what the second call's write-backs leave. -/
theorem run_value : θ_run defs (onTc (τ := τ) (main (F := F))) ⟨m, fun _ => 0, ρ⟩ (fun r => ∀ c : Dev nD,
      r.2.mem ((c.tc : Thread nD τ).loc main_v9) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v9 (by decide))).trans (W3_arr m ρ c 4),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run_all m ρ)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run_value m ρ)

end Cert.KernelIdeal.Hand

end
-- ==== Proof.IdealValue0.lean ====
/-
  The first pallas_call's stores, read back as values: each output tile is one whole-tile store whose
  payload is the body's arithmetic on the point's input blocks — the normalised rows times a transposed
  weight matrix, narrowed.
-/
import proofs.«143834_j38010460570082_2_alg».proof.Proof.IdealRegion0
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

theorem out0_5_eq (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x512x1024 .bf16) (harg7 : arg7.IsWhole) (arg8 : Memref sig .tc .vmem S1x512x1024 .bf16) (harg8 : arg8.IsWhole) (arg9 : Memref sig .tc .vmem S1x512x1024 .bf16) (harg9 : arg9.IsWhole) (x0 : Vec F S1x512x1024 .f32) (x1 : Vec F S1024 .f32) (x2 : Vec F S1024x1024 .bf16) (x3 : Vec F S1024x1024 .bf16) (x4 : Vec F S1024x1024 .bf16) :
    out0_5 c i arg2 harg2 arg3 harg3 arg4 harg4 arg5 harg5 arg6 harg6 arg7 harg7 arg8 harg8 arg9 harg9 x0 x1 x2 x3 x4 = k0_pay4 x0 x1 x2 := by
  unfold out0_5
  rw [View.read_writes_eq_canon _ _ _ (cover0_5 c i arg2 harg2 arg3 harg3 arg4 harg4 arg5 harg5 arg6 harg6 arg7 harg7 arg8 harg8 arg9 harg9 x0 x1 x2 x3 x4)]
  unfold bodyRun0
  dsimp only
  sl_unfold_words
  rw [View.canon_unit_zero hz3]
  simp only [View.readAt_eq_ld, harg2.read_unread, harg3.read_unread, harg4.read_unread, View.ld_unit_zero (S := S1x512x1024) hz3, View.ld_unit_zero (S := S1024) hz1, View.ld_unit_zero (S := S1024x1024) hz2]

theorem out0_6_eq (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x512x1024 .bf16) (harg7 : arg7.IsWhole) (arg8 : Memref sig .tc .vmem S1x512x1024 .bf16) (harg8 : arg8.IsWhole) (arg9 : Memref sig .tc .vmem S1x512x1024 .bf16) (harg9 : arg9.IsWhole) (x0 : Vec F S1x512x1024 .f32) (x1 : Vec F S1024 .f32) (x2 : Vec F S1024x1024 .bf16) (x3 : Vec F S1024x1024 .bf16) (x4 : Vec F S1024x1024 .bf16) :
    out0_6 c i arg2 harg2 arg3 harg3 arg4 harg4 arg5 harg5 arg6 harg6 arg7 harg7 arg8 harg8 arg9 harg9 x0 x1 x2 x3 x4 = k0_pay1 (k0_pay5 x0 x1 x3) := by
  unfold out0_6
  rw [View.read_writes_eq_canon _ _ _ (cover0_6 c i arg2 harg2 arg3 harg3 arg4 harg4 arg5 harg5 arg6 harg6 arg7 harg7 arg8 harg8 arg9 harg9 x0 x1 x2 x3 x4)]
  unfold bodyRun0
  dsimp only
  sl_unfold_words
  rw [View.canon_unit_zero hz3]
  simp only [View.readAt_eq_ld, harg2.read_unread, harg3.read_unread, harg5.read_unread, View.ld_unit_zero (S := S1x512x1024) hz3, View.ld_unit_zero (S := S1024) hz1, View.ld_unit_zero (S := S1024x1024) hz2]

theorem out0_7_eq (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x512x1024 .bf16) (harg7 : arg7.IsWhole) (arg8 : Memref sig .tc .vmem S1x512x1024 .bf16) (harg8 : arg8.IsWhole) (arg9 : Memref sig .tc .vmem S1x512x1024 .bf16) (harg9 : arg9.IsWhole) (x0 : Vec F S1x512x1024 .f32) (x1 : Vec F S1024 .f32) (x2 : Vec F S1024x1024 .bf16) (x3 : Vec F S1024x1024 .bf16) (x4 : Vec F S1024x1024 .bf16) :
    out0_7 c i arg2 harg2 arg3 harg3 arg4 harg4 arg5 harg5 arg6 harg6 arg7 harg7 arg8 harg8 arg9 harg9 x0 x1 x2 x3 x4 = k0_pay2 (k0_pay3 x0 x1) x4 := by
  unfold out0_7
  rw [View.read_writes_eq_canon _ _ _ (cover0_7 c i arg2 harg2 arg3 harg3 arg4 harg4 arg5 harg5 arg6 harg6 arg7 harg7 arg8 harg8 arg9 harg9 x0 x1 x2 x3 x4)]
  unfold bodyRun0
  dsimp only
  sl_unfold_words
  rw [View.canon_unit_zero hz3]
  simp only [View.readAt_eq_ld, harg2.read_unread, harg3.read_unread, harg6.read_unread, View.ld_unit_zero (S := S1x512x1024) hz3, View.ld_unit_zero (S := S1024) hz1, View.ld_unit_zero (S := S1024x1024) hz2]

end Cert.KernelIdeal.Hand

end
-- ==== Proof.IdealValue1.lean ====
/-
  The second pallas_call's stores, read back as values.  At every key tile the three scratch buffers end at
  one update of what they held (at key tile 0: of the reset values — minus infinity, zero, zero): the new
  running maximum, the rescaled normalizer plus the tile's exponentials' row sums, the rescaled numerator
  plus the tile's exponentials times the value tile.  At key tile 3 the output tile is the quotient of the
  updated numerator by the updated normalizer, times the transposed output weight.
-/
import proofs.«143834_j38010460570082_2_alg».proof.Proof.IdealRegion1
import proofs.«143834_j38010460570082_2_alg».proof.Proof.IdealValue0
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

theorem sout1_A_0_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i) (x0 : Vec F S1x1024x1024 .bf16) (x1 : Vec F S1x512x1024 .bf16) (x2 : Vec F S1x512x1024 .bf16) (x3 : Vec F S1024x1024 .bf16) :
    sout1_A_0 c i arg3 harg3 arg4 harg4 arg5 harg5 arg6 harg6 arg7 harg7 arg8 harg8 arg9 harg9 arg10 harg10 hc0 hc1 x0 x1 x2 x3 = k1_pay2 (k1_pay8 x0 x1 k1_pay4) := by
  unfold sout1_A_0
  rw [View.read_writes_eq_canon _ _ _ (scover1_A_0 c i arg3 harg3 arg4 harg4 arg5 harg5 arg6 harg6 arg7 harg7 arg8 harg8 arg9 harg9 arg10 harg10 hc0 hc1 x0 x1 x2 x3)]
  unfold bodyRun1_A
  dsimp only
  sl_unfold_words
  first | rw [View.canon_cons_unit_zero (S := S1024x1) hz2] | rw [View.canon_unit_zero hz2]
  simp only [View.readCov_unit_zero (S := S1024x1) _ hz2, View.readCov_unit_zero (S := S1024x1024) _ hz2, View.readAt_eq_ld, harg3.read_unread, harg4.read_unread, harg5.read_unread, harg6.read_unread, harg8.read_unread, harg9.read_unread, harg10.read_unread, View.ld_unit_zero (S := S1x1024x1024) hz3, View.ld_unit_zero (S := S1x512x1024) hz3, View.ld_unit_zero (S := S1024x1024) hz2, View.ld_unit_zero (S := S1024x1) hz2]

theorem sout1_A_1_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i) (x0 : Vec F S1x1024x1024 .bf16) (x1 : Vec F S1x512x1024 .bf16) (x2 : Vec F S1x512x1024 .bf16) (x3 : Vec F S1024x1024 .bf16) :
    sout1_A_1 c i arg3 harg3 arg4 harg4 arg5 harg5 arg6 harg6 arg7 harg7 arg8 harg8 arg9 harg9 arg10 harg10 hc0 hc1 x0 x1 x2 x3 = k1_pay11 x0 x1 k1_pay4 k1_pay4 k1_pay5 := by
  unfold sout1_A_1
  rw [View.read_writes_eq_canon _ _ _ (scover1_A_1 c i arg3 harg3 arg4 harg4 arg5 harg5 arg6 harg6 arg7 harg7 arg8 harg8 arg9 harg9 arg10 harg10 hc0 hc1 x0 x1 x2 x3)]
  unfold bodyRun1_A
  dsimp only
  sl_unfold_words
  first | rw [View.canon_cons_unit_zero (S := S1024x1) hz2] | rw [View.canon_unit_zero hz2]
  simp only [View.readCov_unit_zero (S := S1024x1) _ hz2, View.readCov_unit_zero (S := S1024x1024) _ hz2, View.readAt_eq_ld, harg3.read_unread, harg4.read_unread, harg5.read_unread, harg6.read_unread, harg8.read_unread, harg9.read_unread, harg10.read_unread, View.ld_unit_zero (S := S1x1024x1024) hz3, View.ld_unit_zero (S := S1x512x1024) hz3, View.ld_unit_zero (S := S1024x1024) hz2, View.ld_unit_zero (S := S1024x1) hz2]

theorem sout1_A_2_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i) (x0 : Vec F S1x1024x1024 .bf16) (x1 : Vec F S1x512x1024 .bf16) (x2 : Vec F S1x512x1024 .bf16) (x3 : Vec F S1024x1024 .bf16) :
    sout1_A_2 c i arg3 harg3 arg4 harg4 arg5 harg5 arg6 harg6 arg7 harg7 arg8 harg8 arg9 harg9 arg10 harg10 hc0 hc1 x0 x1 x2 x3 = k1_pay1 (k1_pay12 x0 x1 k1_pay4 k1_pay4 k1_pay6) (k1_pay13 x0 x1 k1_pay4) x2 := by
  unfold sout1_A_2
  rw [View.read_writes_eq_canon _ _ _ (scover1_A_2 c i arg3 harg3 arg4 harg4 arg5 harg5 arg6 harg6 arg7 harg7 arg8 harg8 arg9 harg9 arg10 harg10 hc0 hc1 x0 x1 x2 x3)]
  unfold bodyRun1_A
  dsimp only
  sl_unfold_words
  first | rw [View.canon_cons_unit_zero (S := S1024x1024) hz2] | rw [View.canon_unit_zero hz2]
  simp only [View.readCov_unit_zero (S := S1024x1) _ hz2, View.readCov_unit_zero (S := S1024x1024) _ hz2, View.readAt_eq_ld, harg3.read_unread, harg4.read_unread, harg5.read_unread, harg6.read_unread, harg8.read_unread, harg9.read_unread, harg10.read_unread, View.ld_unit_zero (S := S1x1024x1024) hz3, View.ld_unit_zero (S := S1x512x1024) hz3, View.ld_unit_zero (S := S1024x1024) hz2, View.ld_unit_zero (S := S1024x1) hz2]

theorem sout1_B_0_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i) (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) :
    sout1_B_0 c i arg3 harg3 arg4 harg4 arg5 harg5 arg6 harg6 arg7 harg7 arg8 harg8 arg9 harg9 arg10 harg10 hc0 hc1 x0 x1 x2 x3 xs0 xs1 xs2 = k1_pay2 (k1_pay8 x0 x1 xs0) := by
  unfold sout1_B_0
  rw [View.read_writes_eq_canon _ _ _ (scover1_B_0 c i arg3 harg3 arg4 harg4 arg5 harg5 arg6 harg6 arg7 harg7 arg8 harg8 arg9 harg9 arg10 harg10 hc0 hc1 x0 x1 x2 x3 xs0 xs1 xs2)]
  unfold bodyRun1_B
  dsimp only
  sl_unfold_words
  first | rw [View.canon_cons_unit_zero (S := S1024x1) hz2] | rw [View.canon_unit_zero hz2]
  simp only [View.readCov_unit_zero (S := S1024x1) _ hz2, View.readCov_unit_zero (S := S1024x1024) _ hz2, View.readAt_eq_ld, harg3.read_unread, harg4.read_unread, harg5.read_unread, harg6.read_unread, harg8.read_unread, harg9.read_unread, harg10.read_unread, View.ld_unit_zero (S := S1x1024x1024) hz3, View.ld_unit_zero (S := S1x512x1024) hz3, View.ld_unit_zero (S := S1024x1024) hz2, View.ld_unit_zero (S := S1024x1) hz2]

theorem sout1_B_1_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i) (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) :
    sout1_B_1 c i arg3 harg3 arg4 harg4 arg5 harg5 arg6 harg6 arg7 harg7 arg8 harg8 arg9 harg9 arg10 harg10 hc0 hc1 x0 x1 x2 x3 xs0 xs1 xs2 = k1_pay11 x0 x1 xs0 xs0 xs1 := by
  unfold sout1_B_1
  rw [View.read_writes_eq_canon _ _ _ (scover1_B_1 c i arg3 harg3 arg4 harg4 arg5 harg5 arg6 harg6 arg7 harg7 arg8 harg8 arg9 harg9 arg10 harg10 hc0 hc1 x0 x1 x2 x3 xs0 xs1 xs2)]
  unfold bodyRun1_B
  dsimp only
  sl_unfold_words
  first | rw [View.canon_cons_unit_zero (S := S1024x1) hz2] | rw [View.canon_unit_zero hz2]
  simp only [View.readCov_unit_zero (S := S1024x1) _ hz2, View.readCov_unit_zero (S := S1024x1024) _ hz2, View.readAt_eq_ld, harg3.read_unread, harg4.read_unread, harg5.read_unread, harg6.read_unread, harg8.read_unread, harg9.read_unread, harg10.read_unread, View.ld_unit_zero (S := S1x1024x1024) hz3, View.ld_unit_zero (S := S1x512x1024) hz3, View.ld_unit_zero (S := S1024x1024) hz2, View.ld_unit_zero (S := S1024x1) hz2]

theorem sout1_B_2_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i) (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) :
    sout1_B_2 c i arg3 harg3 arg4 harg4 arg5 harg5 arg6 harg6 arg7 harg7 arg8 harg8 arg9 harg9 arg10 harg10 hc0 hc1 x0 x1 x2 x3 xs0 xs1 xs2 = k1_pay1 (k1_pay12 x0 x1 xs0 xs0 xs2) (k1_pay13 x0 x1 xs0) x2 := by
  unfold sout1_B_2
  rw [View.read_writes_eq_canon _ _ _ (scover1_B_2 c i arg3 harg3 arg4 harg4 arg5 harg5 arg6 harg6 arg7 harg7 arg8 harg8 arg9 harg9 arg10 harg10 hc0 hc1 x0 x1 x2 x3 xs0 xs1 xs2)]
  unfold bodyRun1_B
  dsimp only
  sl_unfold_words
  first | rw [View.canon_cons_unit_zero (S := S1024x1024) hz2] | rw [View.canon_unit_zero hz2]
  simp only [View.readCov_unit_zero (S := S1024x1) _ hz2, View.readCov_unit_zero (S := S1024x1024) _ hz2, View.readAt_eq_ld, harg3.read_unread, harg4.read_unread, harg5.read_unread, harg6.read_unread, harg8.read_unread, harg9.read_unread, harg10.read_unread, View.ld_unit_zero (S := S1x1024x1024) hz3, View.ld_unit_zero (S := S1x512x1024) hz3, View.ld_unit_zero (S := S1024x1024) hz2, View.ld_unit_zero (S := S1024x1) hz2]

theorem sout1_C_0_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i) (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) :
    sout1_C_0 c i arg3 harg3 arg4 harg4 arg5 harg5 arg6 harg6 arg7 harg7 arg8 harg8 arg9 harg9 arg10 harg10 hc0 hc1 x0 x1 x2 x3 xs0 xs1 xs2 = k1_pay2 (k1_pay8 x0 x1 xs0) := by
  unfold sout1_C_0
  rw [View.read_writes_eq_canon _ _ _ (scover1_C_0 c i arg3 harg3 arg4 harg4 arg5 harg5 arg6 harg6 arg7 harg7 arg8 harg8 arg9 harg9 arg10 harg10 hc0 hc1 x0 x1 x2 x3 xs0 xs1 xs2)]
  unfold bodyRun1_C
  dsimp only
  sl_unfold_words
  first | rw [View.canon_cons_unit_zero (S := S1024x1) hz2] | rw [View.canon_unit_zero hz2]
  simp only [View.readCov_unit_zero (S := S1024x1) _ hz2, View.readCov_unit_zero (S := S1024x1024) _ hz2, View.readAt_eq_ld, harg3.read_unread, harg4.read_unread, harg5.read_unread, harg6.read_unread, harg8.read_unread, harg9.read_unread, harg10.read_unread, View.ld_unit_zero (S := S1x1024x1024) hz3, View.ld_unit_zero (S := S1x512x1024) hz3, View.ld_unit_zero (S := S1024x1024) hz2, View.ld_unit_zero (S := S1024x1) hz2]

theorem sout1_C_1_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i) (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) :
    sout1_C_1 c i arg3 harg3 arg4 harg4 arg5 harg5 arg6 harg6 arg7 harg7 arg8 harg8 arg9 harg9 arg10 harg10 hc0 hc1 x0 x1 x2 x3 xs0 xs1 xs2 = k1_pay11 x0 x1 xs0 xs0 xs1 := by
  unfold sout1_C_1
  rw [View.read_writes_eq_canon _ _ _ (scover1_C_1 c i arg3 harg3 arg4 harg4 arg5 harg5 arg6 harg6 arg7 harg7 arg8 harg8 arg9 harg9 arg10 harg10 hc0 hc1 x0 x1 x2 x3 xs0 xs1 xs2)]
  unfold bodyRun1_C
  dsimp only
  sl_unfold_words
  first | rw [View.canon_cons_unit_zero (S := S1024x1) hz2] | rw [View.canon_unit_zero hz2]
  simp only [View.readCov_unit_zero (S := S1024x1) _ hz2, View.readCov_unit_zero (S := S1024x1024) _ hz2, View.readAt_eq_ld, harg3.read_unread, harg4.read_unread, harg5.read_unread, harg6.read_unread, harg8.read_unread, harg9.read_unread, harg10.read_unread, View.ld_unit_zero (S := S1x1024x1024) hz3, View.ld_unit_zero (S := S1x512x1024) hz3, View.ld_unit_zero (S := S1024x1024) hz2, View.ld_unit_zero (S := S1024x1) hz2]

theorem sout1_C_2_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i) (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) :
    sout1_C_2 c i arg3 harg3 arg4 harg4 arg5 harg5 arg6 harg6 arg7 harg7 arg8 harg8 arg9 harg9 arg10 harg10 hc0 hc1 x0 x1 x2 x3 xs0 xs1 xs2 = k1_pay1 (k1_pay12 x0 x1 xs0 xs0 xs2) (k1_pay13 x0 x1 xs0) x2 := by
  unfold sout1_C_2
  rw [View.read_writes_eq_canon _ _ _ (scover1_C_2 c i arg3 harg3 arg4 harg4 arg5 harg5 arg6 harg6 arg7 harg7 arg8 harg8 arg9 harg9 arg10 harg10 hc0 hc1 x0 x1 x2 x3 xs0 xs1 xs2)]
  unfold bodyRun1_C
  dsimp only
  sl_unfold_words
  first | rw [View.canon_cons_unit_zero (S := S1024x1024) hz2] | rw [View.canon_unit_zero hz2]
  simp only [View.readCov_unit_zero (S := S1024x1) _ hz2, View.readCov_unit_zero (S := S1024x1024) _ hz2, View.readAt_eq_ld, harg3.read_unread, harg4.read_unread, harg5.read_unread, harg6.read_unread, harg8.read_unread, harg9.read_unread, harg10.read_unread, View.ld_unit_zero (S := S1x1024x1024) hz3, View.ld_unit_zero (S := S1x512x1024) hz3, View.ld_unit_zero (S := S1024x1024) hz2, View.ld_unit_zero (S := S1024x1) hz2]

theorem out1_C_4_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i) (x0 : Vec F S1x1024x1024 .bf16) (x1 : Vec F S1x512x1024 .bf16) (x2 : Vec F S1x512x1024 .bf16) (x3 : Vec F S1024x1024 .bf16) (xs0 : Vec F S1024x1 .f32) (xs1 : Vec F S1024x1 .f32) (xs2 : Vec F S1024x1024 .f32) :
    out1_C_4 c i arg3 harg3 arg4 harg4 arg5 harg5 arg6 harg6 arg7 harg7 arg8 harg8 arg9 harg9 arg10 harg10 hc0 hc1 x0 x1 x2 x3 xs0 xs1 xs2 = k1_pay3 (k1_pay1 (k1_pay12 x0 x1 xs0 xs0 xs2) (k1_pay13 x0 x1 xs0) x2) (k1_pay11 x0 x1 xs0 xs0 xs1) x3 := by
  unfold out1_C_4
  rw [View.read_writes_eq_canon _ _ _ (cover1_C_4 c i arg3 harg3 arg4 harg4 arg5 harg5 arg6 harg6 arg7 harg7 arg8 harg8 arg9 harg9 arg10 harg10 hc0 hc1 x0 x1 x2 x3 xs0 xs1 xs2)]
  unfold bodyRun1_C
  dsimp only
  sl_unfold_words
  first | rw [View.canon_cons_unit_zero (S := S1x1024x1024) hz3] | rw [View.canon_unit_zero hz3]
  simp only [View.readCov_unit_zero (S := S1024x1) _ hz2, View.readCov_unit_zero (S := S1024x1024) _ hz2, View.readAt_eq_ld, harg3.read_unread, harg4.read_unread, harg5.read_unread, harg6.read_unread, harg8.read_unread, harg9.read_unread, harg10.read_unread, View.ld_unit_zero (S := S1x1024x1024) hz3, View.ld_unit_zero (S := S1x512x1024) hz3, View.ld_unit_zero (S := S1024x1024) hz2, View.ld_unit_zero (S := S1024x1) hz2]

end Cert.KernelIdeal.Hand

end
-- ==== Proof.LibOnlineSoftmax.lean ====
/-
  The online softmax of a blocked attention row, on the extended reals.

  A row of scores is visited block by block.  Between blocks three quantities are kept: a running
  maximum m, a running normalizer l and, per output column, a running numerator acc.  A block with
  scores s j and values v j d replaces them by

      m' = max m (max_j s j),   a = exp (m - m'),
      l' = a * l + ∑ j, exp (s j - m'),
      acc' d = a * acc d + ∑ j, exp (s j - m') * v j d,

  starting from m = -∞, l = 0, acc = 0.  With every score and value a real number the state after
  any positive number of blocks is  m = M,  l = e^(-M) * Z,  acc d = e^(-M) * N d  for a REAL M and
  the plain sums  Z = ∑ e^(s j),  N d = ∑ e^(s j) * v j d  over the entries seen so far: which real
  M is plays no part.  So the quotient acc d / l is N d / Z, and a softmax row taken at once
  (entries e^(s j - μ) divided by their sum, for any real shift μ) contracted with the values is the
  same real N d / Z.  The first block is special only in that a = exp (-∞) = 0 multiplies the
  zeros the state starts from.
-/
import Idealize.ShloMosaic.PureOps.Ideal

noncomputable section

namespace Cert.Lib.OnlineSoftmax

open Idealize.ShloMosaic

/-! ## Sums and maxima of images of reals -/

/-- The larger of two images of reals is the image of the larger real. -/
theorem coe_max (a b : ℝ) : max (a : EReal) (b : EReal) = ((max a b : ℝ) : EReal) :=
  (EReal.coe_strictMono.monotone.map_max).symm

/-- The sum of images of reals is the image of the sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A fold of max from -∞ over images of reals is -∞ or the image of a real. -/
theorem fold_max_coe {ι : Type*} (s : Finset ι) (f : ι → ℝ) :
    s.fold max (⊥ : EReal) (fun i => ((f i : ℝ) : EReal)) = ⊥ ∨
      ∃ μ : ℝ, s.fold max (⊥ : EReal) (fun i => ((f i : ℝ) : EReal)) = (μ : EReal) := by
  classical
  induction s using Finset.induction_on with
  | empty => left; simp
  | insert a s ha ih =>
    right
    rw [Finset.fold_insert ha]
    rcases ih with h | ⟨μ, h⟩
    · exact ⟨f a, by rw [h, max_eq_left bot_le]⟩
    · exact ⟨max (f a) μ, by rw [h, coe_max]⟩

/-- Over a nonempty index type it is the image of a real. -/
theorem fold_max_coe_univ {ι : Type*} [Fintype ι] [Nonempty ι] (f : ι → ℝ) :
    ∃ μ : ℝ, (Finset.univ : Finset ι).fold max (⊥ : EReal) (fun i => ((f i : ℝ) : EReal)) = (μ : EReal) := by
  classical
  obtain ⟨a⟩ := ‹Nonempty ι›
  rw [← Finset.insert_erase (Finset.mem_univ a), Finset.fold_insert (Finset.notMem_erase a _)]
  rcases fold_max_coe (Finset.univ.erase a) f with h | ⟨μ, h⟩
  · exact ⟨f a, by rw [h, max_eq_left bot_le]⟩
  · exact ⟨max (f a) μ, by rw [h, coe_max]⟩

/-! ## One block -/

/-- What is kept between blocks. -/
structure State (δ : Type*) where
  m : EReal
  l : EReal
  acc : δ → EReal

/-- One block's update, as written in the header. -/
def step {κ δ : Type*} [Fintype κ] (s : κ → EReal) (v : κ → δ → EReal) (st : State δ) : State δ :=
  let m' := max st.m ((Finset.univ : Finset κ).fold max ⊥ s)
  { m := m'
    l := Ideal.exp (st.m - m') * st.l + ∑ j, Ideal.exp (s j - m')
    acc := fun d => Ideal.exp (st.m - m') * st.acc d + ∑ j, Ideal.exp (s j - m') * v j d }

/-- The state before the first block. -/
def init (δ : Type*) : State δ := ⟨⊥, 0, fun _ => 0⟩

/-- The state stands for the plain sums Z and N: for some real M it is (M, e^(-M) Z, e^(-M) N). -/
def Holds {δ : Type*} (st : State δ) (Z : ℝ) (N : δ → ℝ) : Prop :=
  ∃ M : ℝ, st.m = (M : EReal) ∧ st.l = ((Real.exp (-M) * Z : ℝ) : EReal) ∧
    ∀ d, st.acc d = ((Real.exp (-M) * N d : ℝ) : EReal)

variable {κ δ : Type*} [Fintype κ]

private theorem exp_sub_coe (x M : ℝ) : Ideal.exp ((x : EReal) - (M : EReal)) = ((Real.exp (-M) * Real.exp x : ℝ) : EReal) := by
  rw [← EReal.coe_sub, Ideal.exp_coe, sub_eq_add_neg, Real.exp_add, mul_comm]

private theorem block_sums (σ : κ → ℝ) (ν : κ → δ → ℝ) (M : ℝ) :
    (∑ j, Ideal.exp (((σ j : ℝ) : EReal) - (M : EReal))) = ((Real.exp (-M) * ∑ j, Real.exp (σ j) : ℝ) : EReal) ∧
    ∀ d, (∑ j, Ideal.exp (((σ j : ℝ) : EReal) - (M : EReal)) * ((ν j d : ℝ) : EReal))
      = ((Real.exp (-M) * ∑ j, Real.exp (σ j) * ν j d : ℝ) : EReal) := by
  refine ⟨?_, fun d => ?_⟩
  · simp only [exp_sub_coe]; rw [coe_sum, Finset.mul_sum]
  · simp only [exp_sub_coe, ← EReal.coe_mul]; rw [coe_sum, Finset.mul_sum]
    exact congrArg _ (Finset.sum_congr rfl fun j _ => by ring)

/-- The first block: from the initial state, a block of real scores and values leaves the state
    standing for that block's sums. -/
theorem step_init [Nonempty κ] (σ : κ → ℝ) (ν : κ → δ → ℝ) :
    Holds (step (fun j => ((σ j : ℝ) : EReal)) (fun j d => ((ν j d : ℝ) : EReal)) (init δ))
      (∑ j, Real.exp (σ j)) (fun d => ∑ j, Real.exp (σ j) * ν j d) := by
  obtain ⟨μ, hμ⟩ := fold_max_coe_univ σ
  have hm : max (⊥ : EReal) ((Finset.univ : Finset κ).fold max ⊥ fun j => ((σ j : ℝ) : EReal)) = (μ : EReal) := by
    rw [hμ, max_eq_right bot_le]
  obtain ⟨hl, hacc⟩ := block_sums σ ν μ
  refine ⟨μ, ?_, ?_, fun d => ?_⟩
  · exact hm
  · show Ideal.exp (⊥ - max (⊥ : EReal) _) * 0 + ∑ j, Ideal.exp (_ - max (⊥ : EReal) _) = _
    rw [hm, mul_zero, zero_add, hl]
  · show Ideal.exp (⊥ - max (⊥ : EReal) _) * 0 + ∑ j, Ideal.exp (_ - max (⊥ : EReal) _) * _ = _
    rw [hm, mul_zero, zero_add, hacc d]

/-- A later block: a state standing for (Z, N) becomes one standing for the sums with the block's
    entries added. -/
theorem step_holds (σ : κ → ℝ) (ν : κ → δ → ℝ) (st : State δ) (Z : ℝ) (N : δ → ℝ) (h : Holds st Z N) :
    Holds (step (fun j => ((σ j : ℝ) : EReal)) (fun j d => ((ν j d : ℝ) : EReal)) st)
      (Z + ∑ j, Real.exp (σ j)) (fun d => N d + ∑ j, Real.exp (σ j) * ν j d) := by
  obtain ⟨M, hm, hl, hacc⟩ := h
  obtain ⟨M', hM'⟩ : ∃ M' : ℝ, max st.m ((Finset.univ : Finset κ).fold max ⊥ fun j => ((σ j : ℝ) : EReal)) = (M' : EReal) := by
    rcases fold_max_coe (Finset.univ : Finset κ) σ with h | ⟨μ, h⟩
    · exact ⟨M, by rw [h, hm, max_eq_left bot_le]⟩
    · exact ⟨max M μ, by rw [h, hm, coe_max]⟩
  obtain ⟨hbl, hbacc⟩ := block_sums σ ν M'
  have ha : Ideal.exp (st.m - (M' : EReal)) = ((Real.exp (-M') * Real.exp M : ℝ) : EReal) := by rw [hm, exp_sub_coe]
  refine ⟨M', hM', ?_, fun d => ?_⟩
  · show Ideal.exp (st.m - max st.m _) * st.l + ∑ j, Ideal.exp (_ - max st.m _) = _
    rw [hM', ha, hl, hbl, ← EReal.coe_mul, ← EReal.coe_add]
    refine congrArg _ ?_
    have : Real.exp M * Real.exp (-M) = 1 := by rw [← Real.exp_add, add_neg_cancel, Real.exp_zero]
    linear_combination (Real.exp (-M') * Z) * this
  · show Ideal.exp (st.m - max st.m _) * st.acc d + ∑ j, Ideal.exp (_ - max st.m _) * _ = _
    rw [hM', ha, hacc d, hbacc d, ← EReal.coe_mul, ← EReal.coe_add]
    refine congrArg _ ?_
    have : Real.exp M * Real.exp (-M) = 1 := by rw [← Real.exp_add, add_neg_cancel, Real.exp_zero]
    linear_combination (Real.exp (-M') * N d) * this

/-! ## The quotient at the end, and the softmax row taken at once -/

/-- A state standing for (Z, N) with Z positive has acc d / l = N d / Z. -/
theorem quotient_of_holds (st : State δ) (Z : ℝ) (N : δ → ℝ) (h : Holds st Z N) (hZ : 0 < Z) (d : δ) :
    Ideal.div (st.acc d) st.l = ((N d / Z : ℝ) : EReal) := by
  obtain ⟨M, -, hl, hacc⟩ := h
  have hne : Real.exp (-M) * Z ≠ 0 := mul_ne_zero (Real.exp_pos _).ne' hZ.ne'
  rw [hl, hacc d, Ideal.div_coe hne, ← EReal.coe_mul]
  refine congrArg _ ?_
  have := (Real.exp_pos (-M)).ne'
  field_simp

/-- A softmax row taken at once with any real shift μ — entries e^(s j - μ), each divided by the
    sum of them all from an initial value zero — contracted with the values is N d / Z too. -/
theorem softmax_contract {ι : Type*} [Fintype ι] [Nonempty ι] (σ : ι → ℝ) (ν : ι → δ → ℝ) (μ : ℝ) (d : δ) :
    (∑ j, Ideal.div (Ideal.exp (((σ j : ℝ) : EReal) - (μ : EReal)))
        (0 + ∑ i, Ideal.exp (((σ i : ℝ) : EReal) - (μ : EReal))) * ((ν j d : ℝ) : EReal))
      = (((∑ j, Real.exp (σ j) * ν j d) / ∑ j, Real.exp (σ j) : ℝ) : EReal) := by
  have hZ : 0 < ∑ j, Real.exp (σ j) := Finset.sum_pos (fun j _ => Real.exp_pos _) Finset.univ_nonempty
  have hne : Real.exp (-μ) * ∑ j, Real.exp (σ j) ≠ 0 := mul_ne_zero (Real.exp_pos _).ne' hZ.ne'
  have hL : (0 + ∑ i, Ideal.exp (((σ i : ℝ) : EReal) - (μ : EReal))) = ((Real.exp (-μ) * ∑ j, Real.exp (σ j) : ℝ) : EReal) := by
    simp only [exp_sub_coe]; rw [zero_add, coe_sum, Finset.mul_sum]
  rw [hL]
  simp only [exp_sub_coe, Ideal.div_coe hne, ← EReal.coe_mul]
  rw [coe_sum]
  refine congrArg _ ?_
  rw [Finset.sum_div]
  refine Finset.sum_congr rfl fun j _ => ?_
  have := (Real.exp_pos (-μ)).ne'
  field_simp

end Cert.Lib.OnlineSoftmax

end
-- ==== Proof.LibAttentionRow.lean ====
/-
  One query row of blocked attention over 2048 keys visited in four tiles of 512.

  The four updates of the running maximum, normalizer and numerator, started from (-∞, 0, 0), leave a
  state whose quotient numerator / normalizer is, for real scores s j and real values v j d,

      (∑ j, e^(s j) * v j d) / (∑ j, e^(s j))        (j over all 2048 keys),

  and the softmax row taken at once and contracted with the values is the same real.  A sum over the 2048
  keys is the sum over the four tiles of the sums over a tile: key 512 k + j is entry j of tile k.
-/
import proofs.«143834_j38010460570082_2_alg».proof.Proof.LibOnlineSoftmax

noncomputable section

namespace Cert.Lib.AttentionRow

open Idealize.ShloMosaic Cert.Lib.OnlineSoftmax

/-- Key j of tile k. -/
def key (k : Fin 4) (j : Fin 512) : Fin 2048 := ⟨512 * k.val + j.val, by have := k.isLt; have := j.isLt; omega⟩

/-- A sum over the 2048 keys, tile by tile. -/
theorem sum_keys {M : Type*} [AddCommMonoid M] (f : Fin 2048 → M) :
    ∑ x : Fin 2048, f x = ∑ k : Fin 4, ∑ j : Fin 512, f (key k j) := by
  rw [← Fintype.sum_prod_type' (fun (k : Fin 4) (j : Fin 512) => f (key k j))]
  refine (Equiv.sum_comp (finProdFinEquiv : Fin 4 × Fin 512 ≃ Fin (4 * 512)) f).symm.trans ?_
  refine Finset.sum_congr rfl fun p _ => congrArg f (Fin.ext ?_)
  show p.2.val + 512 * p.1.val = 512 * p.1.val + p.2.val
  omega

variable {δ : Type*}

/-- The state after the four tiles, from real scores and values. -/
def run (σ : Fin 2048 → ℝ) (ν : Fin 2048 → δ → ℝ) : State δ :=
  let tile (k : Fin 4) (st : State δ) : State δ :=
    step (fun j : Fin 512 => ((σ (key k j) : ℝ) : EReal)) (fun j d => ((ν (key k j) d : ℝ) : EReal)) st
  tile 3 (tile 2 (tile 1 (tile 0 (init δ))))

/-- Its quotient is the exponential-weighted mean of the values. -/
theorem run_quotient (σ : Fin 2048 → ℝ) (ν : Fin 2048 → δ → ℝ) (d : δ) :
    Ideal.div ((run σ ν).acc d) (run σ ν).l
      = (((∑ j, Real.exp (σ j) * ν j d) / ∑ j, Real.exp (σ j) : ℝ) : EReal) := by
  have h0 := step_init (fun j : Fin 512 => σ (key 0 j)) (fun j d => ν (key 0 j) d)
  have h1 := step_holds (fun j : Fin 512 => σ (key 1 j)) (fun j d => ν (key 1 j) d) _ _ _ h0
  have h2 := step_holds (fun j : Fin 512 => σ (key 2 j)) (fun j d => ν (key 2 j) d) _ _ _ h1
  have h3 := step_holds (fun j : Fin 512 => σ (key 3 j)) (fun j d => ν (key 3 j) d) _ _ _ h2
  have hZ : (∑ j, Real.exp (σ j)) = ((∑ j : Fin 512, Real.exp (σ (key 0 j))) + ∑ j : Fin 512, Real.exp (σ (key 1 j))) + (∑ j : Fin 512, Real.exp (σ (key 2 j))) + ∑ j : Fin 512, Real.exp (σ (key 3 j)) := by
    rw [sum_keys, Fin.sum_univ_four]
  have hN : (∑ j, Real.exp (σ j) * ν j d) = ((∑ j : Fin 512, Real.exp (σ (key 0 j)) * ν (key 0 j) d) + ∑ j : Fin 512, Real.exp (σ (key 1 j)) * ν (key 1 j) d) + (∑ j : Fin 512, Real.exp (σ (key 2 j)) * ν (key 2 j) d) + ∑ j : Fin 512, Real.exp (σ (key 3 j)) * ν (key 3 j) d := by
    rw [sum_keys, Fin.sum_univ_four]
  have hpos : 0 < ∑ j, Real.exp (σ j) := Finset.sum_pos (fun j _ => Real.exp_pos _) Finset.univ_nonempty
  rw [hZ] at hpos
  have := quotient_of_holds _ _ _ h3 hpos d
  rw [hZ, hN]
  exact this

end Cert.Lib.AttentionRow

end
-- ==== Proof.LibERealFinite.lean ====
/-
  Finiteness in the extended reals: an extended real is finite when it is neither infinity, that is, when it is
  the image of a real number.  Closure of finiteness under the arithmetic, order and rounding operations, and the
  identities that hold once one operand is known to be finite.
-/
import Mathlib.Tactic
import Idealize.ShloMosaic.PureOps.Ideal

noncomputable section

namespace Cert.Lib.Finite

open Idealize.ShloMosaic

/-- An extended real is finite when it is neither `⊤` nor `⊥`. -/
def Fin' (x : EReal) : Prop := x ≠ ⊤ ∧ x ≠ ⊥

/-- A finite extended real is the image of a real number. -/
theorem Fin'.exists_real {x : EReal} (h : Fin' x) : ∃ r : ℝ, x = (r : EReal) :=
  ⟨x.toReal, (EReal.coe_toReal h.1 h.2).symm⟩

/-- The image of a real number is finite. -/
theorem fin_coe (r : ℝ) : Fin' (r : EReal) := ⟨EReal.coe_ne_top r, EReal.coe_ne_bot r⟩

/-- Finite means: the image of a real number. -/
theorem fin_iff_exists_real {x : EReal} : Fin' x ↔ ∃ r : ℝ, x = (r : EReal) :=
  ⟨Fin'.exists_real, fun ⟨r, h⟩ => h ▸ fin_coe r⟩

/-- Of a real witness, finiteness. -/
theorem fin_of_eq_coe {x : EReal} {r : ℝ} (h : x = (r : EReal)) : Fin' x := h ▸ fin_coe r

theorem fin_zero : Fin' (0 : EReal) := by simpa using fin_coe 0
theorem fin_one : Fin' (1 : EReal) := by simpa using fin_coe 1

/-- The straight-through identity: adding to a finite `a` the difference `b - a` gives `b`, for every extended
    real `b`, the infinities included (`a + (⊤ - a) = ⊤`, `a + (⊥ - a) = ⊥`). -/
theorem add_sub_cancel {a : EReal} (ha : Fin' a) (b : EReal) : a + (b - a) = b := by
  obtain ⟨r, rfl⟩ := ha.exists_real
  induction b using EReal.rec with
  | bot => simp
  | top => simp
  | coe x => norm_cast; ring

/-- The same identity with the difference first. -/
theorem sub_add_cancel {a : EReal} (ha : Fin' a) (b : EReal) : (b - a) + a = b := by
  rw [add_comm]; exact add_sub_cancel ha b

/-! ### Closure -/

theorem fin_add {a b : EReal} (ha : Fin' a) (hb : Fin' b) : Fin' (a + b) := by
  obtain ⟨r, rfl⟩ := ha.exists_real; obtain ⟨t, rfl⟩ := hb.exists_real
  exact fin_of_eq_coe (EReal.coe_add r t).symm

theorem fin_sub {a b : EReal} (ha : Fin' a) (hb : Fin' b) : Fin' (a - b) := by
  obtain ⟨r, rfl⟩ := ha.exists_real; obtain ⟨t, rfl⟩ := hb.exists_real
  exact fin_of_eq_coe (EReal.coe_sub r t).symm

theorem fin_mul {a b : EReal} (ha : Fin' a) (hb : Fin' b) : Fin' (a * b) := by
  obtain ⟨r, rfl⟩ := ha.exists_real; obtain ⟨t, rfl⟩ := hb.exists_real
  exact fin_of_eq_coe (EReal.coe_mul r t).symm

theorem fin_neg {a : EReal} (ha : Fin' a) : Fin' (-a) := by
  obtain ⟨r, rfl⟩ := ha.exists_real
  exact fin_of_eq_coe (EReal.coe_neg r).symm

theorem fin_max {a b : EReal} (ha : Fin' a) (hb : Fin' b) : Fin' (max a b) := by
  rcases max_choice a b with h | h <;> rw [h] <;> assumption

theorem fin_min {a b : EReal} (ha : Fin' a) (hb : Fin' b) : Fin' (min a b) := by
  rcases min_choice a b with h | h <;> rw [h] <;> assumption

/-- Between two finite bounds, finite. -/
theorem fin_of_between {lo hi x : EReal} (hlo : Fin' lo) (hhi : Fin' hi) (h1 : lo ≤ x) (h2 : x ≤ hi) : Fin' x :=
  ⟨fun h => hhi.1 (top_le_iff.mp (h ▸ h2)), fun h => hlo.2 (le_bot_iff.mp (h ▸ h1))⟩

/-- A finite sum of finite terms is finite. -/
theorem fin_sum {ι : Type*} (s : Finset ι) (f : ι → EReal) (h : ∀ i ∈ s, Fin' (f i)) : Fin' (∑ i ∈ s, f i) := by
  classical
  induction s using Finset.induction_on with
  | empty => simpa using fin_zero
  | insert a s ha ih =>
    rw [Finset.sum_insert ha]
    exact fin_add (h a (Finset.mem_insert_self a s)) (ih fun i hi => h i (Finset.mem_insert_of_mem hi))

/-- The sum over a finite type of finite terms is finite. -/
theorem fin_sum_univ {ι : Type*} [Fintype ι] (f : ι → EReal) (h : ∀ i, Fin' (f i)) : Fin' (∑ i, f i) :=
  fin_sum Finset.univ f fun i _ => h i

/-- The sum of the images of reals is the image of the sum. -/
theorem coe_sum {ι : Type*} (s : Finset ι) (g : ι → ℝ) : (∑ i ∈ s, (g i : EReal)) = ((∑ i ∈ s, g i : ℝ) : EReal) := by
  classical
  induction s using Finset.induction_on with
  | empty => simp
  | insert a s ha ih => rw [Finset.sum_insert ha, Finset.sum_insert ha, ih, EReal.coe_add]

/-- The exponential of a finite extended real is finite. -/
theorem fin_exp {x : EReal} (hx : Fin' x) : Fin' (Ideal.exp x) := by
  obtain ⟨r, rfl⟩ := hx.exists_real
  exact fin_of_eq_coe (Ideal.exp_coe (r := r))

/-- The exponential of a finite extended real is positive. -/
theorem exp_pos {x : EReal} (hx : Fin' x) : 0 < Ideal.exp x := by
  obtain ⟨r, rfl⟩ := hx.exists_real
  rw [Ideal.exp_coe]; exact_mod_cast Real.exp_pos r

/-- The quotient of two reals, the divisor not zero, is the image of the real quotient. -/
theorem div_coe_coe (r : ℝ) {t : ℝ} (ht : t ≠ 0) : Ideal.div (r : EReal) (t : EReal) = ((r / t : ℝ) : EReal) := by
  rw [Ideal.div_coe ht, ← EReal.coe_mul, mul_one_div]

/-- The quotient of a finite extended real by a finite nonzero one is finite. -/
theorem fin_div {x s : EReal} (hx : Fin' x) (hs : Fin' s) (h0 : s ≠ 0) : Fin' (Ideal.div x s) := by
  obtain ⟨r, rfl⟩ := hx.exists_real; obtain ⟨t, rfl⟩ := hs.exists_real
  have ht : t ≠ 0 := fun h => h0 (by rw [h]; rfl)
  exact fin_of_eq_coe (div_coe_coe r ht)

/-- A rounding to the integers of a finite extended real is finite. -/
theorem fin_liftRound (f : ℝ → ℤ) {x : EReal} (hx : Fin' x) : Fin' (Ideal.liftRound f x) := by
  obtain ⟨r, rfl⟩ := hx.exists_real
  exact fin_of_eq_coe (Ideal.liftRound_coe (r := r) f)

/-! ### The clip bounds -/

/-- The pattern `0x42FE0000` denotes the real `127`. -/
theorem ofBits_127 : Ideal.ofBits .f32 0x42FE0000#32 = ((127 : ℝ) : EReal) := by
  simp [Ideal.ofBits, Ideal.ieee, -EReal.coe_mul]; norm_num

/-- The pattern `0xC2FE0000` denotes the real `-127`. -/
theorem ofBits_neg127 : Ideal.ofBits .f32 0xC2FE0000#32 = ((-127 : ℝ) : EReal) := by
  simp [Ideal.ofBits, Ideal.ieee, -EReal.coe_mul]; norm_num

/-- A value clipped to `[-127, 127]` is finite, whatever it was. -/
theorem fin_clip (y : EReal) :
    Fin' (min (Ideal.ofBits .f32 0x42FE0000#32) (max (Ideal.ofBits .f32 0xC2FE0000#32) y)) := by
  rw [ofBits_127, ofBits_neg127]
  refine fin_of_between (fin_coe (-127)) (fin_coe 127) (le_min ?_ (le_max_left _ _)) (min_le_left _ _)
  exact_mod_cast (by norm_num : (-127 : ℝ) ≤ 127)

/-! ### The quantization scale -/

/-- The pattern `0x322BCC77` denotes a positive real (`11258999 · 2⁻⁵⁰`, about `1e-8`). -/
theorem ofBits_eps : Ideal.ofBits .f32 0x322BCC77#32 = ((11258999 / 2 ^ 50 : ℝ) : EReal) := by
  simp [Ideal.ofBits, Ideal.ieee, -EReal.coe_mul]; norm_num

/-- That real is positive. -/
theorem ofBits_eps_pos : (0 : EReal) < Ideal.ofBits .f32 0x322BCC77#32 := by
  rw [ofBits_eps]; exact_mod_cast (by positivity : (0 : ℝ) < 11258999 / 2 ^ 50)

/-- The scale `max (M / 127) ε` of a finite `M` is finite. -/
theorem fin_scale {M : EReal} (hM : Fin' M) :
    Fin' (max (Ideal.div M (Ideal.ofBits .f32 0x42FE0000#32)) (Ideal.ofBits .f32 0x322BCC77#32)) := by
  refine fin_max (fin_div hM (fin_of_eq_coe ofBits_127) ?_) (fin_of_eq_coe ofBits_eps)
  rw [ofBits_127]; exact_mod_cast (by norm_num : (127 : ℝ) ≠ 0)

/-- The scale `max (M / 127) ε` is positive, whatever `M` is. -/
theorem scale_pos (M : EReal) :
    0 < max (Ideal.div M (Ideal.ofBits .f32 0x42FE0000#32)) (Ideal.ofBits .f32 0x322BCC77#32) :=
  lt_max_of_lt_right ofBits_eps_pos

/-- A positive extended real is not zero. -/
theorem scale_ne_zero (M : EReal) :
    max (Ideal.div M (Ideal.ofBits .f32 0x42FE0000#32)) (Ideal.ofBits .f32 0x322BCC77#32) ≠ 0 :=
  (scale_pos M).ne'

/-! ### Folding the maximum over a finite set -/

/-- Folding `max` from `⊥` is the supremum. -/
theorem fold_max_eq_sup {ι : Type*} (s : Finset ι) (f : ι → EReal) : s.fold max ⊥ f = s.sup f := by
  classical
  induction s using Finset.induction_on with
  | empty => simp
  | insert a s ha ih => rw [Finset.fold_insert ha, Finset.sup_insert, ih]

/-- Every entry is below the folded maximum. -/
theorem le_fold_max {ι : Type*} {s : Finset ι} (f : ι → EReal) {i : ι} (hi : i ∈ s) : f i ≤ s.fold max ⊥ f := by
  rw [fold_max_eq_sup]; exact Finset.le_sup hi

/-- A bound of every entry bounds the folded maximum. -/
theorem fold_max_le {ι : Type*} {s : Finset ι} {f : ι → EReal} {c : EReal} (h : ∀ i ∈ s, f i ≤ c) :
    s.fold max ⊥ f ≤ c := by
  rw [fold_max_eq_sup]; exact Finset.sup_le h

/-- A bound of every entry that one entry attains is the folded maximum. -/
theorem fold_max_eq_of_le_of_mem {ι : Type*} {s : Finset ι} {f : ι → EReal} {c : EReal} (h : ∀ i ∈ s, f i ≤ c)
    {i : ι} (hi : i ∈ s) (hc : f i = c) : s.fold max ⊥ f = c :=
  le_antisymm (fold_max_le h) (hc ▸ le_fold_max f hi)

/-- Over a nonempty finite set the folded maximum is one of the entries. -/
theorem exists_fold_max_eq {ι : Type*} {s : Finset ι} (hs : s.Nonempty) (f : ι → EReal) :
    ∃ i ∈ s, s.fold max ⊥ f = f i := by
  rw [fold_max_eq_sup]; exact Finset.exists_mem_eq_sup s hs f

/-- Over a nonempty finite type the folded maximum of finite entries is finite. -/
theorem fin_fold_max {ι : Type*} [Fintype ι] [Nonempty ι] (f : ι → EReal) (h : ∀ i, Fin' (f i)) :
    Fin' (Finset.univ.fold max ⊥ f) := by
  obtain ⟨i, -, hi⟩ := exists_fold_max_eq Finset.univ_nonempty f
  rw [hi]; exact h i

/-- The folded maximum of the images of reals is the image of their supremum. -/
theorem fold_max_coe {ι : Type*} {s : Finset ι} (hs : s.Nonempty) (g : ι → ℝ) :
    s.fold max ⊥ (fun i => (g i : EReal)) = ((s.sup' hs g : ℝ) : EReal) := by
  obtain ⟨i, hi, h⟩ := Finset.exists_mem_eq_sup' hs g
  refine fold_max_eq_of_le_of_mem (fun j hj => ?_) hi (by rw [h])
  exact_mod_cast Finset.le_sup' g hj

/-- Re-indexing along a bijection does not change the folded maximum. -/
theorem fold_max_equiv {ι κ : Type*} [Fintype ι] [Fintype κ] (e : ι ≃ κ) (b : EReal) (f : κ → EReal) :
    Finset.univ.fold max b (f ∘ e) = Finset.univ.fold max b f := by
  have h := Finset.fold_map (op := max) (b := b) (g := e.toEmbedding) (f := f) (s := Finset.univ)
  rw [Finset.map_univ_equiv] at h
  exact h.symm

end Cert.Lib.Finite

end
-- ==== Proof.Consts.lean ====
/-
  The float constants the programs spell, as the extended reals their bit patterns denote: 1024, the
  variance's offset (a positive dyadic rational, 10995116 / 2^40), minus infinity.
-/
import Idealize.ShloMosaic.PureOps.Ideal

noncomputable section

namespace Cert.Consts

open Idealize.ShloMosaic

/-- The row length 1024.0 denotes the real 1024. -/
theorem ofBits_1024 : Ideal.ofBits .f32 0x44800000#32 = ((1024 : ℝ) : EReal) := by
  simp [Ideal.ofBits, Ideal.ieee, -EReal.coe_mul]; norm_num

/-- The offset added to the variance: the single-precision number nearest 1e-5, a positive real. -/
def eps : ℝ := 10995116 / 1099511627776

theorem eps_pos : 0 < eps := by unfold eps; norm_num

theorem ofBits_eps : Ideal.ofBits .f32 0x3727C5AC#32 = ((eps : ℝ) : EReal) := by
  unfold eps
  simp [Ideal.ofBits, Ideal.ieee, -EReal.coe_mul]; norm_num

/-- The pattern of minus infinity denotes the bottom element. -/
theorem ofBits_neg_inf : Ideal.ofBits .f32 0xFF800000#32 = (⊥ : EReal) := by
  simp [Ideal.ofBits, Ideal.ieee]

end Cert.Consts

end
-- ==== Proof.Spec.lean ====
/-
  The mathematics both programs compute, on the extended reals, one row at a time.

  Layer normalisation of a row x of 1024 entries with scale g:  mean μ = (∑ x) / 1024, variance
  v = (∑ (x - μ)²) / 1024, entry d of the result (x d - μ) · rsqrt (v + ε) · g d.  With x and g real the
  variance is a nonnegative real, v + ε is positive, so the reciprocal square root is a real and every
  entry is a real; a contraction of real rows is real.

  Attention of one query row over 2048 keys: with real scores and real values the four-tile running
  computation's quotient and the softmax row taken at once (any real shift, the normalizer summed from an
  initial zero) contracted with the values are the same extended real.
-/
import proofs.«143834_j38010460570082_2_alg».proof.Proof.LibAttentionRow
import proofs.«143834_j38010460570082_2_alg».proof.Proof.LibERealFinite
import proofs.«143834_j38010460570082_2_alg».proof.Proof.Consts

noncomputable section

namespace Cert.Spec

open Idealize.ShloMosaic Cert.Lib.Finite Cert.Lib.OnlineSoftmax Cert.Lib.AttentionRow

/-! ## A normalised row -/

/-- The row length and the variance's offset, as the programs spell them. -/
def c1024 : EReal := Ideal.ofBits .f32 0x44800000#32
def epsE : EReal := Ideal.ofBits .f32 0x3727C5AC#32

def mean (x : Fin 1024 → EReal) : EReal := Ideal.div (∑ k, x k) c1024
def var (x : Fin 1024 → EReal) : EReal := Ideal.div (∑ k, (x k - mean x) * (x k - mean x)) c1024
/-- Entry d of the normalised, scaled row. -/
def hrow (x g : Fin 1024 → EReal) (d : Fin 1024) : EReal := ((x d - mean x) * Ideal.rsqrt (var x + epsE)) * g d

theorem c1024_eq : c1024 = ((1024 : ℝ) : EReal) := Cert.Consts.ofBits_1024
theorem epsE_eq : epsE = ((Cert.Consts.eps : ℝ) : EReal) := Cert.Consts.ofBits_eps

/-- A normalised row of reals scaled by reals is real. -/
theorem fin_hrow (x g : Fin 1024 → EReal) (hx : ∀ k, Fin' (x k)) (hg : ∀ k, Fin' (g k)) (d : Fin 1024) :
    Fin' (hrow x g d) := by
  choose x' hx' using fun k => (hx k).exists_real
  obtain rfl : x = fun k => ((x' k : ℝ) : EReal) := funext hx'
  have hmean : mean (fun k => ((x' k : ℝ) : EReal)) = (((∑ k, x' k) / 1024 : ℝ) : EReal) := by
    unfold mean; rw [c1024_eq, Cert.Lib.Finite.coe_sum, div_coe_coe _ (by norm_num)]
  have hvar : var (fun k => ((x' k : ℝ) : EReal)) = (((∑ k, (x' k - (∑ k, x' k) / 1024) * (x' k - (∑ k, x' k) / 1024)) / 1024 : ℝ) : EReal) := by
    unfold var; rw [hmean, c1024_eq]
    simp only [← EReal.coe_sub, ← EReal.coe_mul]
    rw [Cert.Lib.Finite.coe_sum, div_coe_coe _ (by norm_num)]
  have hv : 0 ≤ (∑ k, (x' k - (∑ k, x' k) / 1024) * (x' k - (∑ k, x' k) / 1024)) / 1024 :=
    div_nonneg (Finset.sum_nonneg fun k _ => mul_self_nonneg _) (by norm_num)
  unfold hrow
  rw [hvar, hmean, epsE_eq, ← EReal.coe_add]
  have hpos : 0 < (∑ k, (x' k - (∑ k, x' k) / 1024) * (x' k - (∑ k, x' k) / 1024)) / 1024 + Cert.Consts.eps :=
    add_pos_of_nonneg_of_pos hv Cert.Consts.eps_pos
  have hrs : Ideal.rsqrt ((((∑ k, (x' k - (∑ k, x' k) / 1024) * (x' k - (∑ k, x' k) / 1024)) / 1024 + Cert.Consts.eps : ℝ)) : EReal)
      = (((Real.sqrt ((∑ k, (x' k - (∑ k, x' k) / 1024) * (x' k - (∑ k, x' k) / 1024)) / 1024 + Cert.Consts.eps))⁻¹ : ℝ) : EReal) := by
    show (if _ < 0 then (⊥ : EReal) else if _ = 0 then ⊤ else _) = _
    rw [if_neg (not_lt.mpr hpos.le), if_neg hpos.ne']
  rw [hrs]
  exact fin_mul (fin_mul (fin_sub (fin_coe _) (fin_coe _)) (fin_coe _)) (hg d)

/-- A contraction of two real rows is real. -/
theorem fin_dot {n : ℕ} (a b : Fin n → EReal) (ha : ∀ k, Fin' (a k)) (hb : ∀ k, Fin' (b k)) : Fin' (∑ k, a k * b k) :=
  fin_sum_univ _ fun k => fin_mul (ha k) (hb k)

/-! ## One query row of attention -/

variable {δ : Type*}

/-- The four-tile running computation on extended-real scores and values. -/
def runE (S : Fin 2048 → EReal) (V : Fin 2048 → δ → EReal) : State δ :=
  let tile (k : Fin 4) (st : State δ) : State δ := step (fun j : Fin 512 => S (key k j)) (fun j d => V (key k j) d) st
  tile 3 (tile 2 (tile 1 (tile 0 (init δ))))

/-- Its quotient. -/
def kerRow (S : Fin 2048 → EReal) (V : Fin 2048 → δ → EReal) (d : δ) : EReal := Ideal.div ((runE S V).acc d) (runE S V).l

/-- The softmax row taken at once with shift M, its normalizer summed from z, contracted with the values. -/
def refRow (S : Fin 2048 → EReal) (V : Fin 2048 → δ → EReal) (M z : EReal) (d : δ) : EReal :=
  ∑ j, Ideal.div (Ideal.exp (S j - M)) (z + ∑ i, Ideal.exp (S i - M)) * V j d

/-- With real scores, real values, a real shift and the normalizer summed from zero, the two agree. -/
theorem rows_agree (S : Fin 2048 → EReal) (V : Fin 2048 → δ → EReal) (M : EReal)
    (hS : ∀ j, Fin' (S j)) (hV : ∀ j d, Fin' (V j d)) (hM : Fin' M) (d : δ) :
    kerRow S V d = refRow S V M 0 d := by
  choose σ hσ using fun j => (hS j).exists_real
  choose ν hν using fun j d => (hV j d).exists_real
  obtain ⟨μ, rfl⟩ := hM.exists_real
  obtain rfl : S = fun j => ((σ j : ℝ) : EReal) := funext hσ
  obtain rfl : V = fun j d => ((ν j d : ℝ) : EReal) := funext fun j => funext fun d => hν j d
  exact (run_quotient σ ν d).trans (softmax_contract σ ν μ d).symm

end Cert.Spec

end
-- ==== Proof.LibMatmulRowCol.lean ====
/-
  A plain matrix product into a zero accumulator, read at an entry, at the ideal values.

  For any dimension numbers over an [M, K] left operand, a [K, N] right operand and an [M, N] result that
  contract the left operand's second axis against the right operand's first (stated as four coordinate facts
  about the dimension numbers' operand indices, which a literal record proves by unfolding), entry (p, c) of
  `matmul D none X W 0` is the sum over k of X p k · W k c. General in M, K, N and in both operand formats;
  nothing in it is specific to one kernel.
-/
import Idealize.ShloMosaic.Lib.ValueIdx
import Idealize.ShloMosaic.PureOps.Ideal.Laws

noncomputable section

namespace Cert.LibMatmul

open Idealize.ShloMosaic Idealize.ShloMosaic.ValueIdx

/-- For dimension numbers contracting the left operand's columns against the right operand's rows
    (the four coordinate facts hl0 … hr1 say so), entry (p, c) of the product into a zero accumulator
    is Σ_k X p k · W k c. -/
theorem matmul_rowcol {M K N : Nat} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (X : FVec Ideal ⟨2, ![M, K]⟩ φ₁) (W : FVec Ideal ⟨2, ![K, N]⟩ φ₂) (p : Fin M) (c : Fin N) :
    matmul D none X W (constant ⟨2, ![M, N]⟩ .f32 0x00000000#32) (ix2 p c)
      = ∑ k : Fin K, X (ix2 p k) * W (ix2 k c) := by
  refine (Ideal.matmul_constant_zero_apply D none X W (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibMatmul

end
-- ==== Proof.LibColumn.lean ====
/-
  Column forms of two layout operations, read at an index.

  A vector of length `a` viewed as an `[a, 1]` column by a shape cast reads, at `(p, 0)`, the vector at `p`, and the column
  viewed back as a vector reads, at `p`, the column at `(p, 0)`; an `[a, 1]` column broadcast along its unit axis to `[a, b]`
  reads, at `(p, q)`, the column at `(p, 0)`. Together they are what a sum along the last axis that keeps the axis (a row
  sum stored as a column, then spread over the row) reads at an index.
-/
import Idealize.ShloMosaic.Lib.Pipeline.Value
import Idealize.ShloMosaic.Lib.ValueIdx

namespace Cert.Lib.Column

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column cast to `[a]` reads, at `p`, the column's entry of row `p`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- An `[a, 1]` column broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.LibMatmulRowRow.lean ====
/-
  A matrix product against a transposed right operand, into a zero accumulator, read at an entry, at the
  ideal values.

  For any dimension numbers over an [M, K] left operand, an [N, K] right operand and an [M, N] result that
  contract the left operand's second axis against the right operand's SECOND axis (stated as four
  coordinate facts about the dimension numbers' operand indices, which a literal record proves by
  unfolding), entry (p, c) of the product into a zero accumulator is the sum over k of X p k · W c k: the
  scores of an attention tile, queries against keys.  General in M, K, N and in both operand formats.
-/
import Idealize.ShloMosaic.Lib.ValueIdx
import Idealize.ShloMosaic.PureOps.Ideal.Laws

noncomputable section

namespace Cert.LibMatmul

open Idealize.ShloMosaic Idealize.ShloMosaic.ValueIdx

/-- For dimension numbers contracting the left operand's columns against the right operand's columns,
    entry (p, c) of the product into a zero accumulator is Σ_k X p k · W c k. -/
theorem matmul_rowrow {M K N : Nat} {φ₁ φ₂ : FTy}
    (D : DotDims ⟨2, ![M, K]⟩ ⟨2, ![N, K]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (X : FVec Ideal ⟨2, ![M, K]⟩ φ₁) (W : FVec Ideal ⟨2, ![N, K]⟩ φ₂) (p : Fin M) (c : Fin N) :
    matmul D none X W (constant ⟨2, ![M, N]⟩ .f32 0x00000000#32) (ix2 p c)
      = ∑ k : Fin K, X (ix2 p k) * W (ix2 c k) := by
  refine (Ideal.matmul_constant_zero_apply D none X W (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 c k := funext fun a => Fin.ext (by
    match a with
    | ⟨0, _⟩ => exact hr0 _ _
    | ⟨1, _⟩ => exact (hr1 _ _).trans hk)
  rw [el, er]

end Cert.LibMatmul

end
-- ==== Proof.IdealPay.lean ====
/-
  The two kernels' arithmetic read at an index, at the ideal values.

  First call: entry (r, d) of the normalised, scaled tile, and an output tile's entry (r, e) as the
  contraction over d of the normalised row r with column e of the transposed weight.
  Second call: a score is the contraction of a query row with a key row; at row r one key tile's update of
  the three scratch buffers is one step of the running softmax on that row's scores and the value tile;
  the output tile's entry (r, e) is the contraction over d of numerator / normalizer with column e of the
  transposed output weight.
-/
import proofs.«143834_j38010460570082_2_alg».proof.Proof.Gen.KernelIdeal.Skeleton
import proofs.«143834_j38010460570082_2_alg».proof.Proof.Spec
import proofs.«143834_j38010460570082_2_alg».proof.Proof.LibMatmulRowCol
import proofs.«143834_j38010460570082_2_alg».proof.Proof.LibColumn
import proofs.«143834_j38010460570082_2_alg».proof.Proof.LibMatmulRowRow
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx Cert.Lib.Column

open Cert.LibMatmul Cert.Lib.OnlineSoftmax

theorem rsqrt_apply {s : Shape} {φ : FTy} (a : FVec Ideal s φ) (i : s.Idx) : rsqrt a i = Ideal.rsqrt (a i) := rfl
theorem exp_apply {s : Shape} {φ : FTy} (a : FVec Ideal s φ) (i : s.Idx) : exp a i = Ideal.exp (a i) := rfl

/-! ## The dimension numbers' coordinate facts -/

theorem D0_l0 (i q) : (dot_S512x1024_S1024x1024_S512x1024_1_0_0_1_n_n.lhsIdx i q 0).val = (i 0).val := by
  unfold DotDims.lhsIdx
  rw [dif_neg (show ¬(0 : Fin _) ∈ dot_S512x1024_S1024x1024_S512x1024_1_0_0_1_n_n.lhsBatch by decide), dif_pos (show (0 : Fin _) ∈ dot_S512x1024_S1024x1024_S512x1024_1_0_0_1_n_n.lhsNonContracting by decide)]
  rfl
theorem D0_l1 (i q) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem D0_r0 (i q) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem D0_r1 (i q) : (dot_S512x1024_S1024x1024_S512x1024_1_0_0_1_n_n.rhsIdx i q 1).val = (i 1).val := by
  unfold DotDims.rhsIdx
  rw [dif_neg (show ¬(1 : Fin _) ∈ dot_S512x1024_S1024x1024_S512x1024_1_0_0_1_n_n.rhsBatch by decide), dif_pos (show (1 : Fin _) ∈ dot_S512x1024_S1024x1024_S512x1024_1_0_0_1_n_n.rhsNonContracting by decide)]
  rfl

theorem D1_l0 (i q) : (dot_S1024x1024_S512x1024_S1024x512_1_1_0_0_n_n.lhsIdx i q 0).val = (i 0).val := by
  unfold DotDims.lhsIdx
  rw [dif_neg (show ¬(0 : Fin _) ∈ dot_S1024x1024_S512x1024_S1024x512_1_1_0_0_n_n.lhsBatch by decide), dif_pos (show (0 : Fin _) ∈ dot_S1024x1024_S512x1024_S1024x512_1_1_0_0_n_n.lhsNonContracting by decide)]
  rfl
theorem D1_l1 (i q) : (dot_S1024x1024_S512x1024_S1024x512_1_1_0_0_n_n.lhsIdx i q 1).val = (q ⟨0, by decide⟩).val :=
  dot_S1024x1024_S512x1024_S1024x512_1_1_0_0_n_n.lhsIdx_val_of_single rfl i q
theorem D1_r0 (i q) : (dot_S1024x1024_S512x1024_S1024x512_1_1_0_0_n_n.rhsIdx i q 0).val = (i 1).val := by
  unfold DotDims.rhsIdx
  rw [dif_neg (show ¬(0 : Fin _) ∈ dot_S1024x1024_S512x1024_S1024x512_1_1_0_0_n_n.rhsBatch by decide), dif_pos (show (0 : Fin _) ∈ dot_S1024x1024_S512x1024_S1024x512_1_1_0_0_n_n.rhsNonContracting by decide)]
  rfl
theorem D1_r1 (i q) : (dot_S1024x1024_S512x1024_S1024x512_1_1_0_0_n_n.rhsIdx i q 1).val = (q ⟨0, by decide⟩).val :=
  dot_S1024x1024_S512x1024_S1024x512_1_1_0_0_n_n.rhsIdx_val_of_single rfl i q

theorem D2_l0 (i q) : (dot_S1024x512_S512x1024_S1024x1024_1_0_0_1_n_n.lhsIdx i q 0).val = (i 0).val := by
  unfold DotDims.lhsIdx
  rw [dif_neg (show ¬(0 : Fin _) ∈ dot_S1024x512_S512x1024_S1024x1024_1_0_0_1_n_n.lhsBatch by decide), dif_pos (show (0 : Fin _) ∈ dot_S1024x512_S512x1024_S1024x1024_1_0_0_1_n_n.lhsNonContracting by decide)]
  rfl
theorem D2_l1 (i q) : (dot_S1024x512_S512x1024_S1024x1024_1_0_0_1_n_n.lhsIdx i q 1).val = (q ⟨0, by decide⟩).val :=
  dot_S1024x512_S512x1024_S1024x1024_1_0_0_1_n_n.lhsIdx_val_of_single rfl i q
theorem D2_r0 (i q) : (dot_S1024x512_S512x1024_S1024x1024_1_0_0_1_n_n.rhsIdx i q 0).val = (q ⟨0, by decide⟩).val :=
  dot_S1024x512_S512x1024_S1024x1024_1_0_0_1_n_n.rhsIdx_val_of_single rfl i q
theorem D2_r1 (i q) : (dot_S1024x512_S512x1024_S1024x1024_1_0_0_1_n_n.rhsIdx i q 1).val = (i 1).val := by
  unfold DotDims.rhsIdx
  rw [dif_neg (show ¬(1 : Fin _) ∈ dot_S1024x512_S512x1024_S1024x1024_1_0_0_1_n_n.rhsBatch by decide), dif_pos (show (1 : Fin _) ∈ dot_S1024x512_S512x1024_S1024x1024_1_0_0_1_n_n.rhsNonContracting by decide)]
  rfl

theorem D3_l0 (i q) : (dot_S1024x1024_S1024x1024_S1024x1024_1_0_0_1_n_n.lhsIdx i q 0).val = (i 0).val := by
  unfold DotDims.lhsIdx
  rw [dif_neg (show ¬(0 : Fin _) ∈ dot_S1024x1024_S1024x1024_S1024x1024_1_0_0_1_n_n.lhsBatch by decide), dif_pos (show (0 : Fin _) ∈ dot_S1024x1024_S1024x1024_S1024x1024_1_0_0_1_n_n.lhsNonContracting by decide)]
  rfl
theorem D3_l1 (i q) : (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem D3_r0 (i q) : (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem D3_r1 (i q) : (dot_S1024x1024_S1024x1024_S1024x1024_1_0_0_1_n_n.rhsIdx i q 1).val = (i 1).val := by
  unfold DotDims.rhsIdx
  rw [dif_neg (show ¬(1 : Fin _) ∈ dot_S1024x1024_S1024x1024_S1024x1024_1_0_0_1_n_n.rhsBatch by decide), dif_pos (show (1 : Fin _) ∈ dot_S1024x1024_S1024x1024_S1024x1024_1_0_0_1_n_n.rhsNonContracting by decide)]
  rfl

/-! ## Row reductions -/

theorem rowsum512 (v : FVec Ideal S512x1024 .f32) (r : Fin 512) :
    (FloatOps.reduceAdd [1] reduces_S512x1024_S512 v : FVec Ideal S512 .f32) (ix1 r) = ∑ k : Fin 1024, v (ix2 r k) :=
  (Ideal.multiReduction_add_single v 0x00000000#32 reduces_S512x1024_S512 (.inl rfl) rfl (ix1 r)).trans
    (Finset.sum_congr rfl fun k _ => congrArg v (funext fun a => Fin.ext (by match a with | ⟨0, _⟩ => rfl | ⟨1, _⟩ => rfl)))

theorem rowsum1024 (v : FVec Ideal S1024x512 .f32) (r : Fin 1024) :
    (FloatOps.reduceAdd [1] reduces_S1024x512_S1024 v : FVec Ideal S1024 .f32) (ix1 r) = ∑ k : Fin 512, v (ix2 r k) :=
  (Ideal.multiReduction_add_single v 0x00000000#32 reduces_S1024x512_S1024 (.inl rfl) rfl (ix1 r)).trans
    (Finset.sum_congr rfl fun k _ => congrArg v (funext fun a => Fin.ext (by match a with | ⟨0, _⟩ => rfl | ⟨1, _⟩ => rfl)))

theorem rowmax1024 (v : FVec Ideal S1024x512 .f32) (r : Fin 1024) :
    (reduceFold reduces_S1024x512_S1024 FloatOps.maximumf (FloatOps.ofBits .f32 0xFF800000#32) v : FVec Ideal S1024 .f32) (ix1 r)
      = (Finset.univ : Finset (Fin 512)).fold max ⊥ (fun j => v (ix2 r j)) := by
  refine (Ideal.multiReduction_maximumf_single v 0xFF800000#32 reduces_S1024x512_S1024 (.inl rfl) rfl (ix1 r)).trans ?_
  rw [show (FloatOps.ofBits .f32 0xFF800000#32 : Ideal .f32) = (⊥ : EReal) from Cert.Consts.ofBits_neg_inf]
  exact congrArg (fun f => Finset.fold max (⊥ : EReal) f (Finset.univ : Finset (Fin 512))) (funext fun k => congrArg v (funext fun a => Fin.ext (by match a with | ⟨0, _⟩ => rfl | ⟨1, _⟩ => rfl)))

/-! ## The first call -/

set_option backward.isDefEq.respectTransparency.types false in
/-- The normalised, scaled row of a tile at (r, d). -/
theorem pay3_apply (x0 : FVec Ideal S1x512x1024 .f32) (x1 : FVec Ideal S1024 .f32) (r : Fin 512) (d : Fin 1024) :
    k0_pay3 (F := Ideal) x0 x1 (ix2 r d) = Cert.Spec.hrow (fun k => x0 (ix3 (0 : Fin 1) r k)) (fun k => x1 (ix1 k)) d := by
  unfold k0_pay3 Cert.Spec.hrow Cert.Spec.mean Cert.Spec.var Cert.Spec.c1024 Cert.Spec.epsE
  dsimp only
  simp only [multiReduction]
  simp only [truncf_apply, mulf_apply, subf_apply, addf_apply, divf_apply, rsqrt_apply, broadcastTo_a1_ab_apply, broadcastTo_1b_ab_apply, shapeCast_a_a1_apply, shapeCast_a_1a_apply, shapeCast_1ab_ab_apply, broadcast_apply]
  rw [rowsum512, rowsum512]
  simp only [truncf_apply, mulf_apply, subf_apply, addf_apply, divf_apply, rsqrt_apply, broadcastTo_a1_ab_apply, broadcastTo_1b_ab_apply, shapeCast_a_a1_apply, shapeCast_a_1a_apply, shapeCast_1ab_ab_apply, broadcast_apply]
  rw [rowsum512]
  simp only [truncf_apply, mulf_apply, subf_apply, addf_apply, divf_apply, rsqrt_apply, broadcastTo_a1_ab_apply, broadcastTo_1b_ab_apply, shapeCast_a_a1_apply, shapeCast_a_1a_apply, shapeCast_1ab_ab_apply, broadcast_apply, Cert.Spec.mean, Cert.Spec.c1024, Ideal.ofBits_def]

/-- A projection of the normalised tile h against a weight tile w, narrowed and given a leading unit axis, at (u, r, e). -/
theorem proj_apply (h : FVec Ideal S512x1024 .bf16) (w : FVec Ideal S1024x1024 .bf16) (u : Fin 1) (r : Fin 512) (e : Fin 1024) :
    (shapeCast S1x512x1024 (truncf .bf16 (matmul dot_S512x1024_S1024x1024_S512x1024_1_0_0_1_n_n none h (shapeCast S1024x1024 w shapeCasts_S1024x1024_S1024x1024) (constant S512x1024 .f32 0x00000000#32)) bitsLt_bf16_f32) shapeCasts_S512x1024_S1x512x1024 : FVec Ideal S1x512x1024 .bf16) (ix3 u r e)
      = ∑ d : Fin 1024, h (ix2 r d) * w (ix2 d e) := by
  rw [shapeCast_ab_1ab_apply, truncf_apply, shapeCast_self]
  exact matmul_rowcol dot_S512x1024_S1024x1024_S512x1024_1_0_0_1_n_n rfl rfl D0_l0 D0_l1 D0_r0 D0_r1 h w r e

theorem pay4_apply (x0 : FVec Ideal S1x512x1024 .f32) (x1 : FVec Ideal S1024 .f32) (w : FVec Ideal S1024x1024 .bf16) (u : Fin 1) (r : Fin 512) (e : Fin 1024) :
    k0_pay4 (F := Ideal) x0 x1 w (ix3 u r e) = ∑ d : Fin 1024, Cert.Spec.hrow (fun k => x0 (ix3 (0 : Fin 1) r k)) (fun k => x1 (ix1 k)) d * w (ix2 d e) := by
  unfold k0_pay4; try dsimp only
  rw [proj_apply]
  exact Finset.sum_congr rfl fun d _ => by rw [pay3_apply]

theorem pay1_5_apply (x0 : FVec Ideal S1x512x1024 .f32) (x1 : FVec Ideal S1024 .f32) (w : FVec Ideal S1024x1024 .bf16) (u : Fin 1) (r : Fin 512) (e : Fin 1024) :
    k0_pay1 (F := Ideal) (k0_pay5 x0 x1 w) (ix3 u r e) = ∑ d : Fin 1024, Cert.Spec.hrow (fun k => x0 (ix3 (0 : Fin 1) r k)) (fun k => x1 (ix1 k)) d * w (ix2 d e) := by
  unfold k0_pay1 k0_pay5; try dsimp only
  rw [proj_apply]
  exact Finset.sum_congr rfl fun d _ => by rw [pay3_apply]

theorem pay2_3_apply (x0 : FVec Ideal S1x512x1024 .f32) (x1 : FVec Ideal S1024 .f32) (w : FVec Ideal S1024x1024 .bf16) (u : Fin 1) (r : Fin 512) (e : Fin 1024) :
    k0_pay2 (F := Ideal) (k0_pay3 x0 x1) w (ix3 u r e) = ∑ d : Fin 1024, Cert.Spec.hrow (fun k => x0 (ix3 (0 : Fin 1) r k)) (fun k => x1 (ix1 k)) d * w (ix2 d e) := by
  unfold k0_pay2; try dsimp only
  rw [proj_apply]
  exact Finset.sum_congr rfl fun d _ => by rw [pay3_apply]

/-! ## The second call -/

/-- A score: query row r against key row j. -/
theorem score_apply (q : FVec Ideal S1x1024x1024 .bf16) (k : FVec Ideal S1x512x1024 .bf16) (r : Fin 1024) (j : Fin 512) :
    k1_pay7 (F := Ideal) q k (ix2 r j) = ∑ e : Fin 1024, q (ix3 (0 : Fin 1) r e) * k (ix3 (0 : Fin 1) j e) := by
  unfold k1_pay7; try dsimp only
  refine (matmul_rowrow dot_S1024x1024_S512x1024_S1024x512_1_1_0_0_n_n rfl rfl D1_l0 D1_l1 D1_r0 D1_r1 _ _ r j).trans ?_
  simp only [shapeCast_1ab_ab_apply]

/-- Row r of the three scratch buffers as one state. -/
def rowState (m l : FVec Ideal S1024x1 .f32) (acc : FVec Ideal S1024x1024 .f32) (r : Fin 1024) : State (Fin 1024) :=
  ⟨m (ix2 r (0 : Fin 1)), l (ix2 r (0 : Fin 1)), fun d => acc (ix2 r d)⟩

end Cert.KernelIdeal.Pay

end
-- ==== Proof.IdealPay1.lean ====
/-
  The second call's scratch update and output tile read at a row, at the ideal values.
-/
import proofs.«143834_j38010460570082_2_alg».proof.Proof.IdealPay

noncomputable section

namespace Cert.KernelIdeal.Pay

open Cert.KernelIdeal Cert.KernelIdeal.Gen Idealize.ShloMosaic Idealize.ShloMosaic.ValueIdx Cert.Lib.Column Cert.LibMatmul Cert.Lib.OnlineSoftmax

variable (q : FVec Ideal S1x1024x1024 .bf16) (k v : FVec Ideal S1x512x1024 .bf16) (m l : FVec Ideal S1024x1 .f32) (acc : FVec Ideal S1024x1024 .f32)

/-- The new running maximum of row r. -/
theorem pay8_apply (r : Fin 1024) :
    k1_pay8 (F := Ideal) q k m (ix2 r (0 : Fin 1)) = max (m (ix2 r (0 : Fin 1))) ((Finset.univ : Finset (Fin 512)).fold max ⊥ (fun j => k1_pay7 (F := Ideal) q k (ix2 r j))) := by
  unfold k1_pay8
  simp only [multiReduction]
  simp only [maximumf_apply, shapeCast_a_a1_apply]
  rw [rowmax1024]

/-- The rescaling factor of row r. -/
theorem pay9_apply (m' : FVec Ideal S1024x1 .f32) (r : Fin 1024) :
    k1_pay9 (F := Ideal) q k m m' (ix2 r (0 : Fin 1)) = Ideal.exp (m' (ix2 r (0 : Fin 1)) - k1_pay8 (F := Ideal) q k m (ix2 r (0 : Fin 1))) := by
  unfold k1_pay9
  simp only [exp_apply, subf_apply]

/-- The tile's exponentials. -/
theorem pay10_apply (r : Fin 1024) (j : Fin 512) :
    k1_pay10 (F := Ideal) q k m (ix2 r j) = Ideal.exp (k1_pay7 (F := Ideal) q k (ix2 r j) - k1_pay8 (F := Ideal) q k m (ix2 r (0 : Fin 1))) := by
  unfold k1_pay10
  simp only [exp_apply, subf_apply, broadcastTo_a1_ab_apply]

/-- The new normalizer of row r. -/
theorem pay11_apply (m' : FVec Ideal S1024x1 .f32) (r : Fin 1024) :
    k1_pay11 (F := Ideal) q k m m' l (ix2 r (0 : Fin 1))
      = k1_pay9 (F := Ideal) q k m m' (ix2 r (0 : Fin 1)) * l (ix2 r (0 : Fin 1)) + ∑ j : Fin 512, k1_pay10 (F := Ideal) q k m (ix2 r j) := by
  unfold k1_pay11
  simp only [multiReduction]
  simp only [shapeCast_self, addf_apply, mulf_apply, shapeCast_a_a1_apply]
  rw [rowsum1024]

/-- The rescaled numerator. -/
theorem pay12_apply (m' : FVec Ideal S1024x1 .f32) (r : Fin 1024) (d : Fin 1024) :
    k1_pay12 (F := Ideal) q k m m' acc (ix2 r d) = k1_pay9 (F := Ideal) q k m m' (ix2 r (0 : Fin 1)) * acc (ix2 r d) := by
  unfold k1_pay12
  simp only [mulf_apply, broadcastTo_a1_ab_apply]

/-- The new numerator: the rescaled one plus the tile's exponentials against the value tile. -/
theorem pay1_apply (a : FVec Ideal S1024x1024 .f32) (p : FVec Ideal S1024x512 .bf16) (r : Fin 1024) (d : Fin 1024) :
    k1_pay1 (F := Ideal) a p v (ix2 r d) = a (ix2 r d) + ∑ j : Fin 512, p (ix2 r j) * v (ix3 (0 : Fin 1) j d) := by
  unfold k1_pay1
  simp only [shapeCast_self, addf_apply]
  refine congrArg (a (ix2 r d) + ·) ?_
  refine (matmul_rowcol dot_S1024x512_S512x1024_S1024x1024_1_0_0_1_n_n rfl rfl D2_l0 D2_l1 D2_r0 D2_r1 _ _ r d).trans ?_
  simp only [shapeCast_1ab_ab_apply]

/-- One key tile's update of row r of the scratch buffers is one step of the running softmax on the row's
    scores against the tile's keys and on the tile's values. -/
theorem upd_row (r : Fin 1024) :
    rowState (k1_pay2 (F := Ideal) (k1_pay8 q k m)) (k1_pay11 (F := Ideal) q k m m l) (k1_pay1 (F := Ideal) (k1_pay12 q k m m acc) (k1_pay13 q k m) v) r
      = step (fun j : Fin 512 => ∑ e : Fin 1024, q (ix3 (0 : Fin 1) r e) * k (ix3 (0 : Fin 1) j e)) (fun j d => v (ix3 (0 : Fin 1) j d)) (rowState m l acc r) := by
  have hs : (fun j : Fin 512 => ∑ e : Fin 1024, q (ix3 (0 : Fin 1) r e) * k (ix3 (0 : Fin 1) j e)) = fun j => k1_pay7 (F := Ideal) q k (ix2 r j) :=
    funext fun j => (score_apply q k r j).symm
  rw [hs]
  unfold rowState step
  simp only [State.mk.injEq]
  refine ⟨?_, ?_, ?_⟩
  · unfold k1_pay2; rw [shapeCast_self, pay8_apply]
  · rw [pay11_apply, pay9_apply, pay8_apply]
    simp only [pay10_apply, pay8_apply]
  · funext d
    rw [pay1_apply, pay12_apply, pay9_apply, pay8_apply]
    unfold k1_pay13
    simp only [truncf_apply, pay10_apply, pay8_apply]

/-- The output tile at (u, r, e): the quotient row against column e of the transposed output weight. -/
theorem pay3_out_apply (a : FVec Ideal S1024x1024 .f32) (n : FVec Ideal S1024x1 .f32) (w : FVec Ideal S1024x1024 .bf16) (u : Fin 1) (r : Fin 1024) (e : Fin 1024) :
    k1_pay3 (F := Ideal) a n w (ix3 u r e) = ∑ d : Fin 1024, Ideal.div (a (ix2 r d)) (n (ix2 r (0 : Fin 1))) * w (ix2 d e) := by
  unfold k1_pay3
  rw [shapeCast_ab_1ab_apply]
  refine (matmul_rowcol dot_S1024x1024_S1024x1024_S1024x1024_1_0_0_1_n_n rfl rfl D3_l0 D3_l1 D3_r0 D3_r1 _ _ r e).trans ?_
  simp only [truncf_apply, divf_apply, broadcastTo_a1_ab_apply, shapeCast_self]

end Cert.KernelIdeal.Pay

end
-- ==== Proof.IdealArr0.lean ====
/-
  The first pallas_call's three output arrays as whole-array functions of the arrays it reads: entry
  (b, s, e) is the contraction over d of the normalised, scaled row (b, s) of x with entry (d, e) of the
  transposed weight.  Each grid point writes back one tile of 512 rows; the tiles cover the array.
-/
import proofs.«143834_j38010460570082_2_alg».proof.Proof.IdealValue0
import proofs.«143834_j38010460570082_2_alg».proof.Proof.IdealPay
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.KernelIdeal.Pay Idealize.ShloMosaic.ValueIdx

/-- An index of a rank-3 array with its last coordinate replaced. -/
abbrev lastTo (i : S4x2048x1024.Idx) (k : Fin 1024) : S4x2048x1024.Idx := fun a => match a with
  | ⟨0, _⟩ => ⟨(i 0).val, (i 0).isLt⟩
  | ⟨1, _⟩ => ⟨(i 1).val, (i 1).isLt⟩
  | ⟨2, _⟩ => ⟨k.val, k.isLt⟩

/-- The projection of the normalised rows: entry i is the contraction of the normalised, scaled row of x
    through i with the column of w at i's last coordinate. -/
def Gproj (x : S4x2048x1024.Idx → EReal) (g : S1024.Idx → EReal) (w : S1024x1024.Idx → EReal) : S4x2048x1024.Idx → EReal :=
  fun i => ∑ d : Fin 1024, Cert.Spec.hrow (fun k => x (lastTo i k)) (fun k => g (ix1 k)) d * w (ix2 d ⟨(i 2).val, (i 2).isLt⟩)

section

variable (V : (c : Dev nD) → (b : Ref sig .tc) → Buf (Elt Ideal) ((c : Thread nD τ).loc b))

/-- The printed index maps of output window 5 and the windows its payload reads, decided over the grid. -/
theorem idx_facts5 : ∀ t : Fin cfg0.N, win0_0.index t (0 : Fin 3) = win0_5.index t (0 : Fin 3)
    ∧ win0_0.index t (1 : Fin 3) = win0_5.index t (1 : Fin 3)
    ∧ win0_0.index t (2 : Fin 3) = 0 ∧ win0_5.index t (2 : Fin 3) = 0
    ∧ win0_1.index t (0 : Fin 1) = 0
    ∧ win0_2.index t (0 : Fin 2) = 0 ∧ win0_2.index t (1 : Fin 2) = 0
    ∧ win0_5.index t (0 : Fin 3) ≤ 3 ∧ win0_5.index t (1 : Fin 3) ≤ 3 :=
  (by decide +kernel : ∀ t : Fin grid0.N, _)

/-- Every block of output window 5's array is some point's. -/
theorem idx_onto5 : ∀ (q0 : Fin 4) (q1 : Fin 4), ∃ t : Fin cfg0.N, win0_5.index t = ![q0.val, q1.val, 0] :=
  (by decide +kernel : ∀ (q0 : Fin 4) (q1 : Fin 4), ∃ t : Fin grid0.N, win0_5.index t = ![q0.val, q1.val, 0])

/-- What point t writes back through window 5 is block t of the projection of the normalised rows. -/
theorem flushed0_5_eq (c : Dev nD) (t : Fin cfg0.N) :
    (dat0 V c).flushed 5 t = ((cfg0.win 5).blk t).view.read (Elt Ideal) (Gproj (V c main_arg0) (V c main_arg1) (V c main_v1)) := by
  show (cfg0.win 5).cut (grid0.coords t) ((dat0 V c).after 5 t) = _
  rw [after0_5, out0_5_eq]
  obtain ⟨e0, e1, e2, e3, e4, e5, e6, e7, e8⟩ := idx_facts5 t
  funext j
  obtain ⟨u, r, e, rfl⟩ : ∃ (u : Fin 1) (r : Fin 512) (e : Fin 1024), j = ix3 u r e := ⟨j 0, j 1, j 2, eq_ix3 j⟩
  rw [View.read_apply]
  refine (pay4_apply (blk0 V c 0 t) (blk0 V c 1 t) (blk0 V c 2 t) u r e).trans ?_
  unfold Gproj
  refine Finset.sum_congr rfl fun d _ => ?_
  have hx : (fun k : Fin 1024 => blk0 V c 0 t (ix3 (0 : Fin 1) r k)) = fun k : Fin 1024 => V c main_arg0 (lastTo (((cfg0.win 5).blk t).view.emb (ix3 u r e)) k) := by
    funext k
    show V c main_arg0 (((cfg0.win 0).blk t).view.emb (ix3 (0 : Fin 1) r k)) = _
    refine congrArg (V c main_arg0) (funext fun a => Fin.ext ?_)
    have hu : u.val = 0 := by omega
    match a with
    | ⟨0, _⟩ => show win0_0.index t (0 : Fin 3) * 1 + 1 * 0 = win0_5.index t (0 : Fin 3) * 1 + 1 * u.val; omega
    | ⟨1, _⟩ => show win0_0.index t (1 : Fin 3) * 512 + 1 * r.val = win0_5.index t (1 : Fin 3) * 512 + 1 * r.val; omega
    | ⟨2, _⟩ => show win0_0.index t (2 : Fin 3) * 1024 + 1 * k.val = k.val; omega
  have hg : (fun k : Fin 1024 => blk0 V c 1 t (ix1 k)) = fun k : Fin 1024 => V c main_arg1 (ix1 k) := by
    funext k
    show V c main_arg1 (((cfg0.win 1).blk t).view.emb (ix1 k)) = _
    refine congrArg (V c main_arg1) (funext fun a => Fin.ext ?_)
    match a with
    | ⟨0, _⟩ => show win0_1.index t (0 : Fin 1) * 1024 + 1 * k.val = k.val; omega
  have hw : blk0 V c 2 t (ix2 d e) = V c main_v1 (ix2 d ⟨((((cfg0.win 5).blk t).view.emb (ix3 u r e)) 2).val, ((((cfg0.win 5).blk t).view.emb (ix3 u r e)) 2).isLt⟩) := by
    show V c main_v1 (((cfg0.win 2).blk t).view.emb (ix2 d e)) = _
    refine congrArg (V c main_v1) (funext fun a => Fin.ext ?_)
    match a with
    | ⟨0, _⟩ => show win0_2.index t (0 : Fin 2) * 1024 + 1 * d.val = d.val; omega
    | ⟨1, _⟩ => show win0_2.index t (1 : Fin 2) * 1024 + 1 * e.val = win0_5.index t (2 : Fin 3) * 1024 + 1 * e.val; omega
  rw [hx, hg, hw]

/-- An index of the array is in point t's block iff each coordinate is in the block's range on its axis. -/
theorem mem_blk0_5 (t : Fin cfg0.N) (i : S4x2048x1024.Idx) :
    i ∈ ((cfg0.win 5).blk t).view.set ↔ ∀ a : Fin 3, win0_5.index t a * S1x512x1024.size a ≤ (i a).val ∧ (i a).val < win0_5.index t a * S1x512x1024.size a + S1x512x1024.size a := by
  show i ∈ ((View.whole (Pipeline.arrRef spec0 5)).slice (win0_5.rect t)).set ↔ _
  rw [View.set_slice_whole, Rect.mem_set_unit]
  exact Iff.rfl

/-- Every index of the array is in some point's block. -/
theorem cover0_arr5 (i : S4x2048x1024.Idx) : ∃ t : Fin cfg0.N, (cfg0.win 5).flush t = true ∧ i ∈ ((cfg0.win 5).blk t).view.set := by
  have hi0 : (i 0).val < 4 := (i 0).isLt
  have hi1 : (i 1).val < 2048 := (i 1).isLt
  have hi2 : (i 2).val < 1024 := (i 2).isLt
  obtain ⟨t, ht⟩ := idx_onto5 ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk0_5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 1024 ≤ (i 2).val ∧ (i 2).val < win0_5.index t (2 : Fin 3) * 1024 + 1024; omega

/-- The array after the first call. -/
theorem final0_5 (c : Dev nD) : (dat0 V c).arrAt 5 cfg0.N = Gproj (V c main_arg0) (V c main_arg1) (V c main_v1) :=
  (dat0 V c).arrAt_eq_of_cover 5 _ (fun t _ => flushed0_5_eq V c t) (cover0_arr5)

/-- The printed index maps of output window 6 and the windows its payload reads, decided over the grid. -/
theorem idx_facts6 : ∀ t : Fin cfg0.N, win0_0.index t (0 : Fin 3) = win0_6.index t (0 : Fin 3)
    ∧ win0_0.index t (1 : Fin 3) = win0_6.index t (1 : Fin 3)
    ∧ win0_0.index t (2 : Fin 3) = 0 ∧ win0_6.index t (2 : Fin 3) = 0
    ∧ win0_1.index t (0 : Fin 1) = 0
    ∧ win0_3.index t (0 : Fin 2) = 0 ∧ win0_3.index t (1 : Fin 2) = 0
    ∧ win0_6.index t (0 : Fin 3) ≤ 3 ∧ win0_6.index t (1 : Fin 3) ≤ 3 :=
  (by decide +kernel : ∀ t : Fin grid0.N, _)

/-- Every block of output window 6's array is some point's. -/
theorem idx_onto6 : ∀ (q0 : Fin 4) (q1 : Fin 4), ∃ t : Fin cfg0.N, win0_6.index t = ![q0.val, q1.val, 0] :=
  (by decide +kernel : ∀ (q0 : Fin 4) (q1 : Fin 4), ∃ t : Fin grid0.N, win0_6.index t = ![q0.val, q1.val, 0])

/-- What point t writes back through window 6 is block t of the projection of the normalised rows. -/
theorem flushed0_6_eq (c : Dev nD) (t : Fin cfg0.N) :
    (dat0 V c).flushed 6 t = ((cfg0.win 6).blk t).view.read (Elt Ideal) (Gproj (V c main_arg0) (V c main_arg1) (V c main_v3)) := by
  show (cfg0.win 6).cut (grid0.coords t) ((dat0 V c).after 6 t) = _
  rw [after0_6, out0_6_eq]
  obtain ⟨e0, e1, e2, e3, e4, e5, e6, e7, e8⟩ := idx_facts6 t
  funext j
  obtain ⟨u, r, e, rfl⟩ : ∃ (u : Fin 1) (r : Fin 512) (e : Fin 1024), j = ix3 u r e := ⟨j 0, j 1, j 2, eq_ix3 j⟩
  rw [View.read_apply]
  refine (pay1_5_apply (blk0 V c 0 t) (blk0 V c 1 t) (blk0 V c 3 t) u r e).trans ?_
  unfold Gproj
  refine Finset.sum_congr rfl fun d _ => ?_
  have hx : (fun k : Fin 1024 => blk0 V c 0 t (ix3 (0 : Fin 1) r k)) = fun k : Fin 1024 => V c main_arg0 (lastTo (((cfg0.win 6).blk t).view.emb (ix3 u r e)) k) := by
    funext k
    show V c main_arg0 (((cfg0.win 0).blk t).view.emb (ix3 (0 : Fin 1) r k)) = _
    refine congrArg (V c main_arg0) (funext fun a => Fin.ext ?_)
    have hu : u.val = 0 := by omega
    match a with
    | ⟨0, _⟩ => show win0_0.index t (0 : Fin 3) * 1 + 1 * 0 = win0_6.index t (0 : Fin 3) * 1 + 1 * u.val; omega
    | ⟨1, _⟩ => show win0_0.index t (1 : Fin 3) * 512 + 1 * r.val = win0_6.index t (1 : Fin 3) * 512 + 1 * r.val; omega
    | ⟨2, _⟩ => show win0_0.index t (2 : Fin 3) * 1024 + 1 * k.val = k.val; omega
  have hg : (fun k : Fin 1024 => blk0 V c 1 t (ix1 k)) = fun k : Fin 1024 => V c main_arg1 (ix1 k) := by
    funext k
    show V c main_arg1 (((cfg0.win 1).blk t).view.emb (ix1 k)) = _
    refine congrArg (V c main_arg1) (funext fun a => Fin.ext ?_)
    match a with
    | ⟨0, _⟩ => show win0_1.index t (0 : Fin 1) * 1024 + 1 * k.val = k.val; omega
  have hw : blk0 V c 3 t (ix2 d e) = V c main_v3 (ix2 d ⟨((((cfg0.win 6).blk t).view.emb (ix3 u r e)) 2).val, ((((cfg0.win 6).blk t).view.emb (ix3 u r e)) 2).isLt⟩) := by
    show V c main_v3 (((cfg0.win 3).blk t).view.emb (ix2 d e)) = _
    refine congrArg (V c main_v3) (funext fun a => Fin.ext ?_)
    match a with
    | ⟨0, _⟩ => show win0_3.index t (0 : Fin 2) * 1024 + 1 * d.val = d.val; omega
    | ⟨1, _⟩ => show win0_3.index t (1 : Fin 2) * 1024 + 1 * e.val = win0_6.index t (2 : Fin 3) * 1024 + 1 * e.val; omega
  rw [hx, hg, hw]

/-- An index of the array is in point t's block iff each coordinate is in the block's range on its axis. -/
theorem mem_blk0_6 (t : Fin cfg0.N) (i : S4x2048x1024.Idx) :
    i ∈ ((cfg0.win 6).blk t).view.set ↔ ∀ a : Fin 3, win0_6.index t a * S1x512x1024.size a ≤ (i a).val ∧ (i a).val < win0_6.index t a * S1x512x1024.size a + S1x512x1024.size a := by
  show i ∈ ((View.whole (Pipeline.arrRef spec0 6)).slice (win0_6.rect t)).set ↔ _
  rw [View.set_slice_whole, Rect.mem_set_unit]
  exact Iff.rfl

/-- Every index of the array is in some point's block. -/
theorem cover0_arr6 (i : S4x2048x1024.Idx) : ∃ t : Fin cfg0.N, (cfg0.win 6).flush t = true ∧ i ∈ ((cfg0.win 6).blk t).view.set := by
  have hi0 : (i 0).val < 4 := (i 0).isLt
  have hi1 : (i 1).val < 2048 := (i 1).isLt
  have hi2 : (i 2).val < 1024 := (i 2).isLt
  obtain ⟨t, ht⟩ := idx_onto6 ⟨(i 0).val, hi0⟩ ⟨(i 1).val / 512, by omega⟩
  have q0 : win0_6.index t (0 : Fin 3) = (i 0).val := congrFun ht 0
  have q1 : win0_6.index t (1 : Fin 3) = (i 1).val / 512 := congrFun ht 1
  have q2 : win0_6.index t (2 : Fin 3) = 0 := congrFun ht 2
  refine ⟨t, flush0_6 t, ?_⟩
  rw [mem_blk0_6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 1024 ≤ (i 2).val ∧ (i 2).val < win0_6.index t (2 : Fin 3) * 1024 + 1024; omega

/-- The array after the first call. -/
theorem final0_6 (c : Dev nD) : (dat0 V c).arrAt 6 cfg0.N = Gproj (V c main_arg0) (V c main_arg1) (V c main_v3) :=
  (dat0 V c).arrAt_eq_of_cover 6 _ (fun t _ => flushed0_6_eq V c t) (cover0_arr6)

/-- The printed index maps of output window 7 and the windows its payload reads, decided over the grid. -/
theorem idx_facts7 : ∀ t : Fin cfg0.N, win0_0.index t (0 : Fin 3) = win0_7.index t (0 : Fin 3)
    ∧ win0_0.index t (1 : Fin 3) = win0_7.index t (1 : Fin 3)
    ∧ win0_0.index t (2 : Fin 3) = 0 ∧ win0_7.index t (2 : Fin 3) = 0
    ∧ win0_1.index t (0 : Fin 1) = 0
    ∧ win0_4.index t (0 : Fin 2) = 0 ∧ win0_4.index t (1 : Fin 2) = 0
    ∧ win0_7.index t (0 : Fin 3) ≤ 3 ∧ win0_7.index t (1 : Fin 3) ≤ 3 :=
  (by decide +kernel : ∀ t : Fin grid0.N, _)

/-- Every block of output window 7's array is some point's. -/
theorem idx_onto7 : ∀ (q0 : Fin 4) (q1 : Fin 4), ∃ t : Fin cfg0.N, win0_7.index t = ![q0.val, q1.val, 0] :=
  (by decide +kernel : ∀ (q0 : Fin 4) (q1 : Fin 4), ∃ t : Fin grid0.N, win0_7.index t = ![q0.val, q1.val, 0])

/-- What point t writes back through window 7 is block t of the projection of the normalised rows. -/
theorem flushed0_7_eq (c : Dev nD) (t : Fin cfg0.N) :
    (dat0 V c).flushed 7 t = ((cfg0.win 7).blk t).view.read (Elt Ideal) (Gproj (V c main_arg0) (V c main_arg1) (V c main_v5)) := by
  show (cfg0.win 7).cut (grid0.coords t) ((dat0 V c).after 7 t) = _
  rw [after0_7, out0_7_eq]
  obtain ⟨e0, e1, e2, e3, e4, e5, e6, e7, e8⟩ := idx_facts7 t
  funext j
  obtain ⟨u, r, e, rfl⟩ : ∃ (u : Fin 1) (r : Fin 512) (e : Fin 1024), j = ix3 u r e := ⟨j 0, j 1, j 2, eq_ix3 j⟩
  rw [View.read_apply]
  refine (pay2_3_apply (blk0 V c 0 t) (blk0 V c 1 t) (blk0 V c 4 t) u r e).trans ?_
  unfold Gproj
  refine Finset.sum_congr rfl fun d _ => ?_
  have hx : (fun k : Fin 1024 => blk0 V c 0 t (ix3 (0 : Fin 1) r k)) = fun k : Fin 1024 => V c main_arg0 (lastTo (((cfg0.win 7).blk t).view.emb (ix3 u r e)) k) := by
    funext k
    show V c main_arg0 (((cfg0.win 0).blk t).view.emb (ix3 (0 : Fin 1) r k)) = _
    refine congrArg (V c main_arg0) (funext fun a => Fin.ext ?_)
    have hu : u.val = 0 := by omega
    match a with
    | ⟨0, _⟩ => show win0_0.index t (0 : Fin 3) * 1 + 1 * 0 = win0_7.index t (0 : Fin 3) * 1 + 1 * u.val; omega
    | ⟨1, _⟩ => show win0_0.index t (1 : Fin 3) * 512 + 1 * r.val = win0_7.index t (1 : Fin 3) * 512 + 1 * r.val; omega
    | ⟨2, _⟩ => show win0_0.index t (2 : Fin 3) * 1024 + 1 * k.val = k.val; omega
  have hg : (fun k : Fin 1024 => blk0 V c 1 t (ix1 k)) = fun k : Fin 1024 => V c main_arg1 (ix1 k) := by
    funext k
    show V c main_arg1 (((cfg0.win 1).blk t).view.emb (ix1 k)) = _
    refine congrArg (V c main_arg1) (funext fun a => Fin.ext ?_)
    match a with
    | ⟨0, _⟩ => show win0_1.index t (0 : Fin 1) * 1024 + 1 * k.val = k.val; omega
  have hw : blk0 V c 4 t (ix2 d e) = V c main_v5 (ix2 d ⟨((((cfg0.win 7).blk t).view.emb (ix3 u r e)) 2).val, ((((cfg0.win 7).blk t).view.emb (ix3 u r e)) 2).isLt⟩) := by
    show V c main_v5 (((cfg0.win 4).blk t).view.emb (ix2 d e)) = _
    refine congrArg (V c main_v5) (funext fun a => Fin.ext ?_)
    match a with
    | ⟨0, _⟩ => show win0_4.index t (0 : Fin 2) * 1024 + 1 * d.val = d.val; omega
    | ⟨1, _⟩ => show win0_4.index t (1 : Fin 2) * 1024 + 1 * e.val = win0_7.index t (2 : Fin 3) * 1024 + 1 * e.val; omega
  rw [hx, hg, hw]

/-- An index of the array is in point t's block iff each coordinate is in the block's range on its axis. -/
theorem mem_blk0_7 (t : Fin cfg0.N) (i : S4x2048x1024.Idx) :
    i ∈ ((cfg0.win 7).blk t).view.set ↔ ∀ a : Fin 3, win0_7.index t a * S1x512x1024.size a ≤ (i a).val ∧ (i a).val < win0_7.index t a * S1x512x1024.size a + S1x512x1024.size a := by
  show i ∈ ((View.whole (Pipeline.arrRef spec0 7)).slice (win0_7.rect t)).set ↔ _
  rw [View.set_slice_whole, Rect.mem_set_unit]
  exact Iff.rfl

/-- Every index of the array is in some point's block. -/
theorem cover0_arr7 (i : S4x2048x1024.Idx) : ∃ t : Fin cfg0.N, (cfg0.win 7).flush t = true ∧ i ∈ ((cfg0.win 7).blk t).view.set := by
  have hi0 : (i 0).val < 4 := (i 0).isLt
  have hi1 : (i 1).val < 2048 := (i 1).isLt
  have hi2 : (i 2).val < 1024 := (i 2).isLt
  obtain ⟨t, ht⟩ := idx_onto7 ⟨(i 0).val, hi0⟩ ⟨(i 1).val / 512, by omega⟩
  have q0 : win0_7.index t (0 : Fin 3) = (i 0).val := congrFun ht 0
  have q1 : win0_7.index t (1 : Fin 3) = (i 1).val / 512 := congrFun ht 1
  have q2 : win0_7.index t (2 : Fin 3) = 0 := congrFun ht 2
  refine ⟨t, flush0_7 t, ?_⟩
  rw [mem_blk0_7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 1024 ≤ (i 2).val ∧ (i 2).val < win0_7.index t (2 : Fin 3) * 1024 + 1024; omega

/-- The array after the first call. -/
theorem final0_7 (c : Dev nD) : (dat0 V c).arrAt 7 cfg0.N = Gproj (V c main_arg0) (V c main_arg1) (V c main_v5) :=
  (dat0 V c).arrAt_eq_of_cover 7 _ (fun t _ => flushed0_7_eq V c t) (cover0_arr7)

end

end Cert.KernelIdeal.Hand

end
-- ==== Proof.IdealArr1.lean ====
/-
  The second pallas_call's output array as a whole-array function of the arrays it reads.

  Row r of the scratch buffers after a grid point is one step of the running softmax over what the point
  before left (at key tile 0: over the reset state), on the scores of query row r against the point's
  key tile and on its value tile.  At key tile 3 the four steps have visited key tiles 0 to 3 of the same
  batch with the same query tile, so the state is the four-tile run on the row's scores against all 2048
  keys; the output tile's entry is that run's quotient row against a column of the transposed output
  weight.  The write-backs at key tile 3 cover the array.
-/
import proofs.«143834_j38010460570082_2_alg».proof.Proof.IdealValue1
import proofs.«143834_j38010460570082_2_alg».proof.Proof.IdealPay1
import proofs.«143834_j38010460570082_2_alg».proof.Proof.IdealArr0
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.KernelIdeal.Pay Idealize.ShloMosaic.ValueIdx Cert.Lib.OnlineSoftmax Cert.Lib.AttentionRow Cert.Spec

/-- Row j of the batch of index i, column e. -/
abbrev rowTo (i : S4x2048x1024.Idx) (j : Fin 2048) (e : Fin 1024) : S4x2048x1024.Idx := fun a => match a with
  | ⟨0, _⟩ => ⟨(i 0).val, (i 0).isLt⟩
  | ⟨1, _⟩ => ⟨j.val, j.isLt⟩
  | ⟨2, _⟩ => ⟨e.val, e.isLt⟩

/-- The scores of the query row through i against every key of its batch, and that batch's values. -/
def scoresOf (Q K : S4x2048x1024.Idx → EReal) (i : S4x2048x1024.Idx) : Fin 2048 → EReal :=
  fun j => ∑ e : Fin 1024, Q (lastTo i e) * K (rowTo i j e)
def valuesOf (Vv : S4x2048x1024.Idx → EReal) (i : S4x2048x1024.Idx) : Fin 2048 → Fin 1024 → EReal :=
  fun j d => Vv (rowTo i j d)

/-- The attention output: the four-tile run's quotient row against a column of the transposed output weight. -/
def Gattn (Q K Vv : S4x2048x1024.Idx → EReal) (W : S1024x1024.Idx → EReal) : S4x2048x1024.Idx → EReal :=
  fun i => ∑ d : Fin 1024, kerRow (scoresOf Q K i) (valuesOf Vv i) d * W (ix2 d ⟨(i 2).val, (i 2).isLt⟩)

/-- The printed index maps in closed form, decided over the grid. -/
theorem idx1_facts : ∀ t : Fin cfg1.N,
    win1_0.index t (0 : Fin 3) = t.val / 8 ∧ win1_0.index t (1 : Fin 3) = (t.val / 4) % 2 ∧ win1_0.index t (2 : Fin 3) = 0
    ∧ win1_1.index t (0 : Fin 3) = t.val / 8 ∧ win1_1.index t (1 : Fin 3) = t.val % 4 ∧ win1_1.index t (2 : Fin 3) = 0
    ∧ win1_2.index t (0 : Fin 3) = t.val / 8 ∧ win1_2.index t (1 : Fin 3) = t.val % 4 ∧ win1_2.index t (2 : Fin 3) = 0
    ∧ win1_3.index t (0 : Fin 2) = 0 ∧ win1_3.index t (1 : Fin 2) = 0
    ∧ win1_4.index t (0 : Fin 3) = t.val / 8 ∧ win1_4.index t (1 : Fin 3) = (t.val / 4) % 2 ∧ win1_4.index t (2 : Fin 3) = 0 :=
  (by decide +kernel : ∀ t : Fin grid1.N, _)

theorem idx1_onto : ∀ (q0 : Fin 4) (q1 : Fin 2), ∃ t : Fin cfg1.N, (cfg1.win 4).flush t = true ∧ win1_4.index t = ![q0.val, q1.val, 0] :=
  (by decide +kernel : ∀ (q0 : Fin 4) (q1 : Fin 2), ∃ t : Fin grid1.N, win1_4.flush t = true ∧ win1_4.index t = ![q0.val, q1.val, 0])

section

variable (V : (c : Dev nD) → (b : Ref sig .tc) → Buf (Elt Ideal) ((c : Thread nD τ).loc b))

/-- Query row r's scores against point t's key tile, and point t's value tile. -/
abbrev qb (c : Dev nD) (t : Fin cfg1.N) : FVec Ideal S1x1024x1024 .bf16 := blk1 V c 0 t
abbrev kb (c : Dev nD) (t : Fin cfg1.N) : FVec Ideal S1x512x1024 .bf16 := blk1 V c 1 t
abbrev vb (c : Dev nD) (t : Fin cfg1.N) : FVec Ideal S1x512x1024 .bf16 := blk1 V c 2 t
abbrev wb (c : Dev nD) (t : Fin cfg1.N) : FVec Ideal S1024x1024 .bf16 := blk1 V c 3 t
def sc (c : Dev nD) (t : Fin cfg1.N) (r : Fin 1024) : Fin 512 → EReal :=
  fun j => ∑ e : Fin 1024, qb V c t (ix3 (0 : Fin 1) r e) * kb V c t (ix3 (0 : Fin 1) j e)
def vl (c : Dev nD) (t : Fin cfg1.N) : Fin 512 → Fin 1024 → EReal :=
  fun j d => vb V c t (ix3 (0 : Fin 1) j d)

/-- Row r of the scratch buffers after position n. -/
def rowAt (c : Dev nD) (n : ℕ) (hn : n < cfg1.N) (r : Fin 1024) : State (Fin 1024) :=
  rowState (stAt1 V c n hn).1 (stAt1 V c n hn).2.1 (stAt1 V c n hn).2.2 r

/-- The reset values are the running softmax's initial state. -/
theorem rowState_reset (r : Fin 1024) : rowState (k1_pay4 (F := Ideal)) (k1_pay5 (F := Ideal)) (k1_pay6 (F := Ideal)) r = init (Fin 1024) := by
  unfold rowState init k1_pay4 k1_pay5 k1_pay6
  simp only [shapeCast_self, broadcast_apply]
  refine congrArg₂ (fun a b => (⟨a, b, fun _ => b⟩ : State (Fin 1024))) ?_ ?_
  · exact Cert.Consts.ofBits_neg_inf
  · exact Ideal.ofBits_zero_f32

theorem rowAt_first (c : Dev nD) (t : Fin cfg1.N) (h0 : t.val % 4 = 0) (r : Fin 1024) :
    rowAt V c t.val t.isLt r = step (sc V c t r) (vl V c t) (init (Fin 1024)) := by
  have h1 : ¬t.val % 4 = 3 := by omega
  unfold rowAt
  rw [stAt1_A V c t h0 h1]
  dsimp only
  rw [sout1_A_0_eq, sout1_A_1_eq, sout1_A_2_eq]
  rw [← rowState_reset r]
  exact upd_row _ _ _ _ _ _ r

theorem rowAt_next (c : Dev nD) (t : Fin cfg1.N) (h0 : ¬t.val % 4 = 0) (r : Fin 1024) :
    rowAt V c t.val t.isLt r = step (sc V c t r) (vl V c t) (rowAt V c (t.val - 1) (Nat.lt_of_le_of_lt (Nat.sub_le _ _) t.isLt) r) := by
  unfold rowAt
  by_cases h1 : t.val % 4 = 3
  · rw [stAt1_C V c t h0 h1]
    dsimp only
    rw [sout1_C_0_eq, sout1_C_1_eq, sout1_C_2_eq]
    exact upd_row _ _ _ _ _ _ r
  · rw [stAt1_B V c t h0 h1]
    dsimp only
    rw [sout1_B_0_eq, sout1_B_1_eq, sout1_B_2_eq]
    exact upd_row _ _ _ _ _ _ r

end

section

variable (V : (c : Dev nD) → (b : Ref sig .tc) → Buf (Elt Ideal) ((c : Thread nD τ).loc b))

theorem rowAt_congr (c : Dev nD) {n n' : ℕ} (h : n = n') (hn : n < cfg1.N) (hn' : n' < cfg1.N) (r : Fin 1024) :
    rowAt V c n hn r = rowAt V c n' hn' r := by subst h; rfl

/-- Point 4 g + kv: key tile kv of group g (a batch and a query tile). -/
def pt (g : Fin 8) (kv : Fin 4) : Fin cfg1.N := ⟨4 * g.val + kv.val, by rw [show cfg1.N = 32 from N_1]; have := g.isLt; have := kv.isLt; omega⟩

/-- After a group's last point, row r of the scratch buffers is the four steps from the reset state. -/
theorem rowAt_group (c : Dev nD) (g : Fin 8) (r : Fin 1024) :
    rowAt V c (pt g 3).val (pt g 3).isLt r
      = step (sc V c (pt g 3) r) (vl V c (pt g 3)) (step (sc V c (pt g 2) r) (vl V c (pt g 2))
          (step (sc V c (pt g 1) r) (vl V c (pt g 1)) (step (sc V c (pt g 0) r) (vl V c (pt g 0)) (init (Fin 1024))))) := by
  have hg := g.isLt
  rw [rowAt_next V c (pt g 3) (by show ¬(4 * g.val + 3) % 4 = 0; omega) r]
  rw [rowAt_congr V c (show (pt g 3).val - 1 = (pt g 2).val from by show 4 * g.val + 3 - 1 = 4 * g.val + 2; omega) _ (pt g 2).isLt r]
  rw [rowAt_next V c (pt g 2) (by show ¬(4 * g.val + 2) % 4 = 0; omega) r]
  rw [rowAt_congr V c (show (pt g 2).val - 1 = (pt g 1).val from by show 4 * g.val + 2 - 1 = 4 * g.val + 1; omega) _ (pt g 1).isLt r]
  rw [rowAt_next V c (pt g 1) (by show ¬(4 * g.val + 1) % 4 = 0; omega) r]
  rw [rowAt_congr V c (show (pt g 1).val - 1 = (pt g 0).val from by show 4 * g.val + 1 - 1 = 4 * g.val + 0; omega) _ (pt g 0).isLt r]
  rw [rowAt_first V c (pt g 0) (by show (4 * g.val + 0) % 4 = 0; omega) r]

/-- The scores and values of a group's key tile kv at query row r are those of the array's row through
    (u, r, e) of the group's output tile, at the keys of tile kv. -/
theorem sc_eq (c : Dev nD) (g : Fin 8) (kv : Fin 4) (u : Fin 1) (r e : Fin 1024) :
    sc V c (pt g kv) r = fun j : Fin 512 => scoresOf (V c main_v8_0) (V c main_v8_1) (((cfg1.win 4).blk (pt g 3)).view.emb (ix3 u r e)) (key kv j) := by
  have hg := g.isLt; have hkv := kv.isLt; have hu : u.val = 0 := by omega
  obtain ⟨a0, a1, a2, b0, b1, b2, -, -, -, -, -, -, -, -⟩ := idx1_facts (pt g kv)
  obtain ⟨-, -, -, -, -, -, -, -, -, -, -, o0, o1, o2⟩ := idx1_facts (pt g 3)
  have hv : (pt g kv).val = 4 * g.val + kv.val := rfl
  have hv3 : (pt g 3).val = 4 * g.val + 3 := rfl
  funext j
  unfold sc scoresOf
  refine Finset.sum_congr rfl fun x _ => ?_
  have hq : qb V c (pt g kv) (ix3 (0 : Fin 1) r x) = V c main_v8_0 (lastTo (((cfg1.win 4).blk (pt g 3)).view.emb (ix3 u r e)) x) := by
    show V c main_v8_0 (((cfg1.win 0).blk (pt g kv)).view.emb (ix3 (0 : Fin 1) r x)) = _
    refine congrArg (V c main_v8_0) (funext fun a => Fin.ext ?_)
    match a with
    | ⟨0, _⟩ => show win1_0.index (pt g kv) (0 : Fin 3) * 1 + 1 * 0 = win1_4.index (pt g 3) (0 : Fin 3) * 1 + 1 * u.val; omega
    | ⟨1, _⟩ => show win1_0.index (pt g kv) (1 : Fin 3) * 1024 + 1 * r.val = win1_4.index (pt g 3) (1 : Fin 3) * 1024 + 1 * r.val; omega
    | ⟨2, _⟩ => show win1_0.index (pt g kv) (2 : Fin 3) * 1024 + 1 * x.val = x.val; omega
  have hk : kb V c (pt g kv) (ix3 (0 : Fin 1) j x) = V c main_v8_1 (rowTo (((cfg1.win 4).blk (pt g 3)).view.emb (ix3 u r e)) (key kv j) x) := by
    show V c main_v8_1 (((cfg1.win 1).blk (pt g kv)).view.emb (ix3 (0 : Fin 1) j x)) = _
    refine congrArg (V c main_v8_1) (funext fun a => Fin.ext ?_)
    match a with
    | ⟨0, _⟩ => show win1_1.index (pt g kv) (0 : Fin 3) * 1 + 1 * 0 = win1_4.index (pt g 3) (0 : Fin 3) * 1 + 1 * u.val; omega
    | ⟨1, _⟩ => show win1_1.index (pt g kv) (1 : Fin 3) * 512 + 1 * j.val = 512 * kv.val + j.val; omega
    | ⟨2, _⟩ => show win1_1.index (pt g kv) (2 : Fin 3) * 1024 + 1 * x.val = x.val; omega
  rw [hq, hk]

theorem vl_eq (c : Dev nD) (g : Fin 8) (kv : Fin 4) (u : Fin 1) (r e : Fin 1024) :
    vl V c (pt g kv) = fun (j : Fin 512) (d : Fin 1024) => valuesOf (V c main_v8_2) (((cfg1.win 4).blk (pt g 3)).view.emb (ix3 u r e)) (key kv j) d := by
  have hg := g.isLt; have hkv := kv.isLt; have hu : u.val = 0 := by omega
  obtain ⟨-, -, -, -, -, -, b0, b1, b2, -, -, -, -, -⟩ := idx1_facts (pt g kv)
  obtain ⟨-, -, -, -, -, -, -, -, -, -, -, o0, o1, o2⟩ := idx1_facts (pt g 3)
  have hv : (pt g kv).val = 4 * g.val + kv.val := rfl
  have hv3 : (pt g 3).val = 4 * g.val + 3 := rfl
  funext j d
  unfold vl valuesOf
  show V c main_v8_2 (((cfg1.win 2).blk (pt g kv)).view.emb (ix3 (0 : Fin 1) j d)) = _
  refine congrArg (V c main_v8_2) (funext fun a => Fin.ext ?_)
  match a with
  | ⟨0, _⟩ => show win1_2.index (pt g kv) (0 : Fin 3) * 1 + 1 * 0 = win1_4.index (pt g 3) (0 : Fin 3) * 1 + 1 * u.val; omega
  | ⟨1, _⟩ => show win1_2.index (pt g kv) (1 : Fin 3) * 512 + 1 * j.val = 512 * kv.val + j.val; omega
  | ⟨2, _⟩ => show win1_2.index (pt g kv) (2 : Fin 3) * 1024 + 1 * d.val = d.val; omega

/-- What a group's last point writes back is its tile of the attention output. -/
theorem flushed1_4_eq (c : Dev nD) (t : Fin cfg1.N) (hf : (cfg1.win 4).flush t = true) :
    (dat1 V c).flushed 4 t = ((cfg1.win 4).blk t).view.read (Elt Ideal) (Gattn (V c main_v8_0) (V c main_v8_1) (V c main_v8_2) (V c main_v7)) := by
  have h3 : t.val % 4 = 3 := (flush1_4 t).mp hf
  have hN : t.val < 32 := lt_of_lt_of_eq t.isLt (show cfg1.N = 32 from N_1)
  obtain ⟨g, rfl⟩ : ∃ g : Fin 8, t = pt g 3 := ⟨⟨t.val / 4, by omega⟩, Fin.ext (by show t.val = 4 * (t.val / 4) + 3; omega)⟩
  have h0 : ¬(pt g 3).val % 4 = 0 := by omega
  show (cfg1.win 4).cut (grid1.coords (pt g 3)) ((dat1 V c).after 4 (pt g 3)) = _
  rw [after1_4, after4_C V c (pt g 3) h0 h3, out1_C_4_eq]
  funext j
  obtain ⟨u, r, e, rfl⟩ : ∃ (u : Fin 1) (r : Fin 1024) (e : Fin 1024), j = ix3 u r e := ⟨j 0, j 1, j 2, eq_ix3 j⟩
  rw [View.read_apply]
  refine (pay3_out_apply _ _ _ u r e).trans ?_
  unfold Gattn
  refine Finset.sum_congr rfl fun d _ => ?_
  -- the numerator and normalizer of row r are the four-tile run's
  have hrow := rowAt_group V c g r
  rw [rowAt_next V c (pt g 3) h0 r] at hrow
  have hst : step (sc V c (pt g 3) r) (vl V c (pt g 3)) (rowAt V c ((pt g 3).val - 1) (Nat.lt_of_le_of_lt (Nat.sub_le _ _) (pt g 3).isLt) r)
      = runE (scoresOf (V c main_v8_0) (V c main_v8_1) (((cfg1.win 4).blk (pt g 3)).view.emb (ix3 u r e))) (valuesOf (V c main_v8_2) (((cfg1.win 4).blk (pt g 3)).view.emb (ix3 u r e))) := by
    rw [hrow, sc_eq V c g 3 u r e, sc_eq V c g 2 u r e, sc_eq V c g 1 u r e, sc_eq V c g 0 u r e,
      vl_eq V c g 3 u r e, vl_eq V c g 2 u r e, vl_eq V c g 1 u r e, vl_eq V c g 0 u r e]
    rfl
  have hupd := upd_row (qb V c (pt g 3)) (kb V c (pt g 3)) (vb V c (pt g 3))
    (stAt1 V c ((pt g 3).val - 1) (Nat.lt_of_le_of_lt (Nat.sub_le _ _) (pt g 3).isLt)).1
    (stAt1 V c ((pt g 3).val - 1) (Nat.lt_of_le_of_lt (Nat.sub_le _ _) (pt g 3).isLt)).2.1
    (stAt1 V c ((pt g 3).val - 1) (Nat.lt_of_le_of_lt (Nat.sub_le _ _) (pt g 3).isLt)).2.2 r
  have hkr := congrArg (fun st : State (Fin 1024) => Ideal.div (st.acc d) st.l) (hupd.trans hst)
  have hw : wb V c (pt g 3) (ix2 d e) = V c main_v7 (ix2 d ⟨((((cfg1.win 4).blk (pt g 3)).view.emb (ix3 u r e)) 2).val, ((((cfg1.win 4).blk (pt g 3)).view.emb (ix3 u r e)) 2).isLt⟩) := by
    obtain ⟨-, -, -, -, -, -, -, -, -, w0, w1, -, -, o2⟩ := idx1_facts (pt g 3)
    show V c main_v7 (((cfg1.win 3).blk (pt g 3)).view.emb (ix2 d e)) = _
    refine congrArg (V c main_v7) (funext fun a => Fin.ext ?_)
    match a with
    | ⟨0, _⟩ => show win1_3.index (pt g 3) (0 : Fin 2) * 1024 + 1 * d.val = d.val; omega
    | ⟨1, _⟩ => show win1_3.index (pt g 3) (1 : Fin 2) * 1024 + 1 * e.val = win1_4.index (pt g 3) (2 : Fin 3) * 1024 + 1 * e.val; omega
  exact congrArg₂ (· * ·) hkr hw

theorem mem_blk1_4 (t : Fin cfg1.N) (i : S4x2048x1024.Idx) :
    i ∈ ((cfg1.win 4).blk t).view.set ↔ ∀ a : Fin 3, win1_4.index t a * S1x1024x1024.size a ≤ (i a).val ∧ (i a).val < win1_4.index t a * S1x1024x1024.size a + S1x1024x1024.size a := by
  show i ∈ ((View.whole (Pipeline.arrRef spec1 4)).slice (win1_4.rect t)).set ↔ _
  rw [View.set_slice_whole, Rect.mem_set_unit]
  exact Iff.rfl

theorem cover1_arr4 (i : S4x2048x1024.Idx) : ∃ t : Fin cfg1.N, (cfg1.win 4).flush t = true ∧ i ∈ ((cfg1.win 4).blk t).view.set := by
  have hi0 : (i 0).val < 4 := (i 0).isLt
  have hi1 : (i 1).val < 2048 := (i 1).isLt
  have hi2 : (i 2).val < 1024 := (i 2).isLt
  obtain ⟨t, hf, ht⟩ := idx1_onto ⟨(i 0).val, hi0⟩ ⟨(i 1).val / 1024, by omega⟩
  have q0 : win1_4.index t (0 : Fin 3) = (i 0).val := congrFun ht 0
  have q1 : win1_4.index t (1 : Fin 3) = (i 1).val / 1024 := congrFun ht 1
  have q2 : win1_4.index t (2 : Fin 3) = 0 := congrFun ht 2
  refine ⟨t, hf, ?_⟩
  rw [mem_blk1_4]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 1024 ≤ (i 1).val ∧ (i 1).val < win1_4.index t (1 : Fin 3) * 1024 + 1024; omega
  | ⟨2, _⟩ => show win1_4.index t (2 : Fin 3) * 1024 ≤ (i 2).val ∧ (i 2).val < win1_4.index t (2 : Fin 3) * 1024 + 1024; omega

/-- The output array after the second call. -/
theorem final1_4 (c : Dev nD) : (dat1 V c).arrAt 4 cfg1.N = Gattn (V c main_v8_0) (V c main_v8_1) (V c main_v8_2) (V c main_v7) :=
  (dat1 V c).arrAt_eq_of_cover 4 _ (flushed1_4_eq V c) (cover1_arr4)

end

end Cert.KernelIdeal.Hand

end
-- ==== Proof.IdealFinal.lean ====
/-
  The kernel's result as a function of its arguments, at the ideal values: the attention output over the
  three projections of the normalised rows, each weight matrix read transposed (the host operations before
  the first call transpose and narrow them, and narrowing changes no ideal value).
-/
import proofs.«143834_j38010460570082_2_alg».proof.Proof.IdealRun
import proofs.«143834_j38010460570082_2_alg».proof.Proof.IdealArr1
import Idealize.ShloMosaic.Lib.Pipeline.Value
import Idealize.ShloMosaic.Lib.StableHlo.Run
import Idealize.ShloMosaic.Lib.ValueLayout
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.KernelIdeal.Pay Idealize.ShloMosaic.ValueIdx Idealize.ShloMosaic.StableHlo

/-- A square matrix read transposed. -/
def tr (w : S1024x1024.Idx → EReal) : S1024x1024.Idx → EReal :=
  fun j => w (ix2 ⟨(j 1).val, (j 1).isLt⟩ ⟨(j 0).val, (j 0).isLt⟩)

theorem tr_apply (w : S1024x1024.Idx → EReal) (d e : Fin 1024) : tr w (ix2 d e) = w (ix2 e d) := rfl

section

variable (m : (ℓ : Loc nD τ sig) → Buf (Elt Ideal) ℓ) (ρ : Dev nD → PrngReg)

theorem V1_main_v1 (c : Dev nD) : (V1 m ρ c main_v1 : S1024x1024.Idx → EReal) = tr (m ((c : Thread nD τ).loc main_arg2)) := by
  have e : @Eq (S1024x1024.Idx → EReal) (V1 m ρ c main_v1)
      (truncf (F := Ideal) .bf16 (transpose S1024x1024 [1, 0] (m ((c : Thread nD τ).loc main_arg2)) transposes_S1024x1024_S1024x1024_1_0) bitsLt_bf16_f32) := by
    dsimp only [V1, W1, W0, hostOps0]; after_results; try rfl
  rw [e]
  funext j
  obtain ⟨d, x, rfl⟩ : ∃ (d x : Fin 1024), j = ix2 d x := ⟨j 0, j 1, eq_ix2 j⟩
  rw [truncf_apply, transpose_ix2_apply]
  rfl

theorem V1_main_v3 (c : Dev nD) : (V1 m ρ c main_v3 : S1024x1024.Idx → EReal) = tr (m ((c : Thread nD τ).loc main_arg3)) := by
  have e : @Eq (S1024x1024.Idx → EReal) (V1 m ρ c main_v3)
      (truncf (F := Ideal) .bf16 (transpose S1024x1024 [1, 0] (m ((c : Thread nD τ).loc main_arg3)) transposes_S1024x1024_S1024x1024_1_0) bitsLt_bf16_f32) := by
    dsimp only [V1, W1, W0, hostOps0]; after_results; try rfl
  rw [e]
  funext j
  obtain ⟨d, x, rfl⟩ : ∃ (d x : Fin 1024), j = ix2 d x := ⟨j 0, j 1, eq_ix2 j⟩
  rw [truncf_apply, transpose_ix2_apply]
  rfl

theorem V1_main_v5 (c : Dev nD) : (V1 m ρ c main_v5 : S1024x1024.Idx → EReal) = tr (m ((c : Thread nD τ).loc main_arg4)) := by
  have e : @Eq (S1024x1024.Idx → EReal) (V1 m ρ c main_v5)
      (truncf (F := Ideal) .bf16 (transpose S1024x1024 [1, 0] (m ((c : Thread nD τ).loc main_arg4)) transposes_S1024x1024_S1024x1024_1_0) bitsLt_bf16_f32) := by
    dsimp only [V1, W1, W0, hostOps0]; after_results; try rfl
  rw [e]
  funext j
  obtain ⟨d, x, rfl⟩ : ∃ (d x : Fin 1024), j = ix2 d x := ⟨j 0, j 1, eq_ix2 j⟩
  rw [truncf_apply, transpose_ix2_apply]
  rfl

theorem V1_main_v7 (c : Dev nD) : (V1 m ρ c main_v7 : S1024x1024.Idx → EReal) = tr (m ((c : Thread nD τ).loc main_arg5)) := by
  have e : @Eq (S1024x1024.Idx → EReal) (V1 m ρ c main_v7)
      (truncf (F := Ideal) .bf16 (transpose S1024x1024 [1, 0] (m ((c : Thread nD τ).loc main_arg5)) transposes_S1024x1024_S1024x1024_1_0) bitsLt_bf16_f32) := by
    dsimp only [V1, W1, W0, hostOps0]; after_results; try rfl
  rw [e]
  funext j
  obtain ⟨d, x, rfl⟩ : ∃ (d x : Fin 1024), j = ix2 d x := ⟨j 0, j 1, eq_ix2 j⟩
  rw [truncf_apply, transpose_ix2_apply]
  rfl

theorem V1_main_arg0 (c : Dev nD) : V1 m ρ c main_arg0 = m ((c : Thread nD τ).loc main_arg0) := by
  dsimp only [V1, W1, W0, hostOps0]; after_results; try rfl
theorem V1_main_arg1 (c : Dev nD) : V1 m ρ c main_arg1 = m ((c : Thread nD τ).loc main_arg1) := by
  dsimp only [V1, W1, W0, hostOps0]; after_results; try rfl

/-- The three projections and the transposed output weight as the second call finds them. -/
theorem V2_q (c : Dev nD) : V2 m ρ c main_v8_0 = Gproj (m ((c : Thread nD τ).loc main_arg0)) (m ((c : Thread nD τ).loc main_arg1)) (tr (m ((c : Thread nD τ).loc main_arg2))) :=
  (W2_arr m ρ c 5).trans ((final0_5 (V1 m ρ) c).trans (by rw [V1_main_arg0, V1_main_arg1, V1_main_v1]))
theorem V2_k (c : Dev nD) : V2 m ρ c main_v8_1 = Gproj (m ((c : Thread nD τ).loc main_arg0)) (m ((c : Thread nD τ).loc main_arg1)) (tr (m ((c : Thread nD τ).loc main_arg3))) :=
  (W2_arr m ρ c 6).trans ((final0_6 (V1 m ρ) c).trans (by rw [V1_main_arg0, V1_main_arg1, V1_main_v3]))
theorem V2_v (c : Dev nD) : V2 m ρ c main_v8_2 = Gproj (m ((c : Thread nD τ).loc main_arg0)) (m ((c : Thread nD τ).loc main_arg1)) (tr (m ((c : Thread nD τ).loc main_arg4))) :=
  (W2_arr m ρ c 7).trans ((final0_7 (V1 m ρ) c).trans (by rw [V1_main_arg0, V1_main_arg1, V1_main_v5]))
theorem V2_w (c : Dev nD) : (V2 m ρ c main_v7 : S1024x1024.Idx → EReal) = tr (m ((c : Thread nD τ).loc main_arg5)) :=
  (W2_of_ne m ρ c main_v7 (by decide)).trans (V1_main_v7 m ρ c)

/-- The kernel's function of its arguments. -/
def Gkernel (x : S4x2048x1024.Idx → EReal) (g : S1024.Idx → EReal) (wq wk wv wo : S1024x1024.Idx → EReal) : S4x2048x1024.Idx → EReal :=
  Gattn (Gproj x g (tr wq)) (Gproj x g (tr wk)) (Gproj x g (tr wv)) (tr wo)

/-- The result array after the run. -/
theorem result_eq (c : Dev nD) : (dat1 (V2 m ρ) c).arrAt 4 cfg1.N
    = Gkernel (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [final1_4 (V2 m ρ) c, V2_q, V2_k, V2_v, V2_w]
  rfl

end

end Cert.KernelIdeal.Hand

end
-- ==== Proof.RefValue.lean ====
/-
  The reference's result as a function of its arguments, at the ideal values, read one operation at a time:
  the normalised rows; the three projections (each the kernel's projection, the weight read transposed);
  the scores; the softmax row taken at once, shifted by the row's maximum, its normalizer summed from zero;
  its contraction with the values; the output projection.  With finite inputs every score and value is a
  real number, so the softmax row contracted with the values is the four-tile running computation's
  quotient, and the reference's result is the kernel's function of the arguments.
-/
import proofs.«143834_j38010460570082_2_alg».proof.Proof.Gen.ReferenceIdeal.Read
import proofs.«143834_j38010460570082_2_alg».proof.Proof.IdealFinal
import Idealize.ShloMosaic.Lib.ValueLayout
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Spec Cert.Lib.Finite
open Cert.KernelIdeal.Hand (Gproj tr Gattn scoresOf valuesOf Gkernel lastTo rowTo)

variable (x0 : (⟨S4x2048x1024, .f32⟩ : BufTy).Contents (Elt Ideal)) (x1 : (⟨S1024, .f32⟩ : BufTy).Contents (Elt Ideal))
  (x2 x3 x4 x5 : (⟨S1024x1024, .f32⟩ : BufTy).Contents (Elt Ideal))

/-! ## Index bookkeeping: the generated index maps composed are the plain ones -/

theorem idx_a (i : S4x2048x1024.Idx) (k : Fin 1024) : idx_main_v0 (idx_main_v1 (idx_main_v11 i)) k = lastTo i k := funext fun a => by match a with | ⟨0, _⟩ => rfl | ⟨1, _⟩ => rfl | ⟨2, _⟩ => rfl
theorem idx_b (i : S4x2048x1024.Idx) (k : Fin 1024) : idx_main_v7 (idx_main_v8 (idx_main_v16 i)) k = lastTo i k := funext fun a => by match a with | ⟨0, _⟩ => rfl | ⟨1, _⟩ => rfl | ⟨2, _⟩ => rfl
theorem idx_c (i : S4x2048x1024.Idx) (k k1 : Fin 1024) : idx_main_v0 (idx_main_v1 (idx_main_v4 (lastTo i k))) k1 = lastTo i k1 := funext fun a => by match a with | ⟨0, _⟩ => rfl | ⟨1, _⟩ => rfl | ⟨2, _⟩ => rfl
theorem idx_d (i : S4x2048x1024.Idx) : lastTo i ⟨(i 2).val, (i 2).isLt⟩ = i := funext fun a => by match a with | ⟨0, _⟩ => rfl | ⟨1, _⟩ => rfl | ⟨2, _⟩ => rfl
theorem idx_e (i : S4x2048x1024.Idx) : idx_main_v18 (idx_main_v19 i) = ix1 ⟨(i 2).val, (i 2).isLt⟩ := funext fun a => by match a with | ⟨0, _⟩ => rfl
theorem idx_f (i : S4x2048x1024.Idx) (k k1 : Fin 1024) : lastTo (lastTo i k) k1 = lastTo i k1 := funext fun a => by match a with | ⟨0, _⟩ => rfl | ⟨1, _⟩ => rfl | ⟨2, _⟩ => rfl

theorem idx_g (i : S4x2048x1024.Idx) (k k1 : Fin 1024) : lastTo (lidx_main_v21 i k) k1 = lastTo i k1 := funext fun a => by match a with | ⟨0, _⟩ => rfl | ⟨1, _⟩ => rfl | ⟨2, _⟩ => rfl
theorem idx_h (i : S4x2048x1024.Idx) (k : Fin 1024) : ridx_main_v21 i k = ix2 ⟨(i 2).val, (i 2).isLt⟩ k := funext fun a => by match a with | ⟨0, _⟩ => rfl | ⟨1, _⟩ => rfl
theorem idx_g2 (i : S4x2048x1024.Idx) (k k1 : Fin 1024) : lastTo (lidx_main_v22 i k) k1 = lastTo i k1 := funext fun a => by match a with | ⟨0, _⟩ => rfl | ⟨1, _⟩ => rfl | ⟨2, _⟩ => rfl
theorem idx_h2 (i : S4x2048x1024.Idx) (k : Fin 1024) : ridx_main_v22 i k = ix2 ⟨(i 2).val, (i 2).isLt⟩ k := funext fun a => by match a with | ⟨0, _⟩ => rfl | ⟨1, _⟩ => rfl
theorem idx_g3 (i : S4x2048x1024.Idx) (k k1 : Fin 1024) : lastTo (lidx_main_v23 i k) k1 = lastTo i k1 := funext fun a => by match a with | ⟨0, _⟩ => rfl | ⟨1, _⟩ => rfl | ⟨2, _⟩ => rfl
theorem idx_h3 (i : S4x2048x1024.Idx) (k : Fin 1024) : ridx_main_v23 i k = ix2 ⟨(i 2).val, (i 2).isLt⟩ k := funext fun a => by match a with | ⟨0, _⟩ => rfl | ⟨1, _⟩ => rfl

/-! ## The normalised rows and the projections -/

/-- The normalised, scaled rows. -/
theorem h_apply (i : S4x2048x1024.Idx) :
    val_main_v20 (F := Ideal) x0 x1 i = hrow (fun k => x0 (lastTo i k)) (fun k => x1 (ix1 k)) ⟨(i 2).val, (i 2).isLt⟩ := by
  unfold hrow mean var c1024 epsE
  simp only [val_main_v20_apply, val_main_v19_apply, val_main_v18_apply, val_main_v17_apply, val_main_v16_apply, val_main_v15_apply,
    val_main_v14_apply, val_main_v13_apply, val_main_cst_3_apply, val_main_v12_apply, val_main_v11_apply, val_main_v10_apply,
    val_main_v9_apply, val_main_cst_2_apply, val_main_v8_apply, val_main_v7_apply, val_main_cst_1_apply, val_main_v6_apply,
    val_main_v5_apply, val_main_v4_apply, val_main_v3_apply, val_main_v2_apply, val_main_cst_0_apply, val_main_v1_apply,
    val_main_v0_apply, val_main_cst_apply]
  simp only [idx_a, idx_b, idx_c, idx_d, idx_e, idx_f, Ideal.ofBits_def, Ideal.ofBits_zero_f32, zero_add, Ideal.mulf_def, Ideal.subf_def, Ideal.addf_def,
    Ideal.hostDivf_def, Ideal.hostUnary_rsqrt_def, mean, c1024]
  rfl

theorem q_eq : val_main_v21 (F := Ideal) x0 x1 x2 = Gproj x0 x1 (tr x2) := by
  funext i
  rw [val_main_v21_apply]
  unfold Gproj
  refine Finset.sum_congr rfl fun k _ => ?_
  rw [h_apply]
  simp only [idx_g, idx_h]
  rfl

theorem k_eq : val_main_v22 (F := Ideal) x0 x1 x3 = Gproj x0 x1 (tr x3) := by
  funext i
  rw [val_main_v22_apply]
  unfold Gproj
  refine Finset.sum_congr rfl fun k _ => ?_
  rw [h_apply]
  simp only [idx_g2, idx_h2]
  rfl

theorem v_eq : val_main_v23 (F := Ideal) x0 x1 x4 = Gproj x0 x1 (tr x4) := by
  funext i
  rw [val_main_v23_apply]
  unfold Gproj
  refine Finset.sum_congr rfl fun k _ => ?_
  rw [h_apply]
  simp only [idx_g3, idx_h3]
  rfl

/-! ## The scores -/

theorem s_eq (i : S4x2048x1024.Idx) (j : Fin 2048) :
    val_main_v24 (F := Ideal) x0 x1 x2 x3 (lidx_main_v36 i j) = scoresOf (Gproj x0 x1 (tr x2)) (Gproj x0 x1 (tr x3)) i j := by
  rw [val_main_v24_apply, q_eq, k_eq]
  unfold scoresOf
  refine Finset.sum_congr rfl fun e _ => ?_
  have e1 : lidx_main_v24 (lidx_main_v36 i j) e = lastTo i e := funext fun a => by match a with | ⟨0, _⟩ => rfl | ⟨1, _⟩ => rfl | ⟨2, _⟩ => rfl
  have e2 : ridx_main_v24 (lidx_main_v36 i j) e = rowTo i j e := funext fun a => by match a with | ⟨0, _⟩ => rfl | ⟨1, _⟩ => rfl | ⟨2, _⟩ => rfl
  rw [e1, e2]

/-! ## The softmax row and its contraction with the values -/

/-- The row (i 0, i 1) as an index of a [4, 2048] array. -/
abbrev rowIdx (i : S4x2048x1024.Idx) : S4x2048.Idx := fun a => match a with
  | ⟨0, _⟩ => ⟨(i 0).val, (i 0).isLt⟩
  | ⟨1, _⟩ => ⟨(i 1).val, (i 1).isLt⟩

theorem idx_r1 (i : S4x2048x1024.Idx) (j : Fin 2048) : idx_main_v28 (idx_main_v29 (lidx_main_v36 i j)) = rowIdx i := funext fun a => by match a with | ⟨0, _⟩ => rfl | ⟨1, _⟩ => rfl
theorem idx_r2 (i : S4x2048x1024.Idx) (j : Fin 2048) : idx_main_v33 (idx_main_v34 (lidx_main_v36 i j)) = rowIdx i := funext fun a => by match a with | ⟨0, _⟩ => rfl | ⟨1, _⟩ => rfl
theorem idx_r3 (i : S4x2048x1024.Idx) (j : Fin 2048) : idx_main_v32 (rowIdx i) j = lidx_main_v36 i j := funext fun a => by match a with | ⟨0, _⟩ => rfl | ⟨1, _⟩ => rfl | ⟨2, _⟩ => rfl
theorem idx_r4 (i : S4x2048x1024.Idx) (j : Fin 2048) : ridx_main_v36 i j = rowTo i j ⟨(i 2).val, (i 2).isLt⟩ := funext fun a => by match a with | ⟨0, _⟩ => rfl | ⟨1, _⟩ => rfl | ⟨2, _⟩ => rfl

/-- The row's shift: its largest score (from minus infinity). -/
def Mrow (i : S4x2048x1024.Idx) : EReal := val_main_v27 (F := Ideal) x0 x1 x2 x3 (rowIdx i)

theorem v36_eq (i : S4x2048x1024.Idx) :
    val_main_v36 (F := Ideal) x0 x1 x2 x3 x4 i
      = refRow (scoresOf (Gproj x0 x1 (tr x2)) (Gproj x0 x1 (tr x3)) i) (valuesOf (Gproj x0 x1 (tr x4)) i) (Mrow x0 x1 x2 x3 i) 0 ⟨(i 2).val, (i 2).isLt⟩ := by
  rw [val_main_v36_apply, v_eq]
  unfold refRow valuesOf Mrow
  refine Finset.sum_congr rfl fun j _ => ?_
  simp only [val_main_v35_apply, val_main_v34_apply, val_main_v33_apply, val_main_v32_apply, val_main_v31_apply, val_main_v30_apply,
    val_main_v29_apply, val_main_v28_apply, val_main_cst_6_apply, idx_r1, idx_r2, idx_r3, idx_r4, s_eq,
    Ideal.ofBits_def, Ideal.ofBits_zero_f32, Ideal.hostDivf_def, Ideal.hostUnary_exp_def, Ideal.subf_def]

/-! ## Finiteness -/

section Finite

variable (hx0 : ∀ p, Fin' (x0 p)) (hx1 : ∀ p, Fin' (x1 p)) (hx2 : ∀ p, Fin' (x2 p)) (hx3 : ∀ p, Fin' (x3 p)) (hx4 : ∀ p, Fin' (x4 p))

include hx0 hx1 in
theorem fin_proj (w : S1024x1024.Idx → EReal) (hw : ∀ p, Fin' (w p)) (p : S4x2048x1024.Idx) : Fin' (Gproj x0 x1 (tr w) p) := by
  unfold Gproj
  exact fin_dot _ _ (fun d => fin_hrow _ _ (fun k => hx0 _) (fun k => hx1 _) d) (fun d => hw _)

include hx0 hx1 hx2 hx3 in
theorem fin_scores (i : S4x2048x1024.Idx) (j : Fin 2048) : Fin' (scoresOf (Gproj x0 x1 (tr x2)) (Gproj x0 x1 (tr x3)) i j) := by
  unfold scoresOf
  exact fin_dot _ _ (fun e => fin_proj x0 x1 hx0 hx1 x2 hx2 _) (fun e => fin_proj x0 x1 hx0 hx1 x3 hx3 _)

include hx0 hx1 hx2 hx3 in
theorem fin_v24 (p : S4x2048x2048.Idx) : Fin' (val_main_v24 (F := Ideal) x0 x1 x2 x3 p) := by
  rw [val_main_v24_apply, q_eq, k_eq]
  exact fin_dot _ _ (fun e => fin_proj x0 x1 hx0 hx1 x2 hx2 _) (fun e => fin_proj x0 x1 hx0 hx1 x3 hx3 _)

include hx0 hx1 hx2 hx3 in
theorem fin_M (i : S4x2048x1024.Idx) : Fin' (Mrow x0 x1 x2 x3 i) := by
  unfold Mrow
  rw [val_main_v27_apply, val_main_v26_apply, val_main_cst_5_apply]
  unfold val_main_v25
  have e := Host.reduce_eq_fold_single (FloatOps.maximumf (F := Ideal) (φ := .f32)) (val_main_v24 (F := Ideal) x0 x1 x2 x3) (val_main_cst_4 (F := Ideal))
    reducesTo_S4x2048x2048_S4x2048_d2 (by decide) h_S_ (rowIdx i)
  rw [e, val_main_cst_4_apply]
  simp only [Ideal.ofBits_def, Ideal.maximumf_def]
  rw [show Ideal.ofBits .f32 0xFF800000#32 = (⊥ : EReal) from Cert.Consts.ofBits_neg_inf, max_eq_right bot_le]
  haveI : Nonempty (Fin (S4x2048x2048.size 2)) := ⟨⟨0, by decide⟩⟩
  exact fin_fold_max _ (fun k => fin_v24 x0 x1 x2 x3 hx0 hx1 hx2 hx3 _)

include hx0 hx1 hx2 hx3 hx4 in
/-- The reference's result is the kernel's function of the arguments. -/
theorem ref_eq : val_main_v37 (F := Ideal) x0 x1 x2 x3 x4 x5 = Gkernel x0 x1 x2 x3 x4 x5 := by
  funext i
  rw [val_main_v37_apply]
  unfold Gkernel Gattn
  refine Finset.sum_congr rfl fun d _ => ?_
  rw [v36_eq]
  have e1 : scoresOf (Gproj x0 x1 (tr x2)) (Gproj x0 x1 (tr x3)) (lidx_main_v37 i d) = scoresOf (Gproj x0 x1 (tr x2)) (Gproj x0 x1 (tr x3)) i := by
    funext j
    unfold scoresOf
    refine Finset.sum_congr rfl fun e _ => ?_
    have a1 : lastTo (lidx_main_v37 i d) e = lastTo i e := funext fun a => by match a with | ⟨0, _⟩ => rfl | ⟨1, _⟩ => rfl | ⟨2, _⟩ => rfl
    have a2 : rowTo (lidx_main_v37 i d) j e = rowTo i j e := funext fun a => by match a with | ⟨0, _⟩ => rfl | ⟨1, _⟩ => rfl | ⟨2, _⟩ => rfl
    rw [a1, a2]
  have e2 : valuesOf (Gproj x0 x1 (tr x4)) (lidx_main_v37 i d) = valuesOf (Gproj x0 x1 (tr x4)) i := by
    funext j k
    unfold valuesOf
    have a2 : rowTo (lidx_main_v37 i d) j k = rowTo i j k := funext fun a => by match a with | ⟨0, _⟩ => rfl | ⟨1, _⟩ => rfl | ⟨2, _⟩ => rfl
    rw [a2]
  have e3 : Mrow x0 x1 x2 x3 (lidx_main_v37 i d) = Mrow x0 x1 x2 x3 i := by
    unfold Mrow
    have a3 : rowIdx (lidx_main_v37 i d) = rowIdx i := funext fun a => by match a with | ⟨0, _⟩ => rfl | ⟨1, _⟩ => rfl
    rw [a3]
  have e5 : ridx_main_v37 i d = ix2 ⟨(i 2).val, (i 2).isLt⟩ d := funext fun a => by match a with | ⟨0, _⟩ => rfl | ⟨1, _⟩ => rfl
  rw [e1, e2, e3, e5]
  refine congrArg₂ (· * ·) ?_ rfl
  exact (rows_agree (scoresOf (Gproj x0 x1 (tr x2)) (Gproj x0 x1 (tr x3)) i) (valuesOf (Gproj x0 x1 (tr x4)) i) (Mrow x0 x1 x2 x3 i)
    (fun j => fin_scores x0 x1 x2 x3 hx0 hx1 hx2 hx3 i j)
    (fun j k => by unfold valuesOf; exact fin_proj x0 x1 hx0 hx1 x4 hx4 _) (fin_M x0 x1 x2 x3 hx0 hx1 hx2 hx3 i) d).symm

end Finite

end Cert.ReferenceIdeal.RefValue

end
-- ==== Proof.PreFinite.lean ====
/-
  The precondition, read back: every entry of every float argument passes |x| < +∞, so it is neither
  infinity — the image of a real number.
-/
import proofs.«143834_j38010460570082_2_alg».proof.Pre_finite_inputs
import proofs.«143834_j38010460570082_2_alg».proof.Proof.Gen.Pre_finite_inputs
import proofs.«143834_j38010460570082_2_alg».proof.Proof.LibERealFinite
import Idealize.ShloMosaic.Lib.ReduceAll
import Idealize.ShloMosaic.Lib.ValueIdx
import Idealize.ShloMosaic.Lib.Pipeline.Value
import Idealize.ShloMosaic.PureOps.Ideal.Laws

noncomputable section

namespace Cert.PreFinite

open Idealize.ShloMosaic Cert.Pre_finite_inputs Cert.Lib.Finite

instance : Subsingleton S_.Idx := ⟨fun a b => funext fun d => d.elim0⟩

/-- An extended real whose absolute value is below +∞ is neither infinity. -/
theorem fin_of_abs_lt (x : EReal)
    (h : FloatOps.cmpf (F := Ideal) (φ := .f32) .olt (FloatOps.hostAbsf (F := Ideal) (φ := .f32) x) (FloatOps.ofBits (F := Ideal) .f32 0x7F800000#32) = 1#1) :
    Fin' x := by
  have htop : Ideal.ofBits .f32 0x7F800000#32 = (⊤ : EReal) := by simp [Ideal.ofBits, Ideal.ieee]
  rw [Ideal.cmpf_def, Ideal.ofBits_def, htop] at h
  have h' : max x (-x) < ⊤ := by
    by_contra hn
    have h0 : Ideal.cmp .olt (max x (-x)) ⊤ = 0#1 := by
      show BitVec.ofBool (decide (max x (-x) < ⊤)) = 0#1
      rw [decide_eq_false hn]; rfl
    have h1 : Ideal.cmp .olt (max x (-x)) ⊤ = 1#1 := h
    rw [h0] at h1; exact absurd h1 (by decide)
  refine ⟨?_, ?_⟩
  · rintro rfl; simp at h'
  · rintro rfl; simp at h'

/-- One array's test, read at an entry. -/
theorem fin_of_all {s : Shape} (a : FVec Ideal s .f32) (hb : S_.BroadcastsInDim s (![] : Fin 0 → Fin s.rank))
    {axes : List (Fin s.rank)} (hr : s.ReducesTo axes S_) (hu : 0 < S_.numel) (init : S_.Idx → BitVec 1)
    (h : Host.reduce IntOp.andi (cmpf .olt (Host.absf a) (broadcastInDim s ![] hb (constant (F := Ideal) S_ .f32 0x7F800000#32))) init hr hu ValueIdx.ix0 = 1#1)
    (p : s.Idx) : Fin' (a p) := by
  have hp := Host.reduce_andi_all _ _ hr hu ValueIdx.ix0 h p
  refine fin_of_abs_lt (a p) ?_
  rw [← hp]
  show _ = FloatOps.cmpf .olt (FloatOps.hostAbsf (a p)) (broadcastInDim s ![] hb (constant (F := Ideal) S_ .f32 0x7F800000#32) p)
  rw [broadcastInDim_apply _ hb (constant (F := Ideal) S_ .f32 0x7F800000#32) p ValueIdx.ix0 (fun a => a.elim0)]
  rfl

/-- Under the precondition every entry of the first five arguments is the image of a real. -/
theorem finite_of_pre [Facts] (a0 : FVec Ideal S4x2048x1024 .f32) (a1 : FVec Ideal S1024 .f32) (a2 a3 a4 a5 : FVec Ideal S1024x1024 .f32)
    (h : fn (F := Ideal) a0 a1 a2 a3 a4 a5 = fun _ => 1#1) :
    (∀ p, Fin' (a0 p)) ∧ (∀ p, Fin' (a1 p)) ∧ (∀ p, Fin' (a2 p)) ∧ (∀ p, Fin' (a3 p)) ∧ (∀ p, Fin' (a4 p)) := by
  have h0 := congrFun h ValueIdx.ix0
  dsimp only [fn, fn_part1] at h0
  obtain ⟨h01234, -⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h0', h1⟩ := IntOp.andi_eq_one.1 h01
  exact ⟨fin_of_all a0 _ _ _ _ h0', fin_of_all a1 _ _ _ _ h1, fin_of_all a2 _ _ _ _ h2, fin_of_all a3 _ _ _ _ h3, fin_of_all a4 _ _ _ _ h4⟩

end Cert.PreFinite

end
-- ==== Proof.lean ====
/-
  The certificate's claim.

  Both programs run: eight host operations (each weight matrix transposed and narrowed), a first
  pallas_call computing the layer-normalised rows' three projections q, k, v tile by tile, and a second
  computing attention — per batch and query tile, four key tiles visited in turn with a running maximum,
  normalizer and numerator kept in scratch, divided and projected at the last key tile.  The frames say
  each program terminates with its arguments unchanged; the idealization rewrote nothing; at the ideal
  values the kernel's result is the reference's: the layer normalisation and the projections are the
  same sums on both sides, and the four-tile running softmax is the softmax taken at once because, the
  inputs being finite, every score and value is a real number.
-/
import proofs.«143834_j38010460570082_2_alg».proof.Defs
import proofs.«143834_j38010460570082_2_alg».proof.Proof.Gen.Kernel
import proofs.«143834_j38010460570082_2_alg».proof.Proof.Gen.KernelIdeal
import proofs.«143834_j38010460570082_2_alg».proof.Proof.Gen.ReferenceIdeal
import proofs.«143834_j38010460570082_2_alg».proof.Proof.Gen.ReferenceIdeal.Run
import proofs.«143834_j38010460570082_2_alg».proof.Proof.Gen.ReferenceIdeal.Read
import proofs.«143834_j38010460570082_2_alg».proof.Proof.Gen.Pre_finite_inputs
import proofs.«143834_j38010460570082_2_alg».proof.Proof.BitsRun
import proofs.«143834_j38010460570082_2_alg».proof.Proof.IdealRun
import proofs.«143834_j38010460570082_2_alg».proof.Proof.IdealFinal
import proofs.«143834_j38010460570082_2_alg».proof.Proof.RefValue
import proofs.«143834_j38010460570082_2_alg».proof.Proof.PreFinite
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- At the ideal values both programs end at the same result: the kernel's result array is its function of
    the arguments (the attention output over the projections of the normalised rows), and, the inputs
    being finite, the reference's result is that function too. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.Gkernel (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Hand.result_eq m ρ c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨f0, f1, f2, f3, f4⟩ := @Cert.PreFinite.finite_of_pre Cert.Pre_finite_inputs.Gen.facts _ _ _ _ _ _ (hpre c)
    rw [Cert.ReferenceIdeal.Read.val_main_v37_eq, (hagree c).1, (hagree c).2.1, (hagree c).2.2.1, (hagree c).2.2.2.1,
      (hagree c).2.2.2.2.1, (hagree c).2.2.2.2.2]
    exact Cert.ReferenceIdeal.RefValue.ref_eq _ _ _ _ _ _ f0 f1 f2 f3 f4

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
